-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2097152 : Shape := ⟨1, ![2097152]⟩
abbrev S512x32 : Shape := ⟨2, ![512, 32]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2097152 : S_.BroadcastsInDim S2097152 (![] : Fin 0 → Fin S2097152.rank)
  reducesTo_S2097152_S_d0 : S2097152.ReducesTo [0] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S2048x1024 .f32) (main_arg1 : FVec F S2097152 .f32) (main_arg2 : FVec F S512x32 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2097152 .f32 := Host.absf main_arg1
  let main_cst_0 : FVec F S_ .f32 := constant S_ .f32 0x7F800000#32
  let main_v5 : FVec F S2097152 .f32 := broadcastInDim S2097152 ![] bcast_S_S2097152 main_cst_0
  let main_v6 : IVec S2097152 1 := cmpf .olt main_v4 main_v5
  let main_c_1 : IVec S_ 1 := constantI S_ 1 1#1
  let main_v7 : IVec S_ 1 := (fun x v => Host.reduce IntOp.andi x v reducesTo_S2097152_S_d0 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S2048x1024 : Shape := ⟨2, ![2048, 1024]⟩
abbrev S2097152 : Shape := ⟨1, ![2097152]⟩
abbrev S512x32 : Shape := ⟨2, ![512, 32]⟩
abbrev S32x512 : Shape := ⟨2, ![32, 512]⟩
abbrev S_ : Shape := ⟨0, ![]⟩
abbrev S512 : Shape := ⟨1, ![512]⟩
abbrev S1x512 : Shape := ⟨2, ![1, 512]⟩
abbrev S512x64 : Shape := ⟨2, ![512, 64]⟩
abbrev S512x1024 : Shape := ⟨2, ![512, 1024]⟩
abbrev S512x512 : Shape := ⟨2, ![512, 512]⟩
abbrev S1024x1024 : Shape := ⟨2, ![1024, 1024]⟩

abbrev nBuf : Space → Nat
  | .hbm => 20
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2097152, .f32⟩
  | .hbm, ⟨2, _⟩ => ⟨S512x32, .f32⟩
  | .hbm, ⟨3, _⟩ => ⟨S2048x1024, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x512, .bf16⟩
  | .hbm, ⟨9, _⟩ => ⟨S512x32, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S1x512, .f32⟩
  | .hbm, ⟨14, _⟩ => ⟨S_, .f32⟩
  | .hbm, ⟨15, _⟩ => ⟨S512x32, .f32⟩
  | .hbm, ⟨16, _⟩ => ⟨S512x64, .f32⟩
  | .hbm, ⟨17, _⟩ => ⟨S512x64, .bf16⟩
  | .hbm, ⟨18, _⟩ => ⟨S2048x1024, .f32⟩
  | .hbm, ⟨19, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S32x512, .bf16⟩
  | .local _ .vmem, ⟨3, _⟩ => ⟨S1x512, .f32⟩
  | .local _ .vmem, ⟨4, _⟩ => ⟨S512x64, .bf16⟩
  | .local _ .vmem, ⟨5, _⟩ => ⟨S512x1024, .f32⟩
  | .local _ .vmem, ⟨6, _⟩ => ⟨S512x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S2097152_S2048x1024 : S2097152.ShapeCasts S2048x1024
  transposes_S512x32_S32x512_1_0 : S512x32.Transposes [1, 0] S32x512
  bcast_S_S32x512 : S_.BroadcastsInDim S32x512 (![] : Fin 0 → Fin S32x512.rank)
  bitsLt_bf16_f32 : FTy.bits .bf16 < FTy.bits .f32
  reducesTo_S512x32_S512_d1 : S512x32.ReducesTo [1] S512
  h_S_ : 0 < S_.numel
  bcast_S512_S1x512_1 : S512.BroadcastsInDim S1x512 (![1] : Fin 1 → Fin S1x512.rank)
  bcast_S_S512x32 : S_.BroadcastsInDim S512x32 (![] : Fin 0 → Fin S512x32.rank)
  concatenates_S512x32_S512x32_S512x64_d1 : Shape.Concatenates [S512x32, S512x32] S512x64 1
  inb_S512x1024_S512x32_0_0 : ∀ a, (![0, 0] : Fin 2 → Nat) a + S512x32.size a ≤ S512x1024.size a
  h_S512x32 : 0 < S512x32.numel
  shapeCasts_S512x32_S512x32 : S512x32.ShapeCasts S512x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  slices_S512x64_o0_0_S512x32 : S512x64.Slices ![0, 0] S512x32
  slices_S512x64_o0_32_S512x32 : S512x64.Slices ![0, 32] S512x32
  inb_S512x1024_S512x32_0_32 : ∀ a, (![0, 32] : Fin 2 → Nat) a + S512x32.size a ≤ S512x1024.size a
  inb_S512x1024_S512x32_0_64 : ∀ a, (![0, 64] : Fin 2 → Nat) a + S512x32.size a ≤ S512x1024.size a
  inb_S512x1024_S512x32_0_96 : ∀ a, (![0, 96] : Fin 2 → Nat) a + S512x32.size a ≤ S512x1024.size a
  inb_S512x1024_S512x32_0_128 : ∀ a, (![0, 128] : Fin 2 → Nat) a + S512x32.size a ≤ S512x1024.size a
  inb_S512x1024_S512x32_0_160 : ∀ a, (![0, 160] : Fin 2 → Nat) a + S512x32.size a ≤ S512x1024.size a
  inb_S512x1024_S512x32_0_192 : ∀ a, (![0, 192] : Fin 2 → Nat) a + S512x32.size a ≤ S512x1024.size a
  inb_S512x1024_S512x32_0_224 : ∀ a, (![0, 224] : Fin 2 → Nat) a + S512x32.size a ≤ S512x1024.size a
  inb_S512x1024_S512x32_0_256 : ∀ a, (![0, 256] : Fin 2 → Nat) a + S512x32.size a ≤ S512x1024.size a
  inb_S512x1024_S512x32_0_288 : ∀ a, (![0, 288] : Fin 2 → Nat) a + S512x32.size a ≤ S512x1024.size a
  inb_S512x1024_S512x32_0_320 : ∀ a, (![0, 320] : Fin 2 → Nat) a + S512x32.size a ≤ S512x1024.size a
  inb_S512x1024_S512x32_0_352 : ∀ a, (![0, 352] : Fin 2 → Nat) a + S512x32.size a ≤ S512x1024.size a
  inb_S512x1024_S512x32_0_384 : ∀ a, (![0, 384] : Fin 2 → Nat) a + S512x32.size a ≤ S512x1024.size a
  inb_S512x1024_S512x32_0_416 : ∀ a, (![0, 416] : Fin 2 → Nat) a + S512x32.size a ≤ S512x1024.size a
  inb_S512x1024_S512x32_0_448 : ∀ a, (![0, 448] : Fin 2 → Nat) a + S512x32.size a ≤ S512x1024.size a
  inb_S512x1024_S512x32_0_480 : ∀ a, (![0, 480] : Fin 2 → Nat) a + S512x32.size a ≤ S512x1024.size a
  inb_S512x1024_S512x32_0_512 : ∀ a, (![0, 512] : Fin 2 → Nat) a + S512x32.size a ≤ S512x1024.size a
  inb_S512x1024_S512x32_0_544 : ∀ a, (![0, 544] : Fin 2 → Nat) a + S512x32.size a ≤ S512x1024.size a
  inb_S512x1024_S512x32_0_576 : ∀ a, (![0, 576] : Fin 2 → Nat) a + S512x32.size a ≤ S512x1024.size a
  inb_S512x1024_S512x32_0_608 : ∀ a, (![0, 608] : Fin 2 → Nat) a + S512x32.size a ≤ S512x1024.size a
  inb_S512x1024_S512x32_0_640 : ∀ a, (![0, 640] : Fin 2 → Nat) a + S512x32.size a ≤ S512x1024.size a
  inb_S512x1024_S512x32_0_672 : ∀ a, (![0, 672] : Fin 2 → Nat) a + S512x32.size a ≤ S512x1024.size a
  inb_S512x1024_S512x32_0_704 : ∀ a, (![0, 704] : Fin 2 → Nat) a + S512x32.size a ≤ S512x1024.size a
  inb_S512x1024_S512x32_0_736 : ∀ a, (![0, 736] : Fin 2 → Nat) a + S512x32.size a ≤ S512x1024.size a
  inb_S512x1024_S512x32_0_768 : ∀ a, (![0, 768] : Fin 2 → Nat) a + S512x32.size a ≤ S512x1024.size a
  inb_S512x1024_S512x32_0_800 : ∀ a, (![0, 800] : Fin 2 → Nat) a + S512x32.size a ≤ S512x1024.size a
  inb_S512x1024_S512x32_0_832 : ∀ a, (![0, 832] : Fin 2 → Nat) a + S512x32.size a ≤ S512x1024.size a
  inb_S512x1024_S512x32_0_864 : ∀ a, (![0, 864] : Fin 2 → Nat) a + S512x32.size a ≤ S512x1024.size a
  inb_S512x1024_S512x32_0_896 : ∀ a, (![0, 896] : Fin 2 → Nat) a + S512x32.size a ≤ S512x1024.size a
  inb_S512x1024_S512x32_0_928 : ∀ a, (![0, 928] : Fin 2 → Nat) a + S512x32.size a ≤ S512x1024.size a
  inb_S512x1024_S512x32_0_960 : ∀ a, (![0, 960] : Fin 2 → Nat) a + S512x32.size a ≤ S512x1024.size a
  inb_S512x1024_S512x32_0_992 : ∀ a, (![0, 992] : Fin 2 → Nat) a + S512x32.size a ≤ S512x1024.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x32_S32x512_S512x512_1_0_0_1_n_n_wf : DotDims.WF S512x32 S32x512 S512x512 [1] [0] [0] [1] [] []
  dot_S512x512_S512x64_S512x64_1_0_0_1_n_n_wf : DotDims.WF S512x512 S512x64 S512x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .bf16 = 32 ∨ (Rect.block (s := S32x512) S32x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .bf16 = 32 ∨ (Rect.block (s := S512x64) S512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S2048x1024.size a
  hwx0_4 : ∀ i : grid0.Coords, EltTy.bits .f32 = 32 ∨ (Rect.block (s := S2048x1024) S512x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S2048x1024.size a
  hwx1_0 : ∀ i : grid1.Coords, EltTy.bits .f32 = 32 ∨ (Rect.block (s := S2048x1024) S1024x1024.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S2048x1024.size a
  hwx1_1 : ∀ i : grid1.Coords, EltTy.bits .f32 = 32 ∨ (Rect.block (s := S2048x1024) S1024x1024.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S2048x1024.size a
  hwx1_2 : ∀ i : grid1.Coords, EltTy.bits .f32 = 32 ∨ (Rect.block (s := S2048x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S2048x1024.size a
  hwx1_3 : ∀ i : grid1.Coords, EltTy.bits .f32 = 32 ∨ (Rect.block (s := S2048x1024) S1024x1024.size (cc1_transform_3 i) (hinb1_3 i)).WholeWords (EltTy.packing .f32)

variable [Facts₀]

def dot_S512x32_S32x512_S512x512_1_0_0_1_n_n : DotDims S512x32 S32x512 S512x512 where
  lhsContracting := [1]
  rhsContracting := [0]
  lhsNonContracting := [0]
  rhsNonContracting := [1]
  lhsBatch := []
  rhsBatch := []
  wf := dot_S512x32_S32x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x1024.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x1024.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x1024 : Shape := ⟨2, ![2048, 1024]⟩
abbrev S2097152 : Shape := ⟨1, ![2097152]⟩
abbrev S512x32 : Shape := ⟨2, ![512, 32]⟩
abbrev S1048576 : Shape := ⟨1, ![1048576]⟩
abbrev S32768x32 : Shape := ⟨2, ![32768, 32]⟩
abbrev S_ : Shape := ⟨0, ![]⟩
abbrev S32768 : Shape := ⟨1, ![32768]⟩
abbrev S32768x1 : Shape := ⟨2, ![32768, 1]⟩
abbrev S32x512 : Shape := ⟨2, ![32, 512]⟩
abbrev S32768x512 : Shape := ⟨2, ![32768, 512]⟩
abbrev S512 : Shape := ⟨1, ![512]⟩
abbrev S1x512 : Shape := ⟨2, ![1, 512]⟩
abbrev S1024x1024 : Shape := ⟨2, ![1024, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2097152, .f32⟩
  | .hbm, ⟨2, _⟩ => ⟨S512x32, .f32⟩
  | .hbm, ⟨3, _⟩ => ⟨S1048576, .f32⟩
  | .hbm, ⟨4, _⟩ => ⟨S32768x32, .f32⟩
  | .hbm, ⟨5, _⟩ => ⟨S32768x32, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S32x512, .f32⟩
  | .hbm, ⟨10, _⟩ => ⟨S32768x512, .f32⟩
  | .hbm, ⟨11, _⟩ => ⟨S_, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S512x32, .f32⟩
  | .hbm, ⟨17, _⟩ => ⟨S_, .f32⟩
  | .hbm, ⟨18, _⟩ => ⟨S512, .f32⟩
  | .hbm, ⟨19, _⟩ => ⟨S1x512, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S_, .f32⟩
  | .hbm, ⟨24, _⟩ => ⟨S32768, .f32⟩
  | .hbm, ⟨25, _⟩ => ⟨S_, .f32⟩
  | .hbm, ⟨26, _⟩ => ⟨S32768, .f32⟩
  | .hbm, ⟨27, _⟩ => ⟨S32768, .f32⟩
  | .hbm, ⟨28, _⟩ => ⟨S32768x1, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S32768x512, .f32⟩
  | .hbm, ⟨36, _⟩ => ⟨S32768x512, .f32⟩
  | .hbm, ⟨37, _⟩ => ⟨S32768x32, .f32⟩
  | .hbm, ⟨38, _⟩ => ⟨S1048576, .f32⟩
  | .hbm, ⟨39, _⟩ => ⟨S1024x1024, .f32⟩
  | .hbm, ⟨40, _⟩ => ⟨S1048576, .f32⟩
  | .hbm, ⟨41, _⟩ => ⟨S32768x32, .f32⟩
  | .hbm, ⟨42, _⟩ => ⟨S32768x32, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S32x512, .f32⟩
  | .hbm, ⟨47, _⟩ => ⟨S32768x512, .f32⟩
  | .hbm, ⟨48, _⟩ => ⟨S_, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S32768x512, .f32⟩
  | .hbm, ⟨53, _⟩ => ⟨S512x32, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S32768x512, .f32⟩
  | .hbm, ⟨58, _⟩ => ⟨S32768x512, .f32⟩
  | .hbm, ⟨59, _⟩ => ⟨S32768x512, .f32⟩
  | .hbm, ⟨60, _⟩ => ⟨S_, .f32⟩
  | .hbm, ⟨61, _⟩ => ⟨S32768, .f32⟩
  | .hbm, ⟨62, _⟩ => ⟨S_, .f32⟩
  | .hbm, ⟨63, _⟩ => ⟨S32768, .f32⟩
  | .hbm, ⟨64, _⟩ => ⟨S32768, .f32⟩
  | .hbm, ⟨65, _⟩ => ⟨S32768x1, .f32⟩
  | .hbm, ⟨66, _⟩ => ⟨S32768x512, .f32⟩
  | .hbm, ⟨67, _⟩ => ⟨S32768x512, .f32⟩
  | .hbm, ⟨68, _⟩ => ⟨S32768x512, .f32⟩
  | .hbm, ⟨69, _⟩ => ⟨S_, .f32⟩
  | .hbm, ⟨70, _⟩ => ⟨S32768, .f32⟩
  | .hbm, ⟨71, _⟩ => ⟨S32768x1, .f32⟩
  | .hbm, ⟨72, _⟩ => ⟨S32768x512, .f32⟩
  | .hbm, ⟨73, _⟩ => ⟨S32768x512, .f32⟩
  | .hbm, ⟨74, _⟩ => ⟨S32768x32, .f32⟩
  | .hbm, ⟨75, _⟩ => ⟨S1048576, .f32⟩
  | .hbm, ⟨76, _⟩ => ⟨S1024x1024, .f32⟩
  | .hbm, ⟨77, _⟩ => ⟨S2048x1024, .f32⟩
  | .hbm, ⟨78, _⟩ => ⟨S_, .f32⟩
  | .hbm, ⟨79, _⟩ => ⟨S2048x1024, .f32⟩
  | .hbm, ⟨80, _⟩ => ⟨S2048x1024, .f32⟩
  | .hbm, ⟨81, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call0_cst : Ref sig .tc := ⟨.hbm, 78, rfl⟩
abbrev main_call0_v0 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]

class Facts₀ : Prop where
  slices_S2097152_S1048576_0 : S2097152.Slices ![0] S1048576
  shapeCasts_S1048576_S32768x32 : S1048576.ShapeCasts S32768x32
  reducesTo_S32768x32_S32768_d1 : S32768x32.ReducesTo [1] S32768
  h_S_ : 0 < S_.numel
  bcast_S32768_S32768x1_0 : S32768.BroadcastsInDim S32768x1 (![0] : Fin 1 → Fin S32768x1.rank)
  transposes_S512x32_S32x512_1_0 : S512x32.Transposes [1, 0] S32x512
  bcast_S_S32768x512 : S_.BroadcastsInDim S32768x512 (![] : Fin 0 → Fin S32768x512.rank)
  bcast_S32768x1_S32768x512_0_1 : S32768x1.BroadcastsInDim S32768x512 (![0, 1] : Fin 2 → Fin S32768x512.rank)
  reducesTo_S512x32_S512_d1 : S512x32.ReducesTo [1] S512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  reducesTo_S32768x512_S32768_d1 : S32768x512.ReducesTo [1] S32768
  bcast_S_S32768 : S_.BroadcastsInDim S32768 (![] : Fin 0 → Fin S32768.rank)
  shapeCasts_S32768x32_S1048576 : S32768x32.ShapeCasts S1048576
  shapeCasts_S1048576_S1024x1024 : S1048576.ShapeCasts S1024x1024
  slices_S2097152_S1048576_1048576 : S2097152.Slices ![1048576] S1048576
  bcast_S_S2048x1024 : S_.BroadcastsInDim S2048x1024 (![] : Fin 0 → Fin S2048x1024.rank)
  dot_S32768x32_S32x512_S32768x512_1_0_0_1_n_n_wf : DotDims.WF S32768x32 S32x512 S32768x512 [1] [0] [0] [1] [] []
  dot_S32768x512_S512x32_S32768x32_1_0_0_1_n_n_wf : DotDims.WF S32768x512 S512x32 S32768x32 [1] [0] [0] [1] [] []
  dot_S2048x1024_S1024x1024_S2048x1024_1_0_0_1_n_n_wf : DotDims.WF S2048x1024 S1024x1024 S2048x1024 [1] [0] [0] [1] [] []

variable [Facts₀]

def dot_S32768x32_S32x512_S32768x512_1_0_0_1_n_n : DotDims S32768x32 S32x512 S32768x512 where
  lhsContracting := [1]
  rhsContracting := [0]
  lhsNonContracting := [0]
  rhsNonContracting := [1]
  lhsBatch := []
  rhsBatch := []
  wf := dot_S32768x32_S32x512_S32768x512_1_0_0_1_n_n_wf
def dot_S32768x512_S512x32_S32768x32_1_0_0_1_n_n : DotDims S32768x512 S512x32 S32768x32 where
  lhsContracting := [1]
  rhsContracting := [0]
  lhsNonContracting := [0]
  rhsNonContracting := [1]
  lhsBatch := []
  rhsBatch := []
  wf := dot_S32768x512_S512x32_S32768x32_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.RefGen.lean ====
/-
  The reference's run and its read-at-an-index lemmas, brought in for the modules that state what the
  reference computes.
-/
import proofs.«124686_g53111565582714_cont_9to1c4b_343_15_alg».proof.Proof.Gen.ReferenceIdeal.Run
import proofs.«124686_g53111565582714_cont_9to1c4b_343_15_alg».proof.Proof.Gen.ReferenceIdeal.Read
-- ==== Proof.BodyFns.lean ====
/-
  The two kernel bodies as pure functions of the blocks they load, at any float instance.

  One pass of the quantizer body takes a 512 x 32 group of code vectors `vj` (512 vectors, one per row), the
  32 x 512 array `mm` (twice the centroids, transposed), the 1 x 512 bias row `b` (minus the centroids' squared
  norms) and the 512 x 64 array `ca` (the centroids beside 32 columns of ones): the logits `vj mm + b`, their
  exponentials `e`, the product `e ca` — whose first 32 columns are the weighted sums of centroids and whose last
  32 columns each hold the sum of the weights —, and the first 32 columns times the reciprocal of the last 32.
  The second body is `max (x w1) 0` times `w2`.
-/
import proofs.«124686_g53111565582714_cont_9to1c4b_343_15_alg».proof.Proof.Gen.KernelIdeal

noncomputable section

namespace Cert.KernelIdeal.BodyFns

open Idealize.ShloMosaic Cert.KernelIdeal Cert.KernelIdeal.Facts₀ Cert.KernelIdeal.Facts

variable {F : FTy → Type} [FloatOps F]

/-- One pass of the quantizer body, from the four values it loads to the value it stores. -/
def groupVal (vj : Vec F S512x32 .f32) (mm : Vec F S32x512 .bf16) (b : Vec F S1x512 .f32) (ca : Vec F S512x64 .bf16) :
    FVec F S512x32 .f32 :=
  have v1 : FVec F S512x32 .f32 := shapeCast S512x32 vj shapeCasts_S512x32_S512x32
  have v2 : FVec F S512x32 .bf16 := truncf .bf16 v1 bitsLt_bf16_f32
  have v4 : FVec F S32x512 .bf16 := shapeCast S32x512 mm shapeCasts_S32x512_S32x512
  have cst : FVec F S512x512 .f32 := constant S512x512 .f32 0x00000000#32
  have v5 : FVec F S512x512 .f32 := matmul dot_S512x32_S32x512_S512x512_1_0_0_1_n_n none v2 v4 cst
  have v7 : FVec F S1x512 .f32 := shapeCast S1x512 b shapeCasts_S1x512_S1x512
  have v8 : FVec F S512x512 .f32 := broadcastTo S512x512 v7 broadcasts_S1x512_S512x512
  have v9 : FVec F S512x512 .f32 := addf v5 v8
  have v10 : FVec F S512x512 .f32 := exp v9
  have v11 : FVec F S512x512 .bf16 := truncf .bf16 v10 bitsLt_bf16_f32
  have v13 : FVec F S512x64 .bf16 := shapeCast S512x64 ca shapeCasts_S512x64_S512x64
  have cst_7 : FVec F S512x64 .f32 := constant S512x64 .f32 0x00000000#32
  have v14 : FVec F S512x64 .f32 := matmul dot_S512x512_S512x64_S512x64_1_0_0_1_n_n none v11 v13 cst_7
  have v15 : FVec F S512x32 .f32 := extractStridedSlice S512x32 ![0, 0] v14 slices_S512x64_o0_0_S512x32
  have v16 : FVec F S512x32 .f32 := extractStridedSlice S512x32 ![0, 32] v14 slices_S512x64_o0_32_S512x32
  have cst_8 : F .f32 := Scalar.ofBits .f32 0x3F800000#32
  have v17 : FVec F S512x32 .f32 := broadcast S512x32 cst_8
  have v18 : FVec F S512x32 .f32 := divf v17 v16
  have v19 : FVec F S512x32 .f32 := mulf v15 v18
  v19

/-- The second body, from the three blocks it loads to the block it stores. -/
def mlpVal (x w1 w2 : Vec F S1024x1024 .f32) : FVec F S1024x1024 .f32 :=
  have v1 : FVec F S1024x1024 .bf16 := truncf .bf16 x bitsLt_bf16_f32
  have v3 : FVec F S1024x1024 .f32 := shapeCast S1024x1024 w1 shapeCasts_S1024x1024_S1024x1024
  have v4 : FVec F S1024x1024 .bf16 := truncf .bf16 v3 bitsLt_bf16_f32
  have cst : FVec F S1024x1024 .f32 := constant S1024x1024 .f32 0x00000000#32
  have v5 : FVec F S1024x1024 .f32 := matmul dot_S1024x1024_S1024x1024_S1024x1024_1_0_0_1_n_n none v1 v4 cst
  have cst_3 : F .f32 := Scalar.ofBits .f32 0x00000000#32
  have v6 : FVec F S1024x1024 .f32 := broadcast S1024x1024 cst_3
  have v7 : FVec F S1024x1024 .f32 := maximumf v5 v6
  have v8 : FVec F S1024x1024 .bf16 := truncf .bf16 v7 bitsLt_bf16_f32
  have v10 : FVec F S1024x1024 .f32 := shapeCast S1024x1024 w2 shapeCasts_S1024x1024_S1024x1024
  have v11 : FVec F S1024x1024 .bf16 := truncf .bf16 v10 bitsLt_bf16_f32
  have cst_6 : FVec F S1024x1024 .f32 := constant S1024x1024 .f32 0x00000000#32
  have v12 : FVec F S1024x1024 .f32 := matmul dot_S1024x1024_S1024x1024_S1024x1024_1_0_0_1_n_n none v8 v11 cst_6
  v12

end Cert.KernelIdeal.BodyFns

end
-- ==== Proof.FrameQuant.lean ====
/-
  The first kernel region (the quantizer) on one core: what its staging buffers hold at every grid point, and
  that its body, run on them, leaves the output's buffer holding, in columns `32 j .. 32 j + 32` for each of
  the 32 column groups `j`, one pass of the quantizer on the same columns of the input block.

  The grid has four points; point `t` is handed rows `512 t .. 512 t + 512` of the 2048 x 1024 array of code
  vectors, and at every point the same three small arrays (twice the centroids transposed, minus their squared
  norms as a row, the centroids beside a block of ones). The 32 stores go through 32 disjoint rectangles that
  tile the 512 x 1024 output block.
-/
import proofs.«124686_g53111565582714_cont_9to1c4b_343_15_alg».proof.Proof.Gen.KernelIdeal.Launch
import proofs.«124686_g53111565582714_cont_9to1c4b_343_15_alg».proof.Proof.Gen.KernelIdeal.Skeleton
import proofs.«124686_g53111565582714_cont_9to1c4b_343_15_alg».proof.Proof.Gen.KernelIdeal.Points
import proofs.«124686_g53111565582714_cont_9to1c4b_343_15_alg».proof.Proof.BodyFns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.BodyFns

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: a window that is
    not fetched at a point has not moved since the point that fetched it. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Column group `j` of the 512 x 1024 block: all rows, columns `32 j .. 32 j + 32`. -/
abbrev rq_0 : Rect S512x1024 := Rect.unit (s := S512x1024) ![0, 0] S512x32.size inb_S512x1024_S512x32_0_0
abbrev rq_1 : Rect S512x1024 := Rect.unit (s := S512x1024) ![0, 32] S512x32.size inb_S512x1024_S512x32_0_32
abbrev rq_2 : Rect S512x1024 := Rect.unit (s := S512x1024) ![0, 64] S512x32.size inb_S512x1024_S512x32_0_64
abbrev rq_3 : Rect S512x1024 := Rect.unit (s := S512x1024) ![0, 96] S512x32.size inb_S512x1024_S512x32_0_96
abbrev rq_4 : Rect S512x1024 := Rect.unit (s := S512x1024) ![0, 128] S512x32.size inb_S512x1024_S512x32_0_128
abbrev rq_5 : Rect S512x1024 := Rect.unit (s := S512x1024) ![0, 160] S512x32.size inb_S512x1024_S512x32_0_160
abbrev rq_6 : Rect S512x1024 := Rect.unit (s := S512x1024) ![0, 192] S512x32.size inb_S512x1024_S512x32_0_192
abbrev rq_7 : Rect S512x1024 := Rect.unit (s := S512x1024) ![0, 224] S512x32.size inb_S512x1024_S512x32_0_224
abbrev rq_8 : Rect S512x1024 := Rect.unit (s := S512x1024) ![0, 256] S512x32.size inb_S512x1024_S512x32_0_256
abbrev rq_9 : Rect S512x1024 := Rect.unit (s := S512x1024) ![0, 288] S512x32.size inb_S512x1024_S512x32_0_288
abbrev rq_10 : Rect S512x1024 := Rect.unit (s := S512x1024) ![0, 320] S512x32.size inb_S512x1024_S512x32_0_320
abbrev rq_11 : Rect S512x1024 := Rect.unit (s := S512x1024) ![0, 352] S512x32.size inb_S512x1024_S512x32_0_352
abbrev rq_12 : Rect S512x1024 := Rect.unit (s := S512x1024) ![0, 384] S512x32.size inb_S512x1024_S512x32_0_384
abbrev rq_13 : Rect S512x1024 := Rect.unit (s := S512x1024) ![0, 416] S512x32.size inb_S512x1024_S512x32_0_416
abbrev rq_14 : Rect S512x1024 := Rect.unit (s := S512x1024) ![0, 448] S512x32.size inb_S512x1024_S512x32_0_448
abbrev rq_15 : Rect S512x1024 := Rect.unit (s := S512x1024) ![0, 480] S512x32.size inb_S512x1024_S512x32_0_480
abbrev rq_16 : Rect S512x1024 := Rect.unit (s := S512x1024) ![0, 512] S512x32.size inb_S512x1024_S512x32_0_512
abbrev rq_17 : Rect S512x1024 := Rect.unit (s := S512x1024) ![0, 544] S512x32.size inb_S512x1024_S512x32_0_544
abbrev rq_18 : Rect S512x1024 := Rect.unit (s := S512x1024) ![0, 576] S512x32.size inb_S512x1024_S512x32_0_576
abbrev rq_19 : Rect S512x1024 := Rect.unit (s := S512x1024) ![0, 608] S512x32.size inb_S512x1024_S512x32_0_608
abbrev rq_20 : Rect S512x1024 := Rect.unit (s := S512x1024) ![0, 640] S512x32.size inb_S512x1024_S512x32_0_640
abbrev rq_21 : Rect S512x1024 := Rect.unit (s := S512x1024) ![0, 672] S512x32.size inb_S512x1024_S512x32_0_672
abbrev rq_22 : Rect S512x1024 := Rect.unit (s := S512x1024) ![0, 704] S512x32.size inb_S512x1024_S512x32_0_704
abbrev rq_23 : Rect S512x1024 := Rect.unit (s := S512x1024) ![0, 736] S512x32.size inb_S512x1024_S512x32_0_736
abbrev rq_24 : Rect S512x1024 := Rect.unit (s := S512x1024) ![0, 768] S512x32.size inb_S512x1024_S512x32_0_768
abbrev rq_25 : Rect S512x1024 := Rect.unit (s := S512x1024) ![0, 800] S512x32.size inb_S512x1024_S512x32_0_800
abbrev rq_26 : Rect S512x1024 := Rect.unit (s := S512x1024) ![0, 832] S512x32.size inb_S512x1024_S512x32_0_832
abbrev rq_27 : Rect S512x1024 := Rect.unit (s := S512x1024) ![0, 864] S512x32.size inb_S512x1024_S512x32_0_864
abbrev rq_28 : Rect S512x1024 := Rect.unit (s := S512x1024) ![0, 896] S512x32.size inb_S512x1024_S512x32_0_896
abbrev rq_29 : Rect S512x1024 := Rect.unit (s := S512x1024) ![0, 928] S512x32.size inb_S512x1024_S512x32_0_928
abbrev rq_30 : Rect S512x1024 := Rect.unit (s := S512x1024) ![0, 960] S512x32.size inb_S512x1024_S512x32_0_960
abbrev rq_31 : Rect S512x1024 := Rect.unit (s := S512x1024) ![0, 992] S512x32.size inb_S512x1024_S512x32_0_992
/-- The three small operands, whole. -/
abbrev rM : Rect S32x512 := Rect.unit (s := S32x512) ![0, 0] S32x512.size inb_S32x512_S32x512_0_0
abbrev rB : Rect S1x512 := Rect.unit (s := S1x512) ![0, 0] S1x512.size inb_S1x512_S1x512_0_0
abbrev rCA : Rect S512x64 := Rect.unit (s := S512x64) ![0, 0] S512x64.size inb_S512x64_S512x64_0_0

/-! ## What the body leaves in the output's buffer -/

/-- The output's staging buffer after the body, from the four input blocks: its 32 stores as pieces, last first,
    store `j` one pass of the quantizer on column group `j` of the input block. -/
def out0_4 (x0 : Vec F S512x1024 .f32) (x1 : Vec F S32x512 .bf16) (x2 : Vec F S1x512 .f32) (x3 : Vec F S512x64 .bf16) : Vec F S512x1024 .f32 :=
  View.canon [
    ⟨rq_31, groupVal (View.ld x0 rq_31) (View.ld x1 rM) (View.ld x2 rB) (View.ld x3 rCA)⟩,
    ⟨rq_30, groupVal (View.ld x0 rq_30) (View.ld x1 rM) (View.ld x2 rB) (View.ld x3 rCA)⟩,
    ⟨rq_29, groupVal (View.ld x0 rq_29) (View.ld x1 rM) (View.ld x2 rB) (View.ld x3 rCA)⟩,
    ⟨rq_28, groupVal (View.ld x0 rq_28) (View.ld x1 rM) (View.ld x2 rB) (View.ld x3 rCA)⟩,
    ⟨rq_27, groupVal (View.ld x0 rq_27) (View.ld x1 rM) (View.ld x2 rB) (View.ld x3 rCA)⟩,
    ⟨rq_26, groupVal (View.ld x0 rq_26) (View.ld x1 rM) (View.ld x2 rB) (View.ld x3 rCA)⟩,
    ⟨rq_25, groupVal (View.ld x0 rq_25) (View.ld x1 rM) (View.ld x2 rB) (View.ld x3 rCA)⟩,
    ⟨rq_24, groupVal (View.ld x0 rq_24) (View.ld x1 rM) (View.ld x2 rB) (View.ld x3 rCA)⟩,
    ⟨rq_23, groupVal (View.ld x0 rq_23) (View.ld x1 rM) (View.ld x2 rB) (View.ld x3 rCA)⟩,
    ⟨rq_22, groupVal (View.ld x0 rq_22) (View.ld x1 rM) (View.ld x2 rB) (View.ld x3 rCA)⟩,
    ⟨rq_21, groupVal (View.ld x0 rq_21) (View.ld x1 rM) (View.ld x2 rB) (View.ld x3 rCA)⟩,
    ⟨rq_20, groupVal (View.ld x0 rq_20) (View.ld x1 rM) (View.ld x2 rB) (View.ld x3 rCA)⟩,
    ⟨rq_19, groupVal (View.ld x0 rq_19) (View.ld x1 rM) (View.ld x2 rB) (View.ld x3 rCA)⟩,
    ⟨rq_18, groupVal (View.ld x0 rq_18) (View.ld x1 rM) (View.ld x2 rB) (View.ld x3 rCA)⟩,
    ⟨rq_17, groupVal (View.ld x0 rq_17) (View.ld x1 rM) (View.ld x2 rB) (View.ld x3 rCA)⟩,
    ⟨rq_16, groupVal (View.ld x0 rq_16) (View.ld x1 rM) (View.ld x2 rB) (View.ld x3 rCA)⟩,
    ⟨rq_15, groupVal (View.ld x0 rq_15) (View.ld x1 rM) (View.ld x2 rB) (View.ld x3 rCA)⟩,
    ⟨rq_14, groupVal (View.ld x0 rq_14) (View.ld x1 rM) (View.ld x2 rB) (View.ld x3 rCA)⟩,
    ⟨rq_13, groupVal (View.ld x0 rq_13) (View.ld x1 rM) (View.ld x2 rB) (View.ld x3 rCA)⟩,
    ⟨rq_12, groupVal (View.ld x0 rq_12) (View.ld x1 rM) (View.ld x2 rB) (View.ld x3 rCA)⟩,
    ⟨rq_11, groupVal (View.ld x0 rq_11) (View.ld x1 rM) (View.ld x2 rB) (View.ld x3 rCA)⟩,
    ⟨rq_10, groupVal (View.ld x0 rq_10) (View.ld x1 rM) (View.ld x2 rB) (View.ld x3 rCA)⟩,
    ⟨rq_9, groupVal (View.ld x0 rq_9) (View.ld x1 rM) (View.ld x2 rB) (View.ld x3 rCA)⟩,
    ⟨rq_8, groupVal (View.ld x0 rq_8) (View.ld x1 rM) (View.ld x2 rB) (View.ld x3 rCA)⟩,
    ⟨rq_7, groupVal (View.ld x0 rq_7) (View.ld x1 rM) (View.ld x2 rB) (View.ld x3 rCA)⟩,
    ⟨rq_6, groupVal (View.ld x0 rq_6) (View.ld x1 rM) (View.ld x2 rB) (View.ld x3 rCA)⟩,
    ⟨rq_5, groupVal (View.ld x0 rq_5) (View.ld x1 rM) (View.ld x2 rB) (View.ld x3 rCA)⟩,
    ⟨rq_4, groupVal (View.ld x0 rq_4) (View.ld x1 rM) (View.ld x2 rB) (View.ld x3 rCA)⟩,
    ⟨rq_3, groupVal (View.ld x0 rq_3) (View.ld x1 rM) (View.ld x2 rB) (View.ld x3 rCA)⟩,
    ⟨rq_2, groupVal (View.ld x0 rq_2) (View.ld x1 rM) (View.ld x2 rB) (View.ld x3 rCA)⟩,
    ⟨rq_1, groupVal (View.ld x0 rq_1) (View.ld x1 rM) (View.ld x2 rB) (View.ld x3 rCA)⟩,
    ⟨rq_0, groupVal (View.ld x0 rq_0) (View.ld x1 rM) (View.ld x2 rB) (View.ld x3 rCA)⟩]

/-- The 32 column groups tile the block, so the stores cover it. -/
theorem cover0_4 (p0 p1 p2 p3 p4 p5 p6 p7 p8 p9 p10 p11 p12 p13 p14 p15 p16 p17 p18 p19 p20 p21 p22 p23 p24 p25 p26 p27 p28 p29 p30 p31 : Vec F S512x32 .f32) (y : S512x1024.Idx) :
    ∃ pc ∈ ([⟨rq_31, p31⟩, ⟨rq_30, p30⟩, ⟨rq_29, p29⟩, ⟨rq_28, p28⟩, ⟨rq_27, p27⟩, ⟨rq_26, p26⟩, ⟨rq_25, p25⟩, ⟨rq_24, p24⟩, ⟨rq_23, p23⟩, ⟨rq_22, p22⟩, ⟨rq_21, p21⟩, ⟨rq_20, p20⟩, ⟨rq_19, p19⟩, ⟨rq_18, p18⟩, ⟨rq_17, p17⟩, ⟨rq_16, p16⟩, ⟨rq_15, p15⟩, ⟨rq_14, p14⟩, ⟨rq_13, p13⟩, ⟨rq_12, p12⟩, ⟨rq_11, p11⟩, ⟨rq_10, p10⟩, ⟨rq_9, p9⟩, ⟨rq_8, p8⟩, ⟨rq_7, p7⟩, ⟨rq_6, p6⟩, ⟨rq_5, p5⟩, ⟨rq_4, p4⟩, ⟨rq_3, p3⟩, ⟨rq_2, p2⟩, ⟨rq_1, p1⟩, ⟨rq_0, p0⟩] : List (View.Piece (Elt F) S512x1024 .f32)), y ∈ pc.1.set :=
  View.cover_of_tiled [⟨rq_31, p31⟩, ⟨rq_30, p30⟩, ⟨rq_29, p29⟩, ⟨rq_28, p28⟩, ⟨rq_27, p27⟩, ⟨rq_26, p26⟩, ⟨rq_25, p25⟩, ⟨rq_24, p24⟩, ⟨rq_23, p23⟩, ⟨rq_22, p22⟩, ⟨rq_21, p21⟩, ⟨rq_20, p20⟩, ⟨rq_19, p19⟩, ⟨rq_18, p18⟩, ⟨rq_17, p17⟩, ⟨rq_16, p16⟩, ⟨rq_15, p15⟩, ⟨rq_14, p14⟩, ⟨rq_13, p13⟩, ⟨rq_12, p12⟩, ⟨rq_11, p11⟩, ⟨rq_10, p10⟩, ⟨rq_9, p9⟩, ⟨rq_8, p8⟩, ⟨rq_7, p7⟩, ⟨rq_6, p6⟩, ⟨rq_5, p5⟩, ⟨rq_4, p4⟩, ⟨rq_3, p3⟩, ⟨rq_2, p2⟩, ⟨rq_1, p1⟩, ⟨rq_0, p0⟩] S512x32.size (by rfl) y

/-! ## The body's triple -/

set_option maxHeartbeats 4000000 in
/-- The body on whole staging memrefs, the inputs' at contents `x0 x1 x2 x3` and the output's at anything, runs to the
    continuation holding the inputs' as they were and the output's at `out0_4` of them. -/
theorem sound_kernel0 (c : Dev nD) (E : Set ℕ) (i : grid0.Coords) (arg1 : Memref sig .tc .vmem S512x1024 .f32) (harg1 : arg1.IsWhole) (arg2 : Memref sig .tc .vmem S32x512 .bf16) (harg2 : arg2.IsWhole) (arg3 : Memref sig .tc .vmem S1x512 .f32) (harg3 : arg3.IsWhole) (arg4 : Memref sig .tc .vmem S512x64 .bf16) (harg4 : arg4.IsWhole) (arg5 : Memref sig .tc .vmem S512x1024 .f32) (harg5 : arg5.IsWhole)
    (x0 : Vec F S512x1024 .f32) (x1 : Vec F S32x512 .bf16) (x2 : Vec F S1x512 .f32) (x3 : Vec F S512x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__quant_kernel i arg1 harg1 arg2 harg2 arg3 harg3 arg4 harg4 arg5 harg5) K := by
  simp only [cc0__quant_kernel_eq_skeleton]; unfold cc0__quant_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _ _ _ _ _ _ _ _ _ _ _ _ _ _ _ _ _ _ _ _ _ _ _ _ _ _ _ _ _ _ _ _)

/-! ## The proof data -/

/-- The proof data of the first pipeline on core `c`: the arrays as the region finds them; after the body at point `t`
    each input's buffer at its block and the output's at `out0_4` of the four blocks; the scoped rest and the generator
    register pass through untouched; nothing owed; every array at the full share. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.FrameMlp.lean ====
/-
  The second kernel region (the two-layer product) on one core: what its staging buffers hold at every grid
  point, and that its body, run on them, leaves the output's buffer at `max (x w1) 0` times `w2` of the three
  blocks it was handed.

  The grid has two points; point `t` is handed rows `1024 t .. 1024 t + 1024` of `x` and, at both points, the
  upper half and the lower half of ONE weight array as two separate input windows. The windows on that array hold
  it at complementary half shares, since both only read it.
-/
import proofs.«124686_g53111565582714_cont_9to1c4b_343_15_alg».proof.Proof.Gen.KernelIdeal.Launch
import proofs.«124686_g53111565582714_cont_9to1c4b_343_15_alg».proof.Proof.Gen.KernelIdeal.Skeleton
import proofs.«124686_g53111565582714_cont_9to1c4b_343_15_alg».proof.Proof.Gen.KernelIdeal.Points
import proofs.«124686_g53111565582714_cont_9to1c4b_343_15_alg».proof.Proof.BodyFns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.BodyFns

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: a window that is
    not fetched at a point has not moved since the point that fetched it. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output's buffer -/

/-- The whole 1024 x 1024 block: the one rectangle every access of this body goes through. -/
abbrev r1_0 : Rect S1024x1024 := Rect.unit (s := S1024x1024) ![0, 0] S1024x1024.size inb_S1024x1024_S1024x1024_0_0

/-- The output's staging buffer after the body, from the three input blocks: one store of the whole block. -/
def out1_3 (x0 x1 x2 : Vec F S1024x1024 .f32) : Vec F S1024x1024 .f32 :=
  View.canon [⟨r1_0, mlpVal (View.ld x0 r1_0) (View.ld x1 r1_0) (View.ld x2 r1_0)⟩]

/-- The one store covers the buffer. -/
theorem cover1_3 (p0 : Vec F S1024x1024 .f32) (y : S1024x1024.Idx) :
    ∃ pc ∈ ([⟨r1_0, p0⟩] : List (View.Piece (Elt F) S1024x1024 .f32)), y ∈ pc.1.set :=
  View.cover_of_tiled [⟨r1_0, p0⟩] S1024x1024.size (by rfl) y

/-! ## The body's triple -/

set_option maxHeartbeats 1000000 in
/-- The body on whole staging memrefs, the inputs' at contents `x0 x1 x2` and the output's at anything, runs to the
    continuation holding the inputs' as they were and the output's at `out1_3` of them. -/
theorem sound_kernel1 (c : Dev nD) (E : Set ℕ) (i : grid1.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole)
    (x0 x1 x2 : Vec F S1024x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__mlp_kernel i arg1 harg1 arg2 harg2 arg3 harg3 arg4 harg4) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The proof data of the second pipeline on core `c`: the arrays as the region finds them; after the body at point `t`
    each input's buffer at its block and the output's at `out1_3` of the three blocks; the scoped rest and the generator
    register pass through untouched; nothing owed; the weight array's two windows at complementary half shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.FrameShare.lean ====
/-
  The second kernel region's arrays, when two of its windows read ONE array.

  The region has four windows over three buffers: window 0 reads `main_arg0`, windows 1 and 2 both read `main_v12`,
  window 3 writes `main_v13`. At its entry the core holds each of the three buffers whole at the full share; the
  region's proof data wants one points-to per WINDOW, windows 1 and 2 holding `main_v12` at the left and the right half
  of the full share. The two halves compose to the full share, so the full-share points-to of `main_v12` splits into
  the two half-share points-tos at the same contents, and the two join back at the exit; the other two windows hold
  their buffers at the full share on both sides. With the core's remaining unscoped buffers, which the region does
  not touch, this is the passage between all of the core's unscoped buffers and the region's arrays plus the rest.
-/
import proofs.«124686_g53111565582714_cont_9to1c4b_343_15_alg».proof.Proof.Gen.KernelIdeal.Launch
import proofs.«124686_g53111565582714_cont_9to1c4b_343_15_alg».proof.Proof.Gen.KernelIdeal.Skeleton
import proofs.«124686_g53111565582714_cont_9to1c4b_343_15_alg».proof.Proof.Gen.KernelIdeal.Points
import proofs.«124686_g53111565582714_cont_9to1c4b_343_15_alg».proof.Proof.BodyFns
import proofs.«124686_g53111565582714_cont_9to1c4b_343_15_alg».proof.Proof.FrameMlp
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.BodyFns

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The two sides in normal form -/

/-- The distinct buffers behind the four windows' arrays are three: `main_arg0`, `main_v12`, `main_v13`, each whole at
    the full share. -/
theorem arrBufs1_eq (c : Dev nD) (V' : (b : Ref sig .tc) → Buf (Elt F) ((c : Thread nD τ).loc b)) :
    (Pipeline.arrBufs (Ix := Unit) (Name := ℕ) (U := Pipeline.UD sig nD τ) (Lvl := ℕ) spec1 c V' : sProp 𝕄)
      = iprop((((c : Thread nD τ).loc main_arg0) ↦{fullShare} V' main_arg0) ∗ (((c : Thread nD τ).loc main_v12) ↦{fullShare} V' main_v12)
          ∗ (((c : Thread nD τ).loc main_v13) ↦{fullShare} V' main_v13)) := by
  unfold Pipeline.arrBufs
  exact bigSep_eq_bigSepL_of_eq [main_arg0, main_v12, main_v13] (by decide) (by decide) _

/-- The region's arrays, window by window: every array is a whole buffer; the input on `main_arg0` and the output on
    `main_v13` are held at the full share, the two inputs on `main_v12` at its left and its right half. (Windows 1 and 2
    name the same array, so one rewriting of "its elements are all of the buffer" serves both.) -/
theorem arrays1_eq (c : Dev nD) (A : (w : Fin cfg1.W) → Buf (Elt F) ((cfg1.win w).arr.view.loc (c.tc : Thread nD τ))) :
    ((dat1 V c).arrays A : sProp 𝕄)
      = iprop((((c : Thread nD τ).loc main_arg0) ↦{fullShare} A 0) ∗ (((c : Thread nD τ).loc main_v12) ↦{fullShare.left} A 1)
          ∗ (((c : Thread nD τ).loc main_v12) ↦{fullShare.right} A 2) ∗ (((c : Thread nD τ).loc main_v13) ↦{fullShare} A 3)) := by
  unfold Dat.arrays
  rw [bigSep_W1]
  rw [show (cfg1.win 0).arr.view.set = Finset.univ from (arr_whole1 0).set_eq_univ,
    show (cfg1.win 1).arr.view.set = Finset.univ from (arr_whole1 1).set_eq_univ,
    show (cfg1.win 3).arr.view.set = Finset.univ from (arr_whole1 3).set_eq_univ]
  rfl

/-! ## Entry and exit on the arrays alone -/

/-- Entry: the three buffers at the full share give the four windows' arrays at the same contents, the points-to of
    `main_v12` split along `full = left · right`. -/
theorem arrays_of_arrBufs1 (c : Dev nD) (A : (w : Fin cfg1.W) → Buf (Elt F) ((cfg1.win w).arr.view.loc (c.tc : Thread nD τ)))
    (hA : ∀ w, A w = V c (Pipeline.arrRef spec1 w)) :
    (Pipeline.arrBufs (Ix := Unit) (Name := ℕ) (U := Pipeline.UD sig nD τ) (Lvl := ℕ) spec1 c (V c) : sProp 𝕄) ⊢ (dat1 V c).arrays A := by
  obtain rfl : A = fun w => V c (Pipeline.arrRef spec1 w) := funext hA
  rw [arrBufs1_eq, arrays1_eq]
  iintro ⟨H0, H12, H3⟩
  ihave H := (pointsTo_share (PosShare.mem_left_op_right fullShare)).1 $$ H12
  icases H with ⟨H1, H2⟩
  isplitl [H0]; · iexact H0
  isplitl [H1]; · iexact H1
  isplitl [H2]; · iexact H2
  iexact H3

/-- Exit: the four windows' arrays, at contents that are `V'` of their buffers (so windows 1 and 2 agree), give the three
    buffers at the full share at `V'`, the two halves of `main_v12` joined. -/
theorem arrBufs_of_arrays1 (c : Dev nD) (V' : (b : Ref sig .tc) → Buf (Elt F) ((c : Thread nD τ).loc b))
    (A : (w : Fin cfg1.W) → Buf (Elt F) ((cfg1.win w).arr.view.loc (c.tc : Thread nD τ)))
    (hA : ∀ w, A w = V' (Pipeline.arrRef spec1 w)) :
    (dat1 V c).arrays A ⊢ (Pipeline.arrBufs (Ix := Unit) (Name := ℕ) (U := Pipeline.UD sig nD τ) (Lvl := ℕ) spec1 c V' : sProp 𝕄) := by
  obtain rfl : A = fun w => V' (Pipeline.arrRef spec1 w) := funext hA
  rw [arrBufs1_eq, arrays1_eq]
  iintro ⟨H0, H1, H2, H3⟩
  isplitl [H0]; · iexact H0
  isplitl [H1 H2]
  · iapply (pointsTo_share (PosShare.mem_left_op_right fullShare)).2
    isplitl [H1]; · iexact H1
    iexact H2
  iexact H3

/-! ## Entry and exit on all of the core's unscoped buffers -/

/-- The core's unscoped buffers at contents `V'` are the three buffers behind the windows' arrays and the rest: the
    arrays are unscoped, distinct or not. -/
theorem unscopedBufs_split1 (c : Dev nD) (V' : (b : Ref sig .tc) → Buf (Elt F) ((c : Thread nD τ).loc b)) :
    (unscopedBufs c V' : sProp 𝕄)
      = iprop((Pipeline.arrBufs (Ix := Unit) (Name := ℕ) (U := Pipeline.UD sig nD τ) (Lvl := ℕ) spec1 c V' : sProp 𝕄)
          ∗ Pipeline.unscopedRest (Ix := Unit) (Name := ℕ) (U := Pipeline.UD sig nD τ) (Lvl := ℕ) spec1 c V') :=
  Pipeline.PerCore.unscopedBufs_split₀ (P := Fin 2) (fun _ => cfgs) 1 c winFacts₀1.arr_unscoped V'

/-- The rest reads the contents only off the windows' arrays: two contents that agree there give the same rest. -/
theorem unscopedRest1_congr (c : Dev nD) (V' : (b : Ref sig .tc) → Buf (Elt F) ((c : Thread nD τ).loc b))
    (hrest : ∀ b, b ∉ Finset.univ.image (Pipeline.arrRef spec1) → V' b = V c b) :
    (Pipeline.unscopedRest (Ix := Unit) (Name := ℕ) (U := Pipeline.UD sig nD τ) (Lvl := ℕ) spec1 c (V c) : sProp 𝕄)
      = Pipeline.unscopedRest (Ix := Unit) (Name := ℕ) (U := Pipeline.UD sig nD τ) (Lvl := ℕ) spec1 c V' := by
  unfold Pipeline.unscopedRest
  exact bigSep_congr fun b hb => by rw [hrest b (Finset.mem_sdiff.mp hb).2]

/-- Entry: the core's unscoped buffers as the region finds them are the region's arrays at those contents, and the
    rest. -/
theorem entry_shared1 (c : Dev nD) (A : (w : Fin cfg1.W) → Buf (Elt F) ((cfg1.win w).arr.view.loc (c.tc : Thread nD τ)))
    (hA : ∀ w, A w = V c (Pipeline.arrRef spec1 w)) :
    (unscopedBufs c (V c) : sProp 𝕄)
      ⊢ iprop((dat1 V c).arrays A ∗ Pipeline.unscopedRest (Ix := Unit) (Name := ℕ) (U := Pipeline.UD sig nD τ) (Lvl := ℕ) spec1 c (V c)) := by
  rw [unscopedBufs_split1]
  exact BI.sep_mono (arrays_of_arrBufs1 V c A hA) (Entails.refl _)

/-- Exit: the region's arrays at contents that are `V'` of their buffers, with the untouched rest, are the core's
    unscoped buffers at `V'`, when `V'` is the old contents off the windows' arrays. -/
theorem exit_shared1 (c : Dev nD) (V' : (b : Ref sig .tc) → Buf (Elt F) ((c : Thread nD τ).loc b))
    (A : (w : Fin cfg1.W) → Buf (Elt F) ((cfg1.win w).arr.view.loc (c.tc : Thread nD τ)))
    (hA : ∀ w, A w = V' (Pipeline.arrRef spec1 w))
    (hrest : ∀ b, b ∉ Finset.univ.image (Pipeline.arrRef spec1) → V' b = V c b) :
    iprop((dat1 V c).arrays A ∗ Pipeline.unscopedRest (Ix := Unit) (Name := ℕ) (U := Pipeline.UD sig nD τ) (Lvl := ℕ) spec1 c (V c))
      ⊢ (unscopedBufs c V' : sProp 𝕄) := by
  rw [unscopedBufs_split1, unscopedRest1_congr V c V' hrest]
  exact BI.sep_mono (arrBufs_of_arrays1 V c V' A hA) (Entails.refl _)

/-- The buffers behind the windows' arrays are `main_arg0`, `main_v12` and `main_v13`. -/
theorem mem_arrs1 (b : Ref sig .tc) :
    b ∈ Finset.univ.image (Pipeline.arrRef spec1) ↔ b = main_arg0 ∨ b = main_v12 ∨ b = main_v13 := by
  revert b; decide

/-- The exit with the agreement off the arrays stated by three disequalities. -/
theorem exit_shared1' (c : Dev nD) (V' : (b : Ref sig .tc) → Buf (Elt F) ((c : Thread nD τ).loc b))
    (A : (w : Fin cfg1.W) → Buf (Elt F) ((cfg1.win w).arr.view.loc (c.tc : Thread nD τ)))
    (hA : ∀ w, A w = V' (Pipeline.arrRef spec1 w))
    (hrest : ∀ b, b ≠ main_arg0 → b ≠ main_v12 → b ≠ main_v13 → V' b = V c b) :
    iprop((dat1 V c).arrays A ∗ Pipeline.unscopedRest (Ix := Unit) (Name := ℕ) (U := Pipeline.UD sig nD τ) (Lvl := ℕ) spec1 c (V c))
      ⊢ (unscopedBufs c V' : sProp 𝕄) :=
  exit_shared1 V c V' A hA fun b hb =>
    hrest b (fun h => hb ((mem_arrs1 b).2 (.inl h))) (fun h => hb ((mem_arrs1 b).2 (.inr (.inl h))))
      (fun h => hb ((mem_arrs1 b).2 (.inr (.inr h))))

end Cert.KernelIdeal.Frame

end
-- ==== Proof.FrameRun.lean ====
/-
  The kernel program's run on every core: a stretch of host operations, the quantizer region, the two-layer
  region. The buffer contents at each of the four boundaries are a fold from the launch memory — the host
  stretch's operations applied, then each region's arrays at what its write-backs leave and every other buffer as it
  was —, each region's proof data is taken at the contents the region is entered from, and every weakly fair
  execution terminates with every unscoped buffer at the last boundary's contents. Read at the three argument arrays
  that is the frame; read at the result array it is what the second region's write-backs leave.
-/
import proofs.«124686_g53111565582714_cont_9to1c4b_343_15_alg».proof.Proof.Gen.KernelIdeal.Launch
import proofs.«124686_g53111565582714_cont_9to1c4b_343_15_alg».proof.Proof.Gen.KernelIdeal.Skeleton
import proofs.«124686_g53111565582714_cont_9to1c4b_343_15_alg».proof.Proof.Gen.KernelIdeal.Points
import proofs.«124686_g53111565582714_cont_9to1c4b_343_15_alg».proof.Proof.BodyFns
import proofs.«124686_g53111565582714_cont_9to1c4b_343_15_alg».proof.Proof.Gen.KernelIdeal.Regions
import proofs.«124686_g53111565582714_cont_9to1c4b_343_15_alg».proof.Proof.FrameQuant
import proofs.«124686_g53111565582714_cont_9to1c4b_343_15_alg».proof.Proof.FrameMlp
import proofs.«124686_g53111565582714_cont_9to1c4b_343_15_alg».proof.Proof.FrameShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.BodyFns

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the host stretch: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second region: the result array at what the pipeline leaves, every other buffer as entered (its three
    input windows read two arrays, which it leaves as they were). -/
def W3 (c : Dev nD) : Valuation τ sig (Elt F) :=
  Function.update (W2 m c) (Proc.devRef .tc main_v13) ((dat1 (V2 m) c).arrAt 3 cfg1.N)
abbrev V3 : (c : Dev nD) → (b : Ref sig .tc) → Buf (Elt F) ((c : Thread nD τ).loc b) := fun c b => W3 m c b
theorem W3_main_v13 (c : Dev nD) : W3 m c (Proc.devRef .tc main_v13) = (dat1 (V2 m) c).arrAt 3 cfg1.N := by
  unfold W3; exact Function.update_self ..
theorem W3_of_ne (c : Dev nD) (b : Ref sig .tc) (hb : b ≠ main_v13) :
    W3 m c (Proc.devRef .tc b) = W2 m c (Proc.devRef .tc b) := by
  unfold W3; exact Function.update_of_ne (StableHlo.devRef_ne_of_ne hb) ..
/-- At the second region's exit each window's array holds what the pipeline leaves: an input's array what it held. -/
theorem hF1 (c : Dev nD) (w : Fin cfg1.W) : (dat1 (V2 m) c).arrAt w cfg1.N = V3 m c (Pipeline.arrRef spec1 w) := by
  match w with
  | ⟨0, _⟩ => exact (((dat1 (V2 m) c).arrAt_in 0 rfl _).trans (A_eq1 (V2 m) c 0)).trans (W3_of_ne m c main_arg0 (by decide)).symm
  | ⟨1, _⟩ => exact (((dat1 (V2 m) c).arrAt_in 1 rfl _).trans (A_eq1 (V2 m) c 1)).trans (W3_of_ne m c main_v12 (by decide)).symm
  | ⟨2, _⟩ => exact (((dat1 (V2 m) c).arrAt_in 2 rfl _).trans (A_eq1 (V2 m) c 2)).trans (W3_of_ne m c main_v12 (by decide)).symm
  | ⟨3, _⟩ => exact (W3_main_v13 m c).symm
theorem hrest1 (c : Dev nD) : ∀ b, b ∉ Finset.univ.image (Pipeline.arrRef spec1) → V3 m c b = V2 m c b :=
  fun b hb => W3_of_ne m c b fun e => hb (Finset.mem_image.mpr ⟨3, Finset.mem_univ _, e.symm⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = m ((c : Thread nD τ).loc main_arg0) := V1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := V1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := V1_of m c main_arg2 (by decide)

/-! ## The proof data family and the thread state -/

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
/-- The host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The quantizer region over the thread state: entered from every unscoped buffer at `W1`, left at `W2`. Its five
    arrays are distinct buffers: split out of the unscoped buffers whole and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The two-layer region over the thread state: entered from every unscoped buffer at `W2`, left at `W3`. Two of its
    input windows read ONE array: the array's buffer is split between them at complementary half shares on entry
    and the halves are joined again on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := entry_shared1 (V2 m) c ((dat1 (V2 m) c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_shared1 (V2 m) c (V3 m c) ((dat1 (V2 m) c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer of every core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

/-- The run with the result named: the result array ends at what the second region's write-backs leave, the
    arguments as launched. -/
theorem run_result : θ_run defs (onTc (τ := τ) (main (F := F))) ⟨m, fun _ => 0, ρ⟩ (fun r => ∀ c : Dev nD,
      r.2.mem ((c.tc : Thread nD τ).loc main_v13) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v13 (by decide))).trans (W3_main_v13 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

end Cert.KernelIdeal.Frame

end
-- ==== Proof.KBodyFns.lean ====
/-
  The two kernel bodies as pure functions of the blocks they load, at any float instance.

  One pass of the quantizer body takes a 512 x 32 group of code vectors `vj` (512 vectors, one per row), the
  32 x 512 array `mm` (twice the centroids, transposed), the 1 x 512 bias row `b` (minus the centroids' squared
  norms) and the 512 x 64 array `ca` (the centroids beside 32 columns of ones): the logits `vj mm + b`, their
  exponentials `e`, the product `e ca` — whose first 32 columns are the weighted sums of centroids and whose last
  32 columns each hold the sum of the weights —, and the first 32 columns times the reciprocal of the last 32.
  The second body is `max (x w1) 0` times `w2`.
-/
import proofs.«124686_g53111565582714_cont_9to1c4b_343_15_alg».proof.Proof.Gen.Kernel

noncomputable section

namespace Cert.Kernel.BodyFns

open Idealize.ShloMosaic Cert.Kernel Cert.Kernel.Facts₀ Cert.Kernel.Facts

variable {F : FTy → Type} [FloatOps F]

/-- One pass of the quantizer body, from the four values it loads to the value it stores. -/
def groupVal (vj : Vec F S512x32 .f32) (mm : Vec F S32x512 .bf16) (b : Vec F S1x512 .f32) (ca : Vec F S512x64 .bf16) :
    FVec F S512x32 .f32 :=
  have v1 : FVec F S512x32 .f32 := shapeCast S512x32 vj shapeCasts_S512x32_S512x32
  have v2 : FVec F S512x32 .bf16 := truncf .bf16 v1 bitsLt_bf16_f32
  have v4 : FVec F S32x512 .bf16 := shapeCast S32x512 mm shapeCasts_S32x512_S32x512
  have cst : FVec F S512x512 .f32 := constant S512x512 .f32 0x00000000#32
  have v5 : FVec F S512x512 .f32 := matmul dot_S512x32_S32x512_S512x512_1_0_0_1_n_n none v2 v4 cst
  have v7 : FVec F S1x512 .f32 := shapeCast S1x512 b shapeCasts_S1x512_S1x512
  have v8 : FVec F S512x512 .f32 := broadcastTo S512x512 v7 broadcasts_S1x512_S512x512
  have v9 : FVec F S512x512 .f32 := addf v5 v8
  have v10 : FVec F S512x512 .f32 := exp v9
  have v11 : FVec F S512x512 .bf16 := truncf .bf16 v10 bitsLt_bf16_f32
  have v13 : FVec F S512x64 .bf16 := shapeCast S512x64 ca shapeCasts_S512x64_S512x64
  have cst_7 : FVec F S512x64 .f32 := constant S512x64 .f32 0x00000000#32
  have v14 : FVec F S512x64 .f32 := matmul dot_S512x512_S512x64_S512x64_1_0_0_1_n_n none v11 v13 cst_7
  have v15 : FVec F S512x32 .f32 := extractStridedSlice S512x32 ![0, 0] v14 slices_S512x64_o0_0_S512x32
  have v16 : FVec F S512x32 .f32 := extractStridedSlice S512x32 ![0, 32] v14 slices_S512x64_o0_32_S512x32
  have cst_8 : F .f32 := Scalar.ofBits .f32 0x3F800000#32
  have v17 : FVec F S512x32 .f32 := broadcast S512x32 cst_8
  have v18 : FVec F S512x32 .f32 := divf v17 v16
  have v19 : FVec F S512x32 .f32 := mulf v15 v18
  v19

/-- The second body, from the three blocks it loads to the block it stores. -/
def mlpVal (x w1 w2 : Vec F S1024x1024 .f32) : FVec F S1024x1024 .f32 :=
  have v1 : FVec F S1024x1024 .bf16 := truncf .bf16 x bitsLt_bf16_f32
  have v3 : FVec F S1024x1024 .f32 := shapeCast S1024x1024 w1 shapeCasts_S1024x1024_S1024x1024
  have v4 : FVec F S1024x1024 .bf16 := truncf .bf16 v3 bitsLt_bf16_f32
  have cst : FVec F S1024x1024 .f32 := constant S1024x1024 .f32 0x00000000#32
  have v5 : FVec F S1024x1024 .f32 := matmul dot_S1024x1024_S1024x1024_S1024x1024_1_0_0_1_n_n none v1 v4 cst
  have cst_3 : F .f32 := Scalar.ofBits .f32 0x00000000#32
  have v6 : FVec F S1024x1024 .f32 := broadcast S1024x1024 cst_3
  have v7 : FVec F S1024x1024 .f32 := maximumf v5 v6
  have v8 : FVec F S1024x1024 .bf16 := truncf .bf16 v7 bitsLt_bf16_f32
  have v10 : FVec F S1024x1024 .f32 := shapeCast S1024x1024 w2 shapeCasts_S1024x1024_S1024x1024
  have v11 : FVec F S1024x1024 .bf16 := truncf .bf16 v10 bitsLt_bf16_f32
  have cst_6 : FVec F S1024x1024 .f32 := constant S1024x1024 .f32 0x00000000#32
  have v12 : FVec F S1024x1024 .f32 := matmul dot_S1024x1024_S1024x1024_S1024x1024_1_0_0_1_n_n none v8 v11 cst_6
  v12

end Cert.Kernel.BodyFns

end
-- ==== Proof.KFrameQuant.lean ====
/-
  The first kernel region (the quantizer) on one core: what its staging buffers hold at every grid point, and
  that its body, run on them, leaves the output's buffer holding, in columns `32 j .. 32 j + 32` for each of
  the 32 column groups `j`, one pass of the quantizer on the same columns of the input block.

  The grid has four points; point `t` is handed rows `512 t .. 512 t + 512` of the 2048 x 1024 array of code
  vectors, and at every point the same three small arrays (twice the centroids transposed, minus their squared
  norms as a row, the centroids beside a block of ones). The 32 stores go through 32 disjoint rectangles that
  tile the 512 x 1024 output block.
-/
import proofs.«124686_g53111565582714_cont_9to1c4b_343_15_alg».proof.Proof.Gen.Kernel.Launch
import proofs.«124686_g53111565582714_cont_9to1c4b_343_15_alg».proof.Proof.Gen.Kernel.Skeleton
import proofs.«124686_g53111565582714_cont_9to1c4b_343_15_alg».proof.Proof.Gen.Kernel.Points
import proofs.«124686_g53111565582714_cont_9to1c4b_343_15_alg».proof.Proof.KBodyFns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.BodyFns

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: a window that is
    not fetched at a point has not moved since the point that fetched it. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Column group `j` of the 512 x 1024 block: all rows, columns `32 j .. 32 j + 32`. -/
abbrev rq_0 : Rect S512x1024 := Rect.unit (s := S512x1024) ![0, 0] S512x32.size inb_S512x1024_S512x32_0_0
abbrev rq_1 : Rect S512x1024 := Rect.unit (s := S512x1024) ![0, 32] S512x32.size inb_S512x1024_S512x32_0_32
abbrev rq_2 : Rect S512x1024 := Rect.unit (s := S512x1024) ![0, 64] S512x32.size inb_S512x1024_S512x32_0_64
abbrev rq_3 : Rect S512x1024 := Rect.unit (s := S512x1024) ![0, 96] S512x32.size inb_S512x1024_S512x32_0_96
abbrev rq_4 : Rect S512x1024 := Rect.unit (s := S512x1024) ![0, 128] S512x32.size inb_S512x1024_S512x32_0_128
abbrev rq_5 : Rect S512x1024 := Rect.unit (s := S512x1024) ![0, 160] S512x32.size inb_S512x1024_S512x32_0_160
abbrev rq_6 : Rect S512x1024 := Rect.unit (s := S512x1024) ![0, 192] S512x32.size inb_S512x1024_S512x32_0_192
abbrev rq_7 : Rect S512x1024 := Rect.unit (s := S512x1024) ![0, 224] S512x32.size inb_S512x1024_S512x32_0_224
abbrev rq_8 : Rect S512x1024 := Rect.unit (s := S512x1024) ![0, 256] S512x32.size inb_S512x1024_S512x32_0_256
abbrev rq_9 : Rect S512x1024 := Rect.unit (s := S512x1024) ![0, 288] S512x32.size inb_S512x1024_S512x32_0_288
abbrev rq_10 : Rect S512x1024 := Rect.unit (s := S512x1024) ![0, 320] S512x32.size inb_S512x1024_S512x32_0_320
abbrev rq_11 : Rect S512x1024 := Rect.unit (s := S512x1024) ![0, 352] S512x32.size inb_S512x1024_S512x32_0_352
abbrev rq_12 : Rect S512x1024 := Rect.unit (s := S512x1024) ![0, 384] S512x32.size inb_S512x1024_S512x32_0_384
abbrev rq_13 : Rect S512x1024 := Rect.unit (s := S512x1024) ![0, 416] S512x32.size inb_S512x1024_S512x32_0_416
abbrev rq_14 : Rect S512x1024 := Rect.unit (s := S512x1024) ![0, 448] S512x32.size inb_S512x1024_S512x32_0_448
abbrev rq_15 : Rect S512x1024 := Rect.unit (s := S512x1024) ![0, 480] S512x32.size inb_S512x1024_S512x32_0_480
abbrev rq_16 : Rect S512x1024 := Rect.unit (s := S512x1024) ![0, 512] S512x32.size inb_S512x1024_S512x32_0_512
abbrev rq_17 : Rect S512x1024 := Rect.unit (s := S512x1024) ![0, 544] S512x32.size inb_S512x1024_S512x32_0_544
abbrev rq_18 : Rect S512x1024 := Rect.unit (s := S512x1024) ![0, 576] S512x32.size inb_S512x1024_S512x32_0_576
abbrev rq_19 : Rect S512x1024 := Rect.unit (s := S512x1024) ![0, 608] S512x32.size inb_S512x1024_S512x32_0_608
abbrev rq_20 : Rect S512x1024 := Rect.unit (s := S512x1024) ![0, 640] S512x32.size inb_S512x1024_S512x32_0_640
abbrev rq_21 : Rect S512x1024 := Rect.unit (s := S512x1024) ![0, 672] S512x32.size inb_S512x1024_S512x32_0_672
abbrev rq_22 : Rect S512x1024 := Rect.unit (s := S512x1024) ![0, 704] S512x32.size inb_S512x1024_S512x32_0_704
abbrev rq_23 : Rect S512x1024 := Rect.unit (s := S512x1024) ![0, 736] S512x32.size inb_S512x1024_S512x32_0_736
abbrev rq_24 : Rect S512x1024 := Rect.unit (s := S512x1024) ![0, 768] S512x32.size inb_S512x1024_S512x32_0_768
abbrev rq_25 : Rect S512x1024 := Rect.unit (s := S512x1024) ![0, 800] S512x32.size inb_S512x1024_S512x32_0_800
abbrev rq_26 : Rect S512x1024 := Rect.unit (s := S512x1024) ![0, 832] S512x32.size inb_S512x1024_S512x32_0_832
abbrev rq_27 : Rect S512x1024 := Rect.unit (s := S512x1024) ![0, 864] S512x32.size inb_S512x1024_S512x32_0_864
abbrev rq_28 : Rect S512x1024 := Rect.unit (s := S512x1024) ![0, 896] S512x32.size inb_S512x1024_S512x32_0_896
abbrev rq_29 : Rect S512x1024 := Rect.unit (s := S512x1024) ![0, 928] S512x32.size inb_S512x1024_S512x32_0_928
abbrev rq_30 : Rect S512x1024 := Rect.unit (s := S512x1024) ![0, 960] S512x32.size inb_S512x1024_S512x32_0_960
abbrev rq_31 : Rect S512x1024 := Rect.unit (s := S512x1024) ![0, 992] S512x32.size inb_S512x1024_S512x32_0_992
/-- The three small operands, whole. -/
abbrev rM : Rect S32x512 := Rect.unit (s := S32x512) ![0, 0] S32x512.size inb_S32x512_S32x512_0_0
abbrev rB : Rect S1x512 := Rect.unit (s := S1x512) ![0, 0] S1x512.size inb_S1x512_S1x512_0_0
abbrev rCA : Rect S512x64 := Rect.unit (s := S512x64) ![0, 0] S512x64.size inb_S512x64_S512x64_0_0

/-! ## What the body leaves in the output's buffer -/

/-- The output's staging buffer after the body, from the four input blocks: its 32 stores as pieces, last first,
    store `j` one pass of the quantizer on column group `j` of the input block. -/
def out0_4 (x0 : Vec F S512x1024 .f32) (x1 : Vec F S32x512 .bf16) (x2 : Vec F S1x512 .f32) (x3 : Vec F S512x64 .bf16) : Vec F S512x1024 .f32 :=
  View.canon [
    ⟨rq_31, groupVal (View.ld x0 rq_31) (View.ld x1 rM) (View.ld x2 rB) (View.ld x3 rCA)⟩,
    ⟨rq_30, groupVal (View.ld x0 rq_30) (View.ld x1 rM) (View.ld x2 rB) (View.ld x3 rCA)⟩,
    ⟨rq_29, groupVal (View.ld x0 rq_29) (View.ld x1 rM) (View.ld x2 rB) (View.ld x3 rCA)⟩,
    ⟨rq_28, groupVal (View.ld x0 rq_28) (View.ld x1 rM) (View.ld x2 rB) (View.ld x3 rCA)⟩,
    ⟨rq_27, groupVal (View.ld x0 rq_27) (View.ld x1 rM) (View.ld x2 rB) (View.ld x3 rCA)⟩,
    ⟨rq_26, groupVal (View.ld x0 rq_26) (View.ld x1 rM) (View.ld x2 rB) (View.ld x3 rCA)⟩,
    ⟨rq_25, groupVal (View.ld x0 rq_25) (View.ld x1 rM) (View.ld x2 rB) (View.ld x3 rCA)⟩,
    ⟨rq_24, groupVal (View.ld x0 rq_24) (View.ld x1 rM) (View.ld x2 rB) (View.ld x3 rCA)⟩,
    ⟨rq_23, groupVal (View.ld x0 rq_23) (View.ld x1 rM) (View.ld x2 rB) (View.ld x3 rCA)⟩,
    ⟨rq_22, groupVal (View.ld x0 rq_22) (View.ld x1 rM) (View.ld x2 rB) (View.ld x3 rCA)⟩,
    ⟨rq_21, groupVal (View.ld x0 rq_21) (View.ld x1 rM) (View.ld x2 rB) (View.ld x3 rCA)⟩,
    ⟨rq_20, groupVal (View.ld x0 rq_20) (View.ld x1 rM) (View.ld x2 rB) (View.ld x3 rCA)⟩,
    ⟨rq_19, groupVal (View.ld x0 rq_19) (View.ld x1 rM) (View.ld x2 rB) (View.ld x3 rCA)⟩,
    ⟨rq_18, groupVal (View.ld x0 rq_18) (View.ld x1 rM) (View.ld x2 rB) (View.ld x3 rCA)⟩,
    ⟨rq_17, groupVal (View.ld x0 rq_17) (View.ld x1 rM) (View.ld x2 rB) (View.ld x3 rCA)⟩,
    ⟨rq_16, groupVal (View.ld x0 rq_16) (View.ld x1 rM) (View.ld x2 rB) (View.ld x3 rCA)⟩,
    ⟨rq_15, groupVal (View.ld x0 rq_15) (View.ld x1 rM) (View.ld x2 rB) (View.ld x3 rCA)⟩,
    ⟨rq_14, groupVal (View.ld x0 rq_14) (View.ld x1 rM) (View.ld x2 rB) (View.ld x3 rCA)⟩,
    ⟨rq_13, groupVal (View.ld x0 rq_13) (View.ld x1 rM) (View.ld x2 rB) (View.ld x3 rCA)⟩,
    ⟨rq_12, groupVal (View.ld x0 rq_12) (View.ld x1 rM) (View.ld x2 rB) (View.ld x3 rCA)⟩,
    ⟨rq_11, groupVal (View.ld x0 rq_11) (View.ld x1 rM) (View.ld x2 rB) (View.ld x3 rCA)⟩,
    ⟨rq_10, groupVal (View.ld x0 rq_10) (View.ld x1 rM) (View.ld x2 rB) (View.ld x3 rCA)⟩,
    ⟨rq_9, groupVal (View.ld x0 rq_9) (View.ld x1 rM) (View.ld x2 rB) (View.ld x3 rCA)⟩,
    ⟨rq_8, groupVal (View.ld x0 rq_8) (View.ld x1 rM) (View.ld x2 rB) (View.ld x3 rCA)⟩,
    ⟨rq_7, groupVal (View.ld x0 rq_7) (View.ld x1 rM) (View.ld x2 rB) (View.ld x3 rCA)⟩,
    ⟨rq_6, groupVal (View.ld x0 rq_6) (View.ld x1 rM) (View.ld x2 rB) (View.ld x3 rCA)⟩,
    ⟨rq_5, groupVal (View.ld x0 rq_5) (View.ld x1 rM) (View.ld x2 rB) (View.ld x3 rCA)⟩,
    ⟨rq_4, groupVal (View.ld x0 rq_4) (View.ld x1 rM) (View.ld x2 rB) (View.ld x3 rCA)⟩,
    ⟨rq_3, groupVal (View.ld x0 rq_3) (View.ld x1 rM) (View.ld x2 rB) (View.ld x3 rCA)⟩,
    ⟨rq_2, groupVal (View.ld x0 rq_2) (View.ld x1 rM) (View.ld x2 rB) (View.ld x3 rCA)⟩,
    ⟨rq_1, groupVal (View.ld x0 rq_1) (View.ld x1 rM) (View.ld x2 rB) (View.ld x3 rCA)⟩,
    ⟨rq_0, groupVal (View.ld x0 rq_0) (View.ld x1 rM) (View.ld x2 rB) (View.ld x3 rCA)⟩]

/-- The 32 column groups tile the block, so the stores cover it. -/
theorem cover0_4 (p0 p1 p2 p3 p4 p5 p6 p7 p8 p9 p10 p11 p12 p13 p14 p15 p16 p17 p18 p19 p20 p21 p22 p23 p24 p25 p26 p27 p28 p29 p30 p31 : Vec F S512x32 .f32) (y : S512x1024.Idx) :
    ∃ pc ∈ ([⟨rq_31, p31⟩, ⟨rq_30, p30⟩, ⟨rq_29, p29⟩, ⟨rq_28, p28⟩, ⟨rq_27, p27⟩, ⟨rq_26, p26⟩, ⟨rq_25, p25⟩, ⟨rq_24, p24⟩, ⟨rq_23, p23⟩, ⟨rq_22, p22⟩, ⟨rq_21, p21⟩, ⟨rq_20, p20⟩, ⟨rq_19, p19⟩, ⟨rq_18, p18⟩, ⟨rq_17, p17⟩, ⟨rq_16, p16⟩, ⟨rq_15, p15⟩, ⟨rq_14, p14⟩, ⟨rq_13, p13⟩, ⟨rq_12, p12⟩, ⟨rq_11, p11⟩, ⟨rq_10, p10⟩, ⟨rq_9, p9⟩, ⟨rq_8, p8⟩, ⟨rq_7, p7⟩, ⟨rq_6, p6⟩, ⟨rq_5, p5⟩, ⟨rq_4, p4⟩, ⟨rq_3, p3⟩, ⟨rq_2, p2⟩, ⟨rq_1, p1⟩, ⟨rq_0, p0⟩] : List (View.Piece (Elt F) S512x1024 .f32)), y ∈ pc.1.set :=
  View.cover_of_tiled [⟨rq_31, p31⟩, ⟨rq_30, p30⟩, ⟨rq_29, p29⟩, ⟨rq_28, p28⟩, ⟨rq_27, p27⟩, ⟨rq_26, p26⟩, ⟨rq_25, p25⟩, ⟨rq_24, p24⟩, ⟨rq_23, p23⟩, ⟨rq_22, p22⟩, ⟨rq_21, p21⟩, ⟨rq_20, p20⟩, ⟨rq_19, p19⟩, ⟨rq_18, p18⟩, ⟨rq_17, p17⟩, ⟨rq_16, p16⟩, ⟨rq_15, p15⟩, ⟨rq_14, p14⟩, ⟨rq_13, p13⟩, ⟨rq_12, p12⟩, ⟨rq_11, p11⟩, ⟨rq_10, p10⟩, ⟨rq_9, p9⟩, ⟨rq_8, p8⟩, ⟨rq_7, p7⟩, ⟨rq_6, p6⟩, ⟨rq_5, p5⟩, ⟨rq_4, p4⟩, ⟨rq_3, p3⟩, ⟨rq_2, p2⟩, ⟨rq_1, p1⟩, ⟨rq_0, p0⟩] S512x32.size (by rfl) y

/-! ## The body's triple -/

set_option maxHeartbeats 4000000 in
/-- The body on whole staging memrefs, the inputs' at contents `x0 x1 x2 x3` and the output's at anything, runs to the
    continuation holding the inputs' as they were and the output's at `out0_4` of them. -/
theorem sound_kernel0 (c : Dev nD) (E : Set ℕ) (i : grid0.Coords) (arg1 : Memref sig .tc .vmem S512x1024 .f32) (harg1 : arg1.IsWhole) (arg2 : Memref sig .tc .vmem S32x512 .bf16) (harg2 : arg2.IsWhole) (arg3 : Memref sig .tc .vmem S1x512 .f32) (harg3 : arg3.IsWhole) (arg4 : Memref sig .tc .vmem S512x64 .bf16) (harg4 : arg4.IsWhole) (arg5 : Memref sig .tc .vmem S512x1024 .f32) (harg5 : arg5.IsWhole)
    (x0 : Vec F S512x1024 .f32) (x1 : Vec F S32x512 .bf16) (x2 : Vec F S1x512 .f32) (x3 : Vec F S512x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__quant_kernel i arg1 harg1 arg2 harg2 arg3 harg3 arg4 harg4 arg5 harg5) K := by
  simp only [cc0__quant_kernel_eq_skeleton]; unfold cc0__quant_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _ _ _ _ _ _ _ _ _ _ _ _ _ _ _ _ _ _ _ _ _ _ _ _ _ _ _ _ _ _ _ _)

/-! ## The proof data -/

/-- The proof data of the first pipeline on core `c`: the arrays as the region finds them; after the body at point `t`
    each input's buffer at its block and the output's at `out0_4` of the four blocks; the scoped rest and the generator
    register pass through untouched; nothing owed; every array at the full share. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KFrameMlp.lean ====
/-
  The second kernel region (the two-layer product) on one core: what its staging buffers hold at every grid
  point, and that its body, run on them, leaves the output's buffer at `max (x w1) 0` times `w2` of the three
  blocks it was handed.

  The grid has two points; point `t` is handed rows `1024 t .. 1024 t + 1024` of `x` and, at both points, the
  upper half and the lower half of ONE weight array as two separate input windows. The windows on that array hold
  it at complementary half shares, since both only read it.
-/
import proofs.«124686_g53111565582714_cont_9to1c4b_343_15_alg».proof.Proof.Gen.Kernel.Launch
import proofs.«124686_g53111565582714_cont_9to1c4b_343_15_alg».proof.Proof.Gen.Kernel.Skeleton
import proofs.«124686_g53111565582714_cont_9to1c4b_343_15_alg».proof.Proof.Gen.Kernel.Points
import proofs.«124686_g53111565582714_cont_9to1c4b_343_15_alg».proof.Proof.KBodyFns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.BodyFns

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: a window that is
    not fetched at a point has not moved since the point that fetched it. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output's buffer -/

/-- The whole 1024 x 1024 block: the one rectangle every access of this body goes through. -/
abbrev r1_0 : Rect S1024x1024 := Rect.unit (s := S1024x1024) ![0, 0] S1024x1024.size inb_S1024x1024_S1024x1024_0_0

/-- The output's staging buffer after the body, from the three input blocks: one store of the whole block. -/
def out1_3 (x0 x1 x2 : Vec F S1024x1024 .f32) : Vec F S1024x1024 .f32 :=
  View.canon [⟨r1_0, mlpVal (View.ld x0 r1_0) (View.ld x1 r1_0) (View.ld x2 r1_0)⟩]

/-- The one store covers the buffer. -/
theorem cover1_3 (p0 : Vec F S1024x1024 .f32) (y : S1024x1024.Idx) :
    ∃ pc ∈ ([⟨r1_0, p0⟩] : List (View.Piece (Elt F) S1024x1024 .f32)), y ∈ pc.1.set :=
  View.cover_of_tiled [⟨r1_0, p0⟩] S1024x1024.size (by rfl) y

/-! ## The body's triple -/

set_option maxHeartbeats 1000000 in
/-- The body on whole staging memrefs, the inputs' at contents `x0 x1 x2` and the output's at anything, runs to the
    continuation holding the inputs' as they were and the output's at `out1_3` of them. -/
theorem sound_kernel1 (c : Dev nD) (E : Set ℕ) (i : grid1.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole)
    (x0 x1 x2 : Vec F S1024x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__mlp_kernel i arg1 harg1 arg2 harg2 arg3 harg3 arg4 harg4) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The proof data of the second pipeline on core `c`: the arrays as the region finds them; after the body at point `t`
    each input's buffer at its block and the output's at `out1_3` of the three blocks; the scoped rest and the generator
    register pass through untouched; nothing owed; the weight array's two windows at complementary half shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KFrameShare.lean ====
/-
  The second kernel region's arrays, when two of its windows read ONE array.

  The region has four windows over three buffers: window 0 reads `main_arg0`, windows 1 and 2 both read `main_v12`,
  window 3 writes `main_v13`. At its entry the core holds each of the three buffers whole at the full share; the
  region's proof data wants one points-to per WINDOW, windows 1 and 2 holding `main_v12` at the left and the right half
  of the full share. The two halves compose to the full share, so the full-share points-to of `main_v12` splits into
  the two half-share points-tos at the same contents, and the two join back at the exit; the other two windows hold
  their buffers at the full share on both sides. With the core's remaining unscoped buffers, which the region does
  not touch, this is the passage between all of the core's unscoped buffers and the region's arrays plus the rest.
-/
import proofs.«124686_g53111565582714_cont_9to1c4b_343_15_alg».proof.Proof.Gen.Kernel.Launch
import proofs.«124686_g53111565582714_cont_9to1c4b_343_15_alg».proof.Proof.Gen.Kernel.Skeleton
import proofs.«124686_g53111565582714_cont_9to1c4b_343_15_alg».proof.Proof.Gen.Kernel.Points
import proofs.«124686_g53111565582714_cont_9to1c4b_343_15_alg».proof.Proof.KBodyFns
import proofs.«124686_g53111565582714_cont_9to1c4b_343_15_alg».proof.Proof.KFrameMlp
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.BodyFns

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The two sides in normal form -/

/-- The distinct buffers behind the four windows' arrays are three: `main_arg0`, `main_v12`, `main_v13`, each whole at
    the full share. -/
theorem arrBufs1_eq (c : Dev nD) (V' : (b : Ref sig .tc) → Buf (Elt F) ((c : Thread nD τ).loc b)) :
    (Pipeline.arrBufs (Ix := Unit) (Name := ℕ) (U := Pipeline.UD sig nD τ) (Lvl := ℕ) spec1 c V' : sProp 𝕄)
      = iprop((((c : Thread nD τ).loc main_arg0) ↦{fullShare} V' main_arg0) ∗ (((c : Thread nD τ).loc main_v12) ↦{fullShare} V' main_v12)
          ∗ (((c : Thread nD τ).loc main_v13) ↦{fullShare} V' main_v13)) := by
  unfold Pipeline.arrBufs
  exact bigSep_eq_bigSepL_of_eq [main_arg0, main_v12, main_v13] (by decide) (by decide) _

/-- The region's arrays, window by window: every array is a whole buffer; the input on `main_arg0` and the output on
    `main_v13` are held at the full share, the two inputs on `main_v12` at its left and its right half. (Windows 1 and 2
    name the same array, so one rewriting of "its elements are all of the buffer" serves both.) -/
theorem arrays1_eq (c : Dev nD) (A : (w : Fin cfg1.W) → Buf (Elt F) ((cfg1.win w).arr.view.loc (c.tc : Thread nD τ))) :
    ((dat1 V c).arrays A : sProp 𝕄)
      = iprop((((c : Thread nD τ).loc main_arg0) ↦{fullShare} A 0) ∗ (((c : Thread nD τ).loc main_v12) ↦{fullShare.left} A 1)
          ∗ (((c : Thread nD τ).loc main_v12) ↦{fullShare.right} A 2) ∗ (((c : Thread nD τ).loc main_v13) ↦{fullShare} A 3)) := by
  unfold Dat.arrays
  rw [bigSep_W1]
  rw [show (cfg1.win 0).arr.view.set = Finset.univ from (arr_whole1 0).set_eq_univ,
    show (cfg1.win 1).arr.view.set = Finset.univ from (arr_whole1 1).set_eq_univ,
    show (cfg1.win 3).arr.view.set = Finset.univ from (arr_whole1 3).set_eq_univ]
  rfl

/-! ## Entry and exit on the arrays alone -/

/-- Entry: the three buffers at the full share give the four windows' arrays at the same contents, the points-to of
    `main_v12` split along `full = left · right`. -/
theorem arrays_of_arrBufs1 (c : Dev nD) (A : (w : Fin cfg1.W) → Buf (Elt F) ((cfg1.win w).arr.view.loc (c.tc : Thread nD τ)))
    (hA : ∀ w, A w = V c (Pipeline.arrRef spec1 w)) :
    (Pipeline.arrBufs (Ix := Unit) (Name := ℕ) (U := Pipeline.UD sig nD τ) (Lvl := ℕ) spec1 c (V c) : sProp 𝕄) ⊢ (dat1 V c).arrays A := by
  obtain rfl : A = fun w => V c (Pipeline.arrRef spec1 w) := funext hA
  rw [arrBufs1_eq, arrays1_eq]
  iintro ⟨H0, H12, H3⟩
  ihave H := (pointsTo_share (PosShare.mem_left_op_right fullShare)).1 $$ H12
  icases H with ⟨H1, H2⟩
  isplitl [H0]; · iexact H0
  isplitl [H1]; · iexact H1
  isplitl [H2]; · iexact H2
  iexact H3

/-- Exit: the four windows' arrays, at contents that are `V'` of their buffers (so windows 1 and 2 agree), give the three
    buffers at the full share at `V'`, the two halves of `main_v12` joined. -/
theorem arrBufs_of_arrays1 (c : Dev nD) (V' : (b : Ref sig .tc) → Buf (Elt F) ((c : Thread nD τ).loc b))
    (A : (w : Fin cfg1.W) → Buf (Elt F) ((cfg1.win w).arr.view.loc (c.tc : Thread nD τ)))
    (hA : ∀ w, A w = V' (Pipeline.arrRef spec1 w)) :
    (dat1 V c).arrays A ⊢ (Pipeline.arrBufs (Ix := Unit) (Name := ℕ) (U := Pipeline.UD sig nD τ) (Lvl := ℕ) spec1 c V' : sProp 𝕄) := by
  obtain rfl : A = fun w => V' (Pipeline.arrRef spec1 w) := funext hA
  rw [arrBufs1_eq, arrays1_eq]
  iintro ⟨H0, H1, H2, H3⟩
  isplitl [H0]; · iexact H0
  isplitl [H1 H2]
  · iapply (pointsTo_share (PosShare.mem_left_op_right fullShare)).2
    isplitl [H1]; · iexact H1
    iexact H2
  iexact H3

/-! ## Entry and exit on all of the core's unscoped buffers -/

/-- The core's unscoped buffers at contents `V'` are the three buffers behind the windows' arrays and the rest: the
    arrays are unscoped, distinct or not. -/
theorem unscopedBufs_split1 (c : Dev nD) (V' : (b : Ref sig .tc) → Buf (Elt F) ((c : Thread nD τ).loc b)) :
    (unscopedBufs c V' : sProp 𝕄)
      = iprop((Pipeline.arrBufs (Ix := Unit) (Name := ℕ) (U := Pipeline.UD sig nD τ) (Lvl := ℕ) spec1 c V' : sProp 𝕄)
          ∗ Pipeline.unscopedRest (Ix := Unit) (Name := ℕ) (U := Pipeline.UD sig nD τ) (Lvl := ℕ) spec1 c V') :=
  Pipeline.PerCore.unscopedBufs_split₀ (P := Fin 2) (fun _ => cfgs) 1 c winFacts₀1.arr_unscoped V'

/-- The rest reads the contents only off the windows' arrays: two contents that agree there give the same rest. -/
theorem unscopedRest1_congr (c : Dev nD) (V' : (b : Ref sig .tc) → Buf (Elt F) ((c : Thread nD τ).loc b))
    (hrest : ∀ b, b ∉ Finset.univ.image (Pipeline.arrRef spec1) → V' b = V c b) :
    (Pipeline.unscopedRest (Ix := Unit) (Name := ℕ) (U := Pipeline.UD sig nD τ) (Lvl := ℕ) spec1 c (V c) : sProp 𝕄)
      = Pipeline.unscopedRest (Ix := Unit) (Name := ℕ) (U := Pipeline.UD sig nD τ) (Lvl := ℕ) spec1 c V' := by
  unfold Pipeline.unscopedRest
  exact bigSep_congr fun b hb => by rw [hrest b (Finset.mem_sdiff.mp hb).2]

/-- Entry: the core's unscoped buffers as the region finds them are the region's arrays at those contents, and the
    rest. -/
theorem entry_shared1 (c : Dev nD) (A : (w : Fin cfg1.W) → Buf (Elt F) ((cfg1.win w).arr.view.loc (c.tc : Thread nD τ)))
    (hA : ∀ w, A w = V c (Pipeline.arrRef spec1 w)) :
    (unscopedBufs c (V c) : sProp 𝕄)
      ⊢ iprop((dat1 V c).arrays A ∗ Pipeline.unscopedRest (Ix := Unit) (Name := ℕ) (U := Pipeline.UD sig nD τ) (Lvl := ℕ) spec1 c (V c)) := by
  rw [unscopedBufs_split1]
  exact BI.sep_mono (arrays_of_arrBufs1 V c A hA) (Entails.refl _)

/-- Exit: the region's arrays at contents that are `V'` of their buffers, with the untouched rest, are the core's
    unscoped buffers at `V'`, when `V'` is the old contents off the windows' arrays. -/
theorem exit_shared1 (c : Dev nD) (V' : (b : Ref sig .tc) → Buf (Elt F) ((c : Thread nD τ).loc b))
    (A : (w : Fin cfg1.W) → Buf (Elt F) ((cfg1.win w).arr.view.loc (c.tc : Thread nD τ)))
    (hA : ∀ w, A w = V' (Pipeline.arrRef spec1 w))
    (hrest : ∀ b, b ∉ Finset.univ.image (Pipeline.arrRef spec1) → V' b = V c b) :
    iprop((dat1 V c).arrays A ∗ Pipeline.unscopedRest (Ix := Unit) (Name := ℕ) (U := Pipeline.UD sig nD τ) (Lvl := ℕ) spec1 c (V c))
      ⊢ (unscopedBufs c V' : sProp 𝕄) := by
  rw [unscopedBufs_split1, unscopedRest1_congr V c V' hrest]
  exact BI.sep_mono (arrBufs_of_arrays1 V c V' A hA) (Entails.refl _)

/-- The buffers behind the windows' arrays are `main_arg0`, `main_v12` and `main_v13`. -/
theorem mem_arrs1 (b : Ref sig .tc) :
    b ∈ Finset.univ.image (Pipeline.arrRef spec1) ↔ b = main_arg0 ∨ b = main_v12 ∨ b = main_v13 := by
  revert b; decide

/-- The exit with the agreement off the arrays stated by three disequalities. -/
theorem exit_shared1' (c : Dev nD) (V' : (b : Ref sig .tc) → Buf (Elt F) ((c : Thread nD τ).loc b))
    (A : (w : Fin cfg1.W) → Buf (Elt F) ((cfg1.win w).arr.view.loc (c.tc : Thread nD τ)))
    (hA : ∀ w, A w = V' (Pipeline.arrRef spec1 w))
    (hrest : ∀ b, b ≠ main_arg0 → b ≠ main_v12 → b ≠ main_v13 → V' b = V c b) :
    iprop((dat1 V c).arrays A ∗ Pipeline.unscopedRest (Ix := Unit) (Name := ℕ) (U := Pipeline.UD sig nD τ) (Lvl := ℕ) spec1 c (V c))
      ⊢ (unscopedBufs c V' : sProp 𝕄) :=
  exit_shared1 V c V' A hA fun b hb =>
    hrest b (fun h => hb ((mem_arrs1 b).2 (.inl h))) (fun h => hb ((mem_arrs1 b).2 (.inr (.inl h))))
      (fun h => hb ((mem_arrs1 b).2 (.inr (.inr h))))

end Cert.Kernel.Frame

end
-- ==== Proof.KFrameRun.lean ====
/-
  The kernel program's run on every core: a stretch of host operations, the quantizer region, the two-layer
  region. The buffer contents at each of the four boundaries are a fold from the launch memory — the host
  stretch's operations applied, then each region's arrays at what its write-backs leave and every other buffer as it
  was —, each region's proof data is taken at the contents the region is entered from, and every weakly fair
  execution terminates with every unscoped buffer at the last boundary's contents. Read at the three argument arrays
  that is the frame; read at the result array it is what the second region's write-backs leave.
-/
import proofs.«124686_g53111565582714_cont_9to1c4b_343_15_alg».proof.Proof.Gen.Kernel.Launch
import proofs.«124686_g53111565582714_cont_9to1c4b_343_15_alg».proof.Proof.Gen.Kernel.Skeleton
import proofs.«124686_g53111565582714_cont_9to1c4b_343_15_alg».proof.Proof.Gen.Kernel.Points
import proofs.«124686_g53111565582714_cont_9to1c4b_343_15_alg».proof.Proof.KBodyFns
import proofs.«124686_g53111565582714_cont_9to1c4b_343_15_alg».proof.Proof.Gen.Kernel.Regions
import proofs.«124686_g53111565582714_cont_9to1c4b_343_15_alg».proof.Proof.KFrameQuant
import proofs.«124686_g53111565582714_cont_9to1c4b_343_15_alg».proof.Proof.KFrameMlp
import proofs.«124686_g53111565582714_cont_9to1c4b_343_15_alg».proof.Proof.KFrameShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.BodyFns

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the host stretch: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second region: the result array at what the pipeline leaves, every other buffer as entered (its three
    input windows read two arrays, which it leaves as they were). -/
def W3 (c : Dev nD) : Valuation τ sig (Elt F) :=
  Function.update (W2 m c) (Proc.devRef .tc main_v13) ((dat1 (V2 m) c).arrAt 3 cfg1.N)
abbrev V3 : (c : Dev nD) → (b : Ref sig .tc) → Buf (Elt F) ((c : Thread nD τ).loc b) := fun c b => W3 m c b
theorem W3_main_v13 (c : Dev nD) : W3 m c (Proc.devRef .tc main_v13) = (dat1 (V2 m) c).arrAt 3 cfg1.N := by
  unfold W3; exact Function.update_self ..
theorem W3_of_ne (c : Dev nD) (b : Ref sig .tc) (hb : b ≠ main_v13) :
    W3 m c (Proc.devRef .tc b) = W2 m c (Proc.devRef .tc b) := by
  unfold W3; exact Function.update_of_ne (StableHlo.devRef_ne_of_ne hb) ..
/-- At the second region's exit each window's array holds what the pipeline leaves: an input's array what it held. -/
theorem hF1 (c : Dev nD) (w : Fin cfg1.W) : (dat1 (V2 m) c).arrAt w cfg1.N = V3 m c (Pipeline.arrRef spec1 w) := by
  match w with
  | ⟨0, _⟩ => exact (((dat1 (V2 m) c).arrAt_in 0 rfl _).trans (A_eq1 (V2 m) c 0)).trans (W3_of_ne m c main_arg0 (by decide)).symm
  | ⟨1, _⟩ => exact (((dat1 (V2 m) c).arrAt_in 1 rfl _).trans (A_eq1 (V2 m) c 1)).trans (W3_of_ne m c main_v12 (by decide)).symm
  | ⟨2, _⟩ => exact (((dat1 (V2 m) c).arrAt_in 2 rfl _).trans (A_eq1 (V2 m) c 2)).trans (W3_of_ne m c main_v12 (by decide)).symm
  | ⟨3, _⟩ => exact (W3_main_v13 m c).symm
theorem hrest1 (c : Dev nD) : ∀ b, b ∉ Finset.univ.image (Pipeline.arrRef spec1) → V3 m c b = V2 m c b :=
  fun b hb => W3_of_ne m c b fun e => hb (Finset.mem_image.mpr ⟨3, Finset.mem_univ _, e.symm⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = m ((c : Thread nD τ).loc main_arg0) := V1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := V1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := V1_of m c main_arg2 (by decide)

/-! ## The proof data family and the thread state -/

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
/-- The host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The quantizer region over the thread state: entered from every unscoped buffer at `W1`, left at `W2`. Its five
    arrays are distinct buffers: split out of the unscoped buffers whole and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The two-layer region over the thread state: entered from every unscoped buffer at `W2`, left at `W3`. Two of its
    input windows read ONE array: the array's buffer is split between them at complementary half shares on entry
    and the halves are joined again on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := entry_shared1 (V2 m) c ((dat1 (V2 m) c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_shared1 (V2 m) c (V3 m c) ((dat1 (V2 m) c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer of every core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

/-- The run with the result named: the result array ends at what the second region's write-backs leave, the
    arguments as launched. -/
theorem run_result : θ_run defs (onTc (τ := τ) (main (F := F))) ⟨m, fun _ => 0, ρ⟩ (fun r => ∀ c : Dev nD,
      r.2.mem ((c.tc : Thread nD τ).loc main_v13) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v13 (by decide))).trans (W3_main_v13 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

end Cert.Kernel.Frame

end
-- ==== Proof.Spec.lean ====
/-
  What both programs compute, as plain functions of the three argument arrays over the extended reals.

  The flat parameter vector `p` (2 097 152 entries) is read as 65 536 code vectors of 32 coordinates: vector `n`
  is `p[32 n .. 32 n + 32)`. Each code vector is replaced by a convex combination of the 512 centroids `c k`
  (rows of a 512 x 32 array), the weights a softmax over `k` of minus the squared distance to `c k`. The 65 536
  replaced vectors, laid out again as the flat vector, are the rows of a 2048 x 1024 weight array `w` (row `i`, columns
  `32 j .. 32 j + 32` = vector `32 i + j`), whose upper half `w1` and lower half `w2` are the two layers of
  `out = relu (x w1) w2`.

  Two arrangements of the softmax-weighted combination are stated: the one with the squared distance written
  out and the row maximum subtracted before exponentiating (`qShifted`), and the one that drops the term
  `|v|^2`, which is the same for every centroid, exponentiates `2 v.c - |c|^2` directly and divides the weighted
  sum of centroids by the sum of the weights (`qPlain`). They agree whenever every entry of `p` and `c` is a real
  number: `Proof/SoftmaxLaw.lean`.
-/
import Idealize.ShloMosaic.PureOps.Ideal

noncomputable section

namespace Cert.Quantizer

open Idealize.ShloMosaic

/-- Coordinate `l` of code vector `n`: entry `32 n + l` of the flat parameter vector. -/
def vec (p : Fin 2097152 → EReal) (n : Fin 65536) (l : Fin 32) : EReal :=
  p ⟨32 * n.val + l.val, by have := n.isLt; have := l.isLt; omega⟩

/-- `|c k|^2`. -/
def csq (c : Fin 512 → Fin 32 → EReal) (k : Fin 512) : EReal := ∑ l : Fin 32, c k l * c k l

/-- `|v n|^2`. -/
def vsq (p : Fin 2097152 → EReal) (n : Fin 65536) : EReal := ∑ l : Fin 32, vec p n l * vec p n l

/-- `v n . c k`. -/
def vdot (p : Fin 2097152 → EReal) (c : Fin 512 → Fin 32 → EReal) (n : Fin 65536) (k : Fin 512) : EReal :=
  ∑ l : Fin 32, vec p n l * c k l

/-! ### The shifted arrangement: minus the squared distance, the row maximum subtracted -/

/-- Minus the squared distance from vector `n` to centroid `k`, written `-((|v|^2 - 2 (v.c)) + |c|^2)`. -/
def negDist (p : Fin 2097152 → EReal) (c : Fin 512 → Fin 32 → EReal) (n : Fin 65536) (k : Fin 512) : EReal :=
  -((vsq p n - 2 * vdot p c n k) + csq c k)

/-- The largest of them over the centroids. -/
def rowMax (p : Fin 2097152 → EReal) (c : Fin 512 → Fin 32 → EReal) (n : Fin 65536) : EReal :=
  Finset.univ.sup (negDist p c n)

/-- The unnormalised weight of centroid `k` for vector `n`. -/
def shiftedWeight (p : Fin 2097152 → EReal) (c : Fin 512 → Fin 32 → EReal) (n : Fin 65536) (k : Fin 512) : EReal :=
  Ideal.exp (negDist p c n k - rowMax p c n)

/-- Coordinate `l` of the replaced vector `n`: the centroids averaged with the normalised weights. -/
def qShifted (p : Fin 2097152 → EReal) (c : Fin 512 → Fin 32 → EReal) (n : Fin 65536) (l : Fin 32) : EReal :=
  ∑ k : Fin 512, Ideal.div (shiftedWeight p c n k) (∑ k' : Fin 512, shiftedWeight p c n k') * c k l

/-! ### The plain arrangement: `exp (2 v.c - |c|^2)`, one division per vector -/

/-- `v n . (2 c k) + (-|c k|^2)`. -/
def logit (p : Fin 2097152 → EReal) (c : Fin 512 → Fin 32 → EReal) (n : Fin 65536) (k : Fin 512) : EReal :=
  (∑ l : Fin 32, vec p n l * (2 * c k l)) + -csq c k

/-- Coordinate `l` of the replaced vector `n`: the weighted sum of centroids times the reciprocal of the sum of weights. -/
def qPlain (p : Fin 2097152 → EReal) (c : Fin 512 → Fin 32 → EReal) (n : Fin 65536) (l : Fin 32) : EReal :=
  (∑ k : Fin 512, Ideal.exp (logit p c n k) * c k l) * Ideal.div 1 (∑ k : Fin 512, Ideal.exp (logit p c n k) * 1)

/-! ### The weight array and the two layers -/

/-- The weight array from a family of replaced vectors: row `i`, column `j` is coordinate `j % 32` of vector `32 i + j / 32`. -/
def weights (q : Fin 65536 → Fin 32 → EReal) (i : Fin 2048) (j : Fin 1024) : EReal :=
  q ⟨32 * i.val + j.val / 32, by have := i.isLt; have := j.isLt; omega⟩ ⟨j.val % 32, Nat.mod_lt _ (by decide)⟩

/-- `relu (x w1) w2` at row `r`, column `s`, with `w1` the rows `0 .. 1024` of `w` and `w2` the rows `1024 .. 2048`. -/
def mlp (x : Fin 2048 → Fin 1024 → EReal) (w : Fin 2048 → Fin 1024 → EReal) (r : Fin 2048) (s : Fin 1024) : EReal :=
  ∑ j : Fin 1024, max (∑ i : Fin 1024, x r i * w ⟨i.val, by have := i.isLt; omega⟩ j) 0
    * w ⟨1024 + j.val, by have := j.isLt; omega⟩ s

end Cert.Quantizer

end
-- ==== Proof.RefValueA.lean ====
/-
  What the reference computes on the first half of the parameter vector, read index by index.

  The first 1 048 576 entries of the flat vector `p` are the code vectors 0 .. 32 767. For code vector `n` and
  centroid `k` the reference forms `|v|^2`, `v.c`, `2 (v.c)`, `|v|^2 - 2 (v.c)`, adds `|c|^2` and negates: minus the
  squared distance. It takes the largest of these over the 512 centroids (a fold of `max` from `-inf`, then once
  more a `max` with `-inf`: both leave the supremum), subtracts it, exponentiates, sums the 512 exponentials,
  divides each by the sum and contracts the quotients with the centroids. Laid out again as a flat vector and
  cut into rows of 1024, row `i`, column `j` is coordinate `j % 32` of code vector `32 i + j / 32`.

  Every stage is stated at an index built from its coordinates and is equal to the corresponding function of
  `Proof/Spec.lean` of the plain arrays `fun i => p (ix1 i)` and `fun k l => c (ix2 k l)`.
-/
import proofs.«124686_g53111565582714_cont_9to1c4b_343_15_alg».proof.Proof.RefGen
import proofs.«124686_g53111565582714_cont_9to1c4b_343_15_alg».proof.Proof.Spec

noncomputable section

namespace Cert.ReferenceIdeal.RefValue

open Cert.ReferenceIdeal Cert.ReferenceIdeal.Gen Cert.ReferenceIdeal.Read Cert.Quantizer
open Idealize.ShloMosaic Idealize.ShloMosaic.ValueIdx

/-! ### The float literals the reference spells -/

/-- The pattern of `2.0` denotes `2`. -/
theorem ofBits_two : Ideal.ofBits .f32 0x40000000#32 = 2 := by
  simp [Ideal.ofBits, Ideal.ieee, -EReal.coe_mul]; norm_num; rfl

/-- The pattern of `-inf` denotes `⊥`. -/
theorem ofBits_negInf : Ideal.ofBits .f32 0xFF800000#32 = ⊥ := by
  simp [Ideal.ofBits, Ideal.ieee]

/-! ### The plain arrays and the two halves of the code vectors -/

/-- The flat parameter vector as a function of the position. -/
abbrev flat (p : (⟨S2097152, .f32⟩ : BufTy).Contents (Elt Ideal)) : Fin 2097152 → EReal := fun i => p (ix1 i)

/-- The centroids as a function of centroid and coordinate. -/
abbrev cent (c : (⟨S512x32, .f32⟩ : BufTy).Contents (Elt Ideal)) : Fin 512 → Fin 32 → EReal := fun k l => c (ix2 k l)

/-- Code vector `n` of the first half is code vector `n`. -/
def lo (n : Fin 32768) : Fin 65536 := ⟨n.val, by have := n.isLt; omega⟩

/-- Code vector `n` of the second half is code vector `32768 + n`. -/
def hi (n : Fin 32768) : Fin 65536 := ⟨32768 + n.val, by have := n.isLt; omega⟩

/-- The largest of finitely many extended reals, folded from `⊥`, is their supremum. -/
theorem fold_max_bot_eq_sup {ι : Type} [DecidableEq ι] (s : Finset ι) (f : ι → EReal) :
    s.fold max ⊥ f = s.sup f := by
  induction s using Finset.induction_on with
  | empty => rfl
  | insert a s ha ih => rw [Finset.fold_insert ha, Finset.sup_insert, ih]

variable (p : (⟨S2097152, .f32⟩ : BufTy).Contents (Elt Ideal)) (c : (⟨S512x32, .f32⟩ : BufTy).Contents (Elt Ideal))

/-! ### First half: minus the squared distance -/

/-- Coordinate `l` of row `n` of the reshaped first half is coordinate `l` of code vector `n`. -/
theorem v1_at (n : Fin 32768) (l : Fin 32) :
    val_main_v1 (F := Ideal) p (ix2 n l) = vec (flat p) (lo n) l := by
  rw [val_main_v1_apply, val_main_v0_apply]
  exact congrArg p (funext fun a => Fin.ext (by
    match a with
    | ⟨0, _⟩ => show n.val * 32 + l.val = 32 * n.val + l.val; omega))

/-- The row sums of the squares are `|v n|^2`. -/
theorem v3_at (n : Fin 32768) : val_main_v3 (F := Ideal) p (ix1 n) = vsq (flat p) (lo n) := by
  rw [val_main_v3_apply, val_main_cst_apply]
  simp only [Ideal.ofBits_def, Ideal.ofBits_zero_f32, zero_add]
  unfold vsq
  refine Finset.sum_congr rfl fun k _ => ?_
  rw [val_main_v2_apply, Ideal.mulf_def,
    show idx_main_v3 (ix1 n) k = ix2 n k from
      funext fun a => Fin.ext (by match a with | ⟨0, _⟩ => rfl | ⟨1, _⟩ => rfl),
    v1_at]

/-- The product with the transposed centroids is `v n . c k`. -/
theorem v6_at (n : Fin 32768) (k : Fin 512) :
    val_main_v6 (F := Ideal) p c (ix2 n k) = vdot (flat p) (cent c) (lo n) k := by
  rw [val_main_v6_apply]
  unfold vdot
  refine Finset.sum_congr rfl fun l _ => ?_
  rw [show lidx_main_v6 (ix2 n k) l = ix2 n l from
      funext fun a => Fin.ext (by match a with | ⟨0, _⟩ => rfl | ⟨1, _⟩ => rfl),
    show ridx_main_v6 (ix2 n k) l = ix2 l k from
      funext fun a => Fin.ext (by match a with | ⟨0, _⟩ => rfl | ⟨1, _⟩ => rfl),
    v1_at, val_main_v5_apply,
    show idx_main_v5 (ix2 l k) = ix2 k l from
      funext fun a => Fin.ext (by match a with | ⟨0, _⟩ => rfl | ⟨1, _⟩ => rfl)]

/-- The row sums of the squared centroids are `|c k|^2`. -/
theorem v12_at (k : Fin 512) : val_main_v12 (F := Ideal) c (ix1 k) = csq (cent c) k := by
  rw [val_main_v12_apply, val_main_cst_1_apply]
  simp only [Ideal.ofBits_def, Ideal.ofBits_zero_f32, zero_add]
  unfold csq
  refine Finset.sum_congr rfl fun l _ => ?_
  rw [val_main_v11_apply, Ideal.mulf_def,
    show idx_main_v12 (ix1 k) l = ix2 k l from
      funext fun a => Fin.ext (by match a with | ⟨0, _⟩ => rfl | ⟨1, _⟩ => rfl)]

/-- Negated, `(|v|^2 - 2 (v.c)) + |c|^2` is minus the squared distance. -/
theorem v16_at (n : Fin 32768) (k : Fin 512) :
    val_main_v16 (F := Ideal) p c (ix2 n k) = negDist (flat p) (cent c) (lo n) k := by
  rw [val_main_v16_apply, val_main_v15_apply, val_main_v10_apply, val_main_v9_apply, val_main_v4_apply,
    val_main_v8_apply, val_main_v7_apply, val_main_cst_0_apply, val_main_v14_apply, val_main_v13_apply,
    show idx_main_v4 (idx_main_v9 (ix2 n k)) = ix1 n from
      funext fun a => Fin.ext (by match a with | ⟨0, _⟩ => rfl),
    show idx_main_v13 (idx_main_v14 (ix2 n k)) = ix1 k from
      funext fun a => Fin.ext (by match a with | ⟨0, _⟩ => rfl),
    v3_at, v6_at, v12_at]
  simp only [Ideal.hostNegf_def, Ideal.negf_def, Ideal.addf_def, Ideal.subf_def, Ideal.mulf_def, Ideal.ofBits_def,
    ofBits_two]
  rfl

/-! ### First half: the largest over the centroids -/

/-- The reduced index `n` with centroid `k` put back on the dropped axis is `(n, k)`. -/
theorem lift_ix (h : S32768x512.Reduces [1] S32768) (n : Fin 32768) (k : Fin (S32768x512.size 1)) :
    h.lift (ix1 n) k = ix2 n (⟨k.val, k.isLt⟩ : Fin 512) := by
  funext a; apply Fin.ext
  fin_cases a <;> rfl

/-- The fold of `max` from `-inf` over the centroids is the supremum of minus the squared distances. -/
theorem v17_at (n : Fin 32768) : val_main_v17 (F := Ideal) p c (ix1 n) = rowMax (flat p) (cent c) (lo n) := by
  unfold val_main_v17
  rw [Host.reduce_eq_fold_single FloatOps.maximumf _ _ reducesTo_S32768x512_S32768_d1 (by decide) h_S_]
  have hf : (val_main_v16 (F := Ideal) p c ∘ Shape.Reduces.lift (by decide : S32768x512.Reduces [1] S32768) (ix1 n))
      = fun k : Fin 512 => negDist (flat p) (cent c) (lo n) k :=
    funext fun k => by rw [Function.comp_apply, lift_ix, v16_at]; rfl
  rw [hf, val_main_cst_2_apply]
  show Finset.fold max (Ideal.ofBits .f32 0xFF800000#32) _ (Finset.univ : Finset (Fin 512)) = _
  rw [ofBits_negInf, fold_max_bot_eq_sup]
  rfl

/-- One more `max` with `-inf` leaves the supremum. -/
theorem v19_at (n : Fin 32768) : val_main_v19 (F := Ideal) p c (ix1 n) = rowMax (flat p) (cent c) (lo n) := by
  rw [val_main_v19_apply, val_main_v18_apply, val_main_cst_3_apply, v17_at]
  simp only [Ideal.maximumf_def, Ideal.ofBits_def, ofBits_negInf]
  exact max_bot_left _

/-! ### First half: the normalised weights and the averaged centroids -/

/-- The exponential of minus the squared distance less its supremum is the unnormalised weight. -/
theorem v23_at (n : Fin 32768) (k : Fin 512) :
    val_main_v23 (F := Ideal) p c (ix2 n k) = shiftedWeight (flat p) (cent c) (lo n) k := by
  rw [val_main_v23_apply, val_main_v22_apply, val_main_v21_apply, val_main_v20_apply,
    show idx_main_v20 (idx_main_v21 (ix2 n k)) = ix1 n from
      funext fun a => Fin.ext (by match a with | ⟨0, _⟩ => rfl),
    v16_at, v19_at]
  simp only [Ideal.hostUnary_exp_def, Ideal.subf_def]
  rfl

/-- The row sums of the unnormalised weights. -/
theorem v24_at (n : Fin 32768) :
    val_main_v24 (F := Ideal) p c (ix1 n) = ∑ k : Fin 512, shiftedWeight (flat p) (cent c) (lo n) k := by
  rw [val_main_v24_apply, val_main_cst_4_apply]
  simp only [Ideal.ofBits_def, Ideal.ofBits_zero_f32, zero_add]
  refine Finset.sum_congr rfl fun k _ => ?_
  rw [show idx_main_v24 (ix1 n) k = ix2 n k from
      funext fun a => Fin.ext (by match a with | ⟨0, _⟩ => rfl | ⟨1, _⟩ => rfl),
    v23_at]

/-- Each unnormalised weight divided by the sum of its row. -/
theorem v27_at (n : Fin 32768) (k : Fin 512) :
    val_main_v27 (F := Ideal) p c (ix2 n k)
      = Ideal.div (shiftedWeight (flat p) (cent c) (lo n) k) (∑ k' : Fin 512, shiftedWeight (flat p) (cent c) (lo n) k') := by
  rw [val_main_v27_apply, val_main_v26_apply, val_main_v25_apply,
    show idx_main_v25 (idx_main_v26 (ix2 n k)) = ix1 n from
      funext fun a => Fin.ext (by match a with | ⟨0, _⟩ => rfl),
    v23_at, v24_at, Ideal.hostDivf_def]

/-- Contracted with the centroids: coordinate `l` of the replaced code vector `n`. -/
theorem v28_at (n : Fin 32768) (l : Fin 32) :
    val_main_v28 (F := Ideal) p c (ix2 n l) = qShifted (flat p) (cent c) (lo n) l := by
  rw [val_main_v28_apply]
  unfold qShifted
  refine Finset.sum_congr rfl fun k _ => ?_
  rw [show lidx_main_v28 (ix2 n l) k = ix2 n k from
      funext fun a => Fin.ext (by match a with | ⟨0, _⟩ => rfl | ⟨1, _⟩ => rfl),
    show ridx_main_v28 (ix2 n l) k = ix2 k l from
      funext fun a => Fin.ext (by match a with | ⟨0, _⟩ => rfl | ⟨1, _⟩ => rfl),
    v27_at]

/-- Flattened and cut into rows of 1024: row `i`, column `j` of the upper half of the weight array. -/
theorem v30_at (i j : Fin 1024) :
    val_main_v30 (F := Ideal) p c (ix2 i j)
      = weights (qShifted (flat p) (cent c)) ⟨i.val, by have := i.isLt; omega⟩ j := by
  rw [val_main_v30_apply, val_main_v29_apply,
    show idx_main_v29 (idx_main_v30 (ix2 i j))
        = ix2 (⟨32 * i.val + j.val / 32, by have := i.isLt; have := j.isLt; omega⟩ : Fin 32768)
            (⟨j.val % 32, Nat.mod_lt _ (by decide)⟩ : Fin 32) from
      funext fun a => Fin.ext (by
        match a with
        | ⟨0, _⟩ => show (i.val * 1024 + j.val) / 32 = 32 * i.val + j.val / 32; omega
        | ⟨1, _⟩ => show (i.val * 1024 + j.val) % 32 = j.val % 32; omega),
    v28_at]
  rfl

end Cert.ReferenceIdeal.RefValue

end
-- ==== Proof.RefValueB.lean ====
/-
  What the reference computes on the second half of the parameter vector, read index by index.

  Entries 1 048 576 .. 2 097 151 of the flat vector `p` are the code vectors 32 768 .. 65 535; the reference
  runs the same chain of operations on them as on the first half (minus the squared distance to each centroid,
  its supremum over the centroids subtracted, exponential, division by the row sum, contraction with the
  centroids). Laid out as a flat vector and cut into rows of 1024, row `i`, column `j` is coordinate `j % 32` of
  code vector `32768 + 32 i + j / 32 = 32 (1024 + i) + j / 32`: row `1024 + i` of the weight array.
-/
import proofs.«124686_g53111565582714_cont_9to1c4b_343_15_alg».proof.Proof.RefValueA

noncomputable section

namespace Cert.ReferenceIdeal.RefValue

open Cert.ReferenceIdeal Cert.ReferenceIdeal.Gen Cert.ReferenceIdeal.Read Cert.Quantizer
open Idealize.ShloMosaic Idealize.ShloMosaic.ValueIdx

variable (p : (⟨S2097152, .f32⟩ : BufTy).Contents (Elt Ideal)) (c : (⟨S512x32, .f32⟩ : BufTy).Contents (Elt Ideal))

/-! ### Second half: minus the squared distance -/

/-- Coordinate `l` of row `n` of the reshaped second half is coordinate `l` of code vector `32768 + n`. -/
theorem v32_at (n : Fin 32768) (l : Fin 32) :
    val_main_v32 (F := Ideal) p (ix2 n l) = vec (flat p) (hi n) l := by
  rw [val_main_v32_apply, val_main_v31_apply]
  exact congrArg p (funext fun a => Fin.ext (by
    match a with
    | ⟨0, _⟩ => show 1048576 + (n.val * 32 + l.val) = 32 * (32768 + n.val) + l.val; omega))

/-- The row sums of the squares are `|v n|^2`. -/
theorem v34_at (n : Fin 32768) : val_main_v34 (F := Ideal) p (ix1 n) = vsq (flat p) (hi n) := by
  rw [val_main_v34_apply, val_main_cst_5_apply]
  simp only [Ideal.ofBits_def, Ideal.ofBits_zero_f32, zero_add]
  unfold vsq
  refine Finset.sum_congr rfl fun k _ => ?_
  rw [val_main_v33_apply, Ideal.mulf_def,
    show idx_main_v34 (ix1 n) k = ix2 n k from
      funext fun a => Fin.ext (by match a with | ⟨0, _⟩ => rfl | ⟨1, _⟩ => rfl),
    v32_at]

/-- The product with the transposed centroids is `v n . c k`. -/
theorem v37_at (n : Fin 32768) (k : Fin 512) :
    val_main_v37 (F := Ideal) p c (ix2 n k) = vdot (flat p) (cent c) (hi n) k := by
  rw [val_main_v37_apply]
  unfold vdot
  refine Finset.sum_congr rfl fun l _ => ?_
  rw [show lidx_main_v37 (ix2 n k) l = ix2 n l from
      funext fun a => Fin.ext (by match a with | ⟨0, _⟩ => rfl | ⟨1, _⟩ => rfl),
    show ridx_main_v37 (ix2 n k) l = ix2 l k from
      funext fun a => Fin.ext (by match a with | ⟨0, _⟩ => rfl | ⟨1, _⟩ => rfl),
    v32_at, val_main_v36_apply,
    show idx_main_v36 (ix2 l k) = ix2 k l from
      funext fun a => Fin.ext (by match a with | ⟨0, _⟩ => rfl | ⟨1, _⟩ => rfl)]

/-- The row sums of the squared centroids are `|c k|^2`. -/
theorem v43_at (k : Fin 512) : val_main_v43 (F := Ideal) c (ix1 k) = csq (cent c) k := by
  rw [val_main_v43_apply, val_main_cst_7_apply]
  simp only [Ideal.ofBits_def, Ideal.ofBits_zero_f32, zero_add]
  unfold csq
  refine Finset.sum_congr rfl fun l _ => ?_
  rw [val_main_v42_apply, Ideal.mulf_def,
    show idx_main_v43 (ix1 k) l = ix2 k l from
      funext fun a => Fin.ext (by match a with | ⟨0, _⟩ => rfl | ⟨1, _⟩ => rfl)]

/-- Negated, `(|v|^2 - 2 (v.c)) + |c|^2` is minus the squared distance. -/
theorem v47_at (n : Fin 32768) (k : Fin 512) :
    val_main_v47 (F := Ideal) p c (ix2 n k) = negDist (flat p) (cent c) (hi n) k := by
  rw [val_main_v47_apply, val_main_v46_apply, val_main_v41_apply, val_main_v40_apply, val_main_v35_apply,
    val_main_v39_apply, val_main_v38_apply, val_main_cst_6_apply, val_main_v45_apply, val_main_v44_apply,
    show idx_main_v35 (idx_main_v40 (ix2 n k)) = ix1 n from
      funext fun a => Fin.ext (by match a with | ⟨0, _⟩ => rfl),
    show idx_main_v44 (idx_main_v45 (ix2 n k)) = ix1 k from
      funext fun a => Fin.ext (by match a with | ⟨0, _⟩ => rfl),
    v34_at, v37_at, v43_at]
  simp only [Ideal.hostNegf_def, Ideal.negf_def, Ideal.addf_def, Ideal.subf_def, Ideal.mulf_def, Ideal.ofBits_def,
    ofBits_two]
  rfl

/-! ### Second half: the largest over the centroids -/

/-- The fold of `max` from `-inf` over the centroids is the supremum of minus the squared distances. -/
theorem v48_at (n : Fin 32768) : val_main_v48 (F := Ideal) p c (ix1 n) = rowMax (flat p) (cent c) (hi n) := by
  unfold val_main_v48
  rw [Host.reduce_eq_fold_single FloatOps.maximumf _ _ reducesTo_S32768x512_S32768_d1 (by decide) h_S_]
  have hf : (val_main_v47 (F := Ideal) p c ∘ Shape.Reduces.lift (by decide : S32768x512.Reduces [1] S32768) (ix1 n))
      = fun k : Fin 512 => negDist (flat p) (cent c) (hi n) k :=
    funext fun k => by rw [Function.comp_apply, lift_ix, v47_at]; rfl
  rw [hf, val_main_cst_8_apply]
  show Finset.fold max (Ideal.ofBits .f32 0xFF800000#32) _ (Finset.univ : Finset (Fin 512)) = _
  rw [ofBits_negInf, fold_max_bot_eq_sup]
  rfl

/-- One more `max` with `-inf` leaves the supremum. -/
theorem v50_at (n : Fin 32768) : val_main_v50 (F := Ideal) p c (ix1 n) = rowMax (flat p) (cent c) (hi n) := by
  rw [val_main_v50_apply, val_main_v49_apply, val_main_cst_9_apply, v48_at]
  simp only [Ideal.maximumf_def, Ideal.ofBits_def, ofBits_negInf]
  exact max_bot_left _

/-! ### Second half: the normalised weights and the averaged centroids -/

/-- The exponential of minus the squared distance less its supremum is the unnormalised weight. -/
theorem v54_at (n : Fin 32768) (k : Fin 512) :
    val_main_v54 (F := Ideal) p c (ix2 n k) = shiftedWeight (flat p) (cent c) (hi n) k := by
  rw [val_main_v54_apply, val_main_v53_apply, val_main_v52_apply, val_main_v51_apply,
    show idx_main_v51 (idx_main_v52 (ix2 n k)) = ix1 n from
      funext fun a => Fin.ext (by match a with | ⟨0, _⟩ => rfl),
    v47_at, v50_at]
  simp only [Ideal.hostUnary_exp_def, Ideal.subf_def]
  rfl

/-- The row sums of the unnormalised weights. -/
theorem v55_at (n : Fin 32768) :
    val_main_v55 (F := Ideal) p c (ix1 n) = ∑ k : Fin 512, shiftedWeight (flat p) (cent c) (hi n) k := by
  rw [val_main_v55_apply, val_main_cst_10_apply]
  simp only [Ideal.ofBits_def, Ideal.ofBits_zero_f32, zero_add]
  refine Finset.sum_congr rfl fun k _ => ?_
  rw [show idx_main_v55 (ix1 n) k = ix2 n k from
      funext fun a => Fin.ext (by match a with | ⟨0, _⟩ => rfl | ⟨1, _⟩ => rfl),
    v54_at]

/-- Each unnormalised weight divided by the sum of its row. -/
theorem v58_at (n : Fin 32768) (k : Fin 512) :
    val_main_v58 (F := Ideal) p c (ix2 n k)
      = Ideal.div (shiftedWeight (flat p) (cent c) (hi n) k) (∑ k' : Fin 512, shiftedWeight (flat p) (cent c) (hi n) k') := by
  rw [val_main_v58_apply, val_main_v57_apply, val_main_v56_apply,
    show idx_main_v56 (idx_main_v57 (ix2 n k)) = ix1 n from
      funext fun a => Fin.ext (by match a with | ⟨0, _⟩ => rfl),
    v54_at, v55_at, Ideal.hostDivf_def]

/-- Contracted with the centroids: coordinate `l` of the replaced code vector `n`. -/
theorem v59_at (n : Fin 32768) (l : Fin 32) :
    val_main_v59 (F := Ideal) p c (ix2 n l) = qShifted (flat p) (cent c) (hi n) l := by
  rw [val_main_v59_apply]
  unfold qShifted
  refine Finset.sum_congr rfl fun k _ => ?_
  rw [show lidx_main_v59 (ix2 n l) k = ix2 n k from
      funext fun a => Fin.ext (by match a with | ⟨0, _⟩ => rfl | ⟨1, _⟩ => rfl),
    show ridx_main_v59 (ix2 n l) k = ix2 k l from
      funext fun a => Fin.ext (by match a with | ⟨0, _⟩ => rfl | ⟨1, _⟩ => rfl),
    v58_at]

/-- Flattened and cut into rows of 1024: row `1024 + i`, column `j` of the weight array (its lower half). -/
theorem v61_at (i j : Fin 1024) :
    val_main_v61 (F := Ideal) p c (ix2 i j)
      = weights (qShifted (flat p) (cent c)) ⟨1024 + i.val, by have := i.isLt; omega⟩ j := by
  rw [val_main_v61_apply, val_main_v60_apply,
    show idx_main_v60 (idx_main_v61 (ix2 i j))
        = ix2 (⟨32 * i.val + j.val / 32, by have := i.isLt; have := j.isLt; omega⟩ : Fin 32768)
            (⟨j.val % 32, Nat.mod_lt _ (by decide)⟩ : Fin 32) from
      funext fun a => Fin.ext (by
        match a with
        | ⟨0, _⟩ => show (i.val * 1024 + j.val) / 32 = 32 * i.val + j.val / 32; omega
        | ⟨1, _⟩ => show (i.val * 1024 + j.val) % 32 = j.val % 32; omega),
    v59_at]
  unfold weights
  exact congrArg (fun m => qShifted (flat p) (cent c) m _) (Fin.ext (by
    show 32768 + (32 * i.val + j.val / 32) = 32 * (1024 + i.val) + j.val / 32; omega))

end Cert.ReferenceIdeal.RefValue

end
-- ==== Proof.RefValue.lean ====
/-
  What the reference computes: `relu (x w1) w2` with `w` the weight array of the replaced code vectors.

  The two halves of the parameter vector give the rows `0 .. 1024` and `1024 .. 2048` of the weight array
  (`Proof/RefValueA.lean`, `Proof/RefValueB.lean`). The last three operations contract `x` with the upper half
  over its 1024 columns, take the maximum with zero, and contract the result with the lower half: at row `r`,
  column `s` this is `Proof/Spec.lean`'s `mlp` of `x` and the weight array in the shifted arrangement.
-/
import proofs.«124686_g53111565582714_cont_9to1c4b_343_15_alg».proof.Proof.RefValueB

noncomputable section

namespace Cert.ReferenceIdeal.RefValue

open Cert.ReferenceIdeal Cert.ReferenceIdeal.Gen Cert.ReferenceIdeal.Read Cert.Quantizer
open Idealize.ShloMosaic Idealize.ShloMosaic.TcCoe Idealize.SL.Sem Idealize.ShloMosaic.ValueIdx

/-- The reference's result, as a function of the three argument arrays, is `relu (x w1) w2` with `w` built from
    the softmax-averaged centroids in the shifted arrangement. -/
theorem refValue (x : (⟨S2048x1024, .f32⟩ : BufTy).Contents (Elt Ideal))
    (p : (⟨S2097152, .f32⟩ : BufTy).Contents (Elt Ideal)) (c : (⟨S512x32, .f32⟩ : BufTy).Contents (Elt Ideal)) :
    val_main_v64 (F := Ideal) x p c
      = fun idx => mlp (fun r i => x (ix2 r i))
          (weights (qShifted (fun i => p (ix1 i)) (fun k l => c (ix2 k l)))) (idx 0) (idx 1) := by
  funext idx
  obtain ⟨r, s, rfl⟩ : ∃ (r : Fin 2048) (s : Fin 1024), idx = ix2 r s := ⟨idx 0, idx 1, eq_ix2 idx⟩
  rw [val_main_v64_apply]
  show _ = mlp (fun r i => x (ix2 r i)) (weights (qShifted (flat p) (cent c))) r s
  unfold mlp
  refine Finset.sum_congr rfl fun j _ => ?_
  rw [show lidx_main_v64 (ix2 r s) j = ix2 r j from
      funext fun a => Fin.ext (by match a with | ⟨0, _⟩ => rfl | ⟨1, _⟩ => rfl),
    show ridx_main_v64 (ix2 r s) j = ix2 j s from
      funext fun a => Fin.ext (by match a with | ⟨0, _⟩ => rfl | ⟨1, _⟩ => rfl),
    val_main_v63_apply, val_main_v62_apply, val_main_call0_v0_apply, val_main_call0_cst_apply, v61_at]
  simp only [Ideal.maximumf_def, Ideal.ofBits_def, Ideal.ofBits_zero_f32]
  refine congrArg (fun t => max t 0 * _) (Finset.sum_congr rfl fun i _ => ?_)
  rw [show lidx_main_v62 (ix2 r j) i = ix2 r i from
      funext fun a => Fin.ext (by match a with | ⟨0, _⟩ => rfl | ⟨1, _⟩ => rfl),
    show ridx_main_v62 (ix2 r j) i = ix2 i j from
      funext fun a => Fin.ext (by match a with | ⟨0, _⟩ => rfl | ⟨1, _⟩ => rfl),
    v30_at]

/-- The same about the term the reference's run leaves in its result buffer, from any launch memory `m`:
    the three argument arrays are the launch contents of the three argument buffers. -/
theorem res_eq (m : (ℓ : Loc nD τ sig) → Buf (Elt Ideal) ℓ) (c : Dev nD) :
    Cert.ReferenceIdeal.Value.res_main_v64 (F := Ideal) m c
      = fun idx => mlp (fun r i => (m ((c.tc : Thread nD τ).loc main_arg0)) (ix2 r i))
          (weights (qShifted (fun i => (m ((c.tc : Thread nD τ).loc main_arg1)) (ix1 i))
            (fun k l => (m ((c.tc : Thread nD τ).loc main_arg2)) (ix2 k l)))) (idx 0) (idx 1) :=
  (val_main_v64_eq m c).trans (refValue _ _ _)

end Cert.ReferenceIdeal.RefValue

end
-- ==== Proof.LibSoftmaxShift.lean ====
/-
  Softmax over a finite nonempty family of real exponents, computed at the extended reals.

  For real exponents `a k`, a real term `s` common to every exponent and any real shift `M`, the normalised weights
  `exp (s + a k - M) / ∑ k', exp (s + a k' - M)` do not depend on `s` or `M`: the factor `exp (s - M)` is common to the
  numerator and the denominator and cancels, the denominator being a sum of positive reals. Hence the weighted
  average of real data `y k` with these weights is the weighted sum `∑ k, exp (a k) * y k` times the reciprocal of
  `∑ k, exp (a k)`.

  All quantities are finite reals, so at the extended reals every operation is the coerced real operation: the
  exponential of a coerced real is the coerced real exponential, a finite sum of coerced reals is the coerced sum,
  and the quotient by a nonzero coerced real is the product with the coerced reciprocal.
-/
import Idealize.ShloMosaic.PureOps.Ideal

noncomputable section

namespace SoftmaxShift

open scoped BigOperators
open Idealize.ShloMosaic

/-- A finite sum of coerced reals is the coerced sum. -/
theorem coe_finset_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is a coerced real is a coerced real. -/
theorem exists_coe_eq_sum {ι : Type*} (s : Finset ι) (f : ι → EReal) (hf : ∀ i, ∃ r : ℝ, f i = (r : EReal)) :
    ∃ r : ℝ, (∑ i ∈ s, f i) = (r : EReal) := by
  choose g hg using hf
  exact ⟨∑ i ∈ s, g i, by simp_rw [hg, coe_finset_sum]⟩

/-- The supremum of a nonempty finite family of coerced reals is a coerced real, namely a member of the family. -/
theorem exists_coe_eq_sup {ι : Type*} (s : Finset ι) (hs : s.Nonempty) (f : ι → ℝ) :
    ∃ M : ℝ, s.sup (fun i => (f i : EReal)) = (M : EReal) := by
  obtain ⟨i, _, hi⟩ := Finset.exists_mem_eq_sup s hs (fun i => (f i : EReal))
  exact ⟨f i, hi⟩

/-- The supremum of a nonempty finite family of extended reals each of which is a coerced real is a coerced real. -/
theorem exists_coe_eq_sup' {ι : Type*} (s : Finset ι) (hs : s.Nonempty) (f : ι → EReal)
    (hf : ∀ i, ∃ r : ℝ, f i = (r : EReal)) : ∃ M : ℝ, s.sup f = (M : EReal) := by
  obtain ⟨i, _, hi⟩ := Finset.exists_mem_eq_sup s hs f
  obtain ⟨r, hr⟩ := hf i
  exact ⟨r, hi.trans hr⟩

variable {K : Type*} [Fintype K]

/-- A nonempty finite sum of real exponentials is positive. -/
theorem sum_exp_pos [Nonempty K] (a : K → ℝ) : 0 < ∑ k, Real.exp (a k) :=
  Finset.sum_pos (fun k _ => Real.exp_pos (a k)) Finset.univ_nonempty

/-- In the reals: the softmax-weighted average with exponents `s + a k - M` is the weighted sum with exponents
    `a k` times the reciprocal of the sum of the weights `exp (a k)`; the common factor `exp (s - M)` cancels. -/
theorem real_softmax_shift [Nonempty K] (a y : K → ℝ) (s M : ℝ) :
    ∑ k, Real.exp (s + a k - M) * (1 / ∑ k', Real.exp (s + a k' - M)) * y k
      = (∑ k, Real.exp (a k) * y k) * (1 * (1 / ∑ k, Real.exp (a k))) := by
  have hD : (∑ k, Real.exp (a k)) ≠ 0 := (sum_exp_pos a).ne'
  have h0 : Real.exp (s - M) ≠ 0 := (Real.exp_pos _).ne'
  have hE : ∀ k, Real.exp (s + a k - M) = Real.exp (s - M) * Real.exp (a k) := fun k => by
    rw [← Real.exp_add]; congr 1; ring
  simp_rw [hE, ← Finset.mul_sum]
  rw [Finset.sum_mul]
  refine Finset.sum_congr rfl fun k _ => ?_
  field_simp

/-- At the extended reals, for real exponents `a k`, a real common term `s`, a real shift `M` and real data `y k`
    over a finite nonempty index type: the average of the `y k` with the normalised weights
    `exp (s + a k - M) / ∑ k', exp (s + a k' - M)` equals the weighted sum `∑ k, exp (a k) * y k` times the quotient of
    `1` by the sum of the weights `∑ k, exp (a k) * 1`. -/
theorem softmax_shift_factor [Nonempty K] (a y : K → ℝ) (s M : ℝ) :
    (∑ k, Ideal.div (Ideal.exp (((s + a k : ℝ) : EReal) - (M : EReal)))
        (∑ k', Ideal.exp (((s + a k' : ℝ) : EReal) - (M : EReal))) * (y k : EReal))
      = (∑ k, Ideal.exp ((a k : ℝ) : EReal) * (y k : EReal))
          * Ideal.div 1 (∑ k, Ideal.exp ((a k : ℝ) : EReal) * 1) := by
  have hD1 : (∑ k, Real.exp (s + a k - M)) ≠ 0 := (sum_exp_pos fun k => s + a k - M).ne'
  have hD2 : (∑ k, Real.exp (a k)) ≠ 0 := (sum_exp_pos a).ne'
  have e1 : ∀ k, Ideal.exp (((s + a k : ℝ) : EReal) - (M : EReal)) = ((Real.exp (s + a k - M) : ℝ) : EReal) :=
    fun k => by rw [← EReal.coe_sub, Ideal.exp_coe]
  simp_rw [e1, Ideal.exp_coe, mul_one, coe_finset_sum, Ideal.div_coe hD1, Ideal.div_coe hD2, ← EReal.coe_one,
    ← EReal.coe_mul, coe_finset_sum]
  exact congrArg _ (real_softmax_shift a y s M)

end SoftmaxShift

end
-- ==== Proof.SoftmaxLaw.lean ====
/-
  The two arrangements of the softmax-weighted combination of centroids agree on real data.

  Fix a code vector `v` and write `a k = v . (2 c k) - |c k|^2` for the exponent the plain arrangement uses. Minus
  the squared distance is `-((|v|^2 - 2 (v . c k)) + |c k|^2) = -|v|^2 + a k`: the exponent of the shifted arrangement
  differs from `a k` by the term `-|v|^2`, the same for every centroid, and by the row maximum `M`, also the same for
  every centroid. When every entry of `p` and `c` is a real number all of these are real numbers (the maximum of
  finitely many reals is one of them), and the common factor `exp (-|v|^2 - M)` cancels between each weight and the
  sum of the weights.
-/
import proofs.«124686_g53111565582714_cont_9to1c4b_343_15_alg».proof.Proof.Spec
import proofs.«124686_g53111565582714_cont_9to1c4b_343_15_alg».proof.Proof.LibSoftmaxShift

noncomputable section

namespace Cert.Quantizer

open Idealize.ShloMosaic

/-- On real data the shifted arrangement (squared distance written out, row maximum subtracted) and the plain
    arrangement (the term `|v|^2` dropped, one division per vector) give the same replaced vectors. -/
theorem qShifted_eq_qPlain (p : Fin 2097152 → EReal) (c : Fin 512 → Fin 32 → EReal)
    (hp : ∀ i, ∃ r : ℝ, p i = (r : EReal)) (hc : ∀ k l, ∃ r : ℝ, c k l = (r : EReal)) :
    qShifted p c = qPlain p c := by
  choose P hP using hp
  choose C hC using hc
  funext n l
  -- the coordinates of code vector `n`, as reals
  have hv : ∀ l', vec p n l' = ((P ⟨32 * n.val + l'.val, by have := n.isLt; have := l'.isLt; omega⟩ : ℝ) : EReal) :=
    fun l' => hP _
  generalize hrv : (fun l' : Fin 32 => P ⟨32 * n.val + l'.val, by have := n.isLt; have := l'.isLt; omega⟩) = rv
  have hv' : ∀ l', vec p n l' = ((rv l' : ℝ) : EReal) := fun l' => by rw [hv, ← hrv]
  have h2 : (2 : EReal) = ((2 : ℝ) : EReal) := by norm_cast
  -- every intermediate quantity is a coerced real
  have hcsq : ∀ k, csq c k = ((∑ l', C k l' * C k l' : ℝ) : EReal) := fun k => by
    unfold csq; simp_rw [hC, ← EReal.coe_mul, SoftmaxShift.coe_finset_sum]
  have hvsq : vsq p n = ((∑ l', rv l' * rv l' : ℝ) : EReal) := by
    unfold vsq; simp_rw [hv', ← EReal.coe_mul, SoftmaxShift.coe_finset_sum]
  have hvdot : ∀ k, vdot p c n k = ((∑ l', rv l' * C k l' : ℝ) : EReal) := fun k => by
    unfold vdot; simp_rw [hv', hC, ← EReal.coe_mul, SoftmaxShift.coe_finset_sum]
  have hlogit : ∀ k, logit p c n k
      = (((∑ l', rv l' * (2 * C k l')) + -(∑ l', C k l' * C k l') : ℝ) : EReal) := fun k => by
    unfold logit
    rw [hcsq]
    simp_rw [hv', hC, h2, ← EReal.coe_mul, SoftmaxShift.coe_finset_sum, ← EReal.coe_neg, ← EReal.coe_add]
  -- minus the squared distance is the plain exponent plus the common term `-|v|^2`
  have hneg : ∀ k, negDist p c n k
      = (((-(∑ l', rv l' * rv l')) + ((∑ l', rv l' * (2 * C k l')) + -(∑ l', C k l' * C k l')) : ℝ) : EReal) :=
    fun k => by
      unfold negDist
      rw [hvsq, hvdot, hcsq, h2, ← EReal.coe_mul, ← EReal.coe_sub, ← EReal.coe_add, ← EReal.coe_neg]
      congr 1
      have h : ∑ l', rv l' * (2 * C k l') = 2 * ∑ l', rv l' * C k l' := by
        rw [Finset.mul_sum]; exact Finset.sum_congr rfl fun l' _ => by ring
      rw [h]; ring
  -- the row maximum is one of them, hence real
  obtain ⟨M, hM⟩ : ∃ M : ℝ, rowMax p c n = (M : EReal) := by
    unfold rowMax
    exact SoftmaxShift.exists_coe_eq_sup' Finset.univ Finset.univ_nonempty _ (fun k => ⟨_, hneg k⟩)
  unfold qShifted qPlain shiftedWeight
  simp_rw [hneg, hM, hlogit, hC]
  exact SoftmaxShift.softmax_shift_factor
    (fun k => (∑ l', rv l' * (2 * C k l')) + -(∑ l', C k l' * C k l')) (fun k => C k l) (-(∑ l', rv l' * rv l')) M

/-- Hence the two-layer outputs built from the two arrangements agree on real data, for any `x`. -/
theorem mlp_weights_qShifted_eq_qPlain (x : Fin 2048 → Fin 1024 → EReal) (p : Fin 2097152 → EReal)
    (c : Fin 512 → Fin 32 → EReal) (hp : ∀ i, ∃ r : ℝ, p i = (r : EReal))
    (hc : ∀ k l, ∃ r : ℝ, c k l = (r : EReal)) :
    mlp x (weights (qShifted p c)) = mlp x (weights (qPlain p c)) := by
  rw [qShifted_eq_qPlain p c hp hc]

end Cert.Quantizer

end
-- ==== Proof.FiniteInputs.lean ====
/-
  From the precondition to "every entry of the three argument arrays is a real number".

  The precondition computes, for each of the three arrays, whether `|a| < +∞` holds at every entry (a comparison
  against the pattern `0x7F800000`, which denotes `+∞`, reduced by `and` over all axes from `true`) and takes the
  conjunction of the three answers. If the conjunction is `true` then each of the three reductions is `true`, so each
  comparison is `true` at every index. Over the extended reals `|a| = max a (-a)`, which is `+∞` at both `-∞` and
  `+∞`; so `|a| < +∞` leaves only the case that `a` is a real number.
-/
import proofs.«124686_g53111565582714_cont_9to1c4b_343_15_alg».proof.Defs
import proofs.«124686_g53111565582714_cont_9to1c4b_343_15_alg».proof.Proof.Gen.Pre_finite_inputs
import Idealize.ShloMosaic.Lib.ReduceAll
import Idealize.ShloMosaic.Lib.ValueIdx

noncomputable section

namespace Cert.FiniteInputs

open Idealize.ShloMosaic Cert.Pre_finite_inputs

/-- The scalar shape has one index. -/
instance : Subsingleton S_.Idx := ⟨fun a b => funext fun d => d.elim0⟩

/-- An extended real whose absolute value `max a (-a)` is below `+∞` is a real number. -/
theorem exists_coe_of_abs_lt_top (a : EReal) (h : max a (-a) < ⊤) : ∃ r : ℝ, a = (r : EReal) := by
  induction a using EReal.rec with
  | bot => simp at h
  | coe r => exact ⟨r, rfl⟩
  | top => simp at h

/-- The single-precision pattern `0x7F800000` (exponent all ones, significand zero, sign clear) denotes `+∞`. -/
theorem ofBits_inf : Ideal.ofBits .f32 0x7F800000#32 = (⊤ : EReal) := by simp [Ideal.ofBits, Ideal.ieee]

/-- An ordered "less than" comparison that answers `true` says its first operand is below its second. -/
theorem lt_of_cmp_olt (a b : EReal) (h : Ideal.cmp .olt a b = 1#1) : a < b := by
  unfold Ideal.cmp at h
  by_contra hn
  simp [hn] at h

/-- The element fact: if `|a| < +∞` compares `true`, then `a` is a real number. -/
theorem exists_coe_of_cmp (a : EReal)
    (h : Ideal.cmp .olt (max a (-a)) (Ideal.ofBits .f32 0x7F800000#32) = 1#1) : ∃ r : ℝ, a = (r : EReal) :=
  exists_coe_of_abs_lt_top a (ofBits_inf ▸ lt_of_cmp_olt _ _ h)

variable [Cert.Pre_finite_inputs.Facts]

/-- If the precondition evaluates to `true` on three arrays, every entry of each of them is a real number. -/
theorem finite_of_pre (x : FVec Ideal S2048x1024 .f32) (p : FVec Ideal S2097152 .f32) (c : FVec Ideal S512x32 .f32)
    (h : Cert.Pre_finite_inputs.fn (F := Ideal) x p c = fun _ => 1#1) :
    (∀ i, ∃ r : ℝ, x i = (r : EReal)) ∧ (∀ i, ∃ r : ℝ, p i = (r : EReal)) ∧ (∀ i, ∃ r : ℝ, c i = (r : EReal)) := by
  have h0 := congrFun h ValueIdx.ix0
  dsimp only [Cert.Pre_finite_inputs.fn] at h0
  obtain ⟨h01, hC⟩ := IntOp.andi_eq_one.1 h0
  obtain ⟨hA, hB⟩ := IntOp.andi_eq_one.1 h01
  refine ⟨fun i => ?_, fun i => ?_, fun i => ?_⟩
  · exact exists_coe_of_cmp _ (Host.reduce_andi_all _ _ _ _ _ hA i)
  · exact exists_coe_of_cmp _ (Host.reduce_andi_all _ _ _ _ _ hB i)
  · exact exists_coe_of_cmp _ (Host.reduce_andi_all _ _ _ _ _ hC i)

/-- Every entry of the `2048 x 1024` array is a real number, by its two coordinates. -/
theorem finite_x (x : FVec Ideal S2048x1024 .f32) (p : FVec Ideal S2097152 .f32) (c : FVec Ideal S512x32 .f32)
    (h : Cert.Pre_finite_inputs.fn (F := Ideal) x p c = fun _ => 1#1) (r : Fin 2048) (s : Fin 1024) :
    ∃ t : ℝ, x (ValueIdx.ix2 r s) = (t : EReal) :=
  (finite_of_pre x p c h).1 _

/-- Every entry of the flat parameter vector is a real number, by its coordinate. -/
theorem finite_p (x : FVec Ideal S2048x1024 .f32) (p : FVec Ideal S2097152 .f32) (c : FVec Ideal S512x32 .f32)
    (h : Cert.Pre_finite_inputs.fn (F := Ideal) x p c = fun _ => 1#1) (i : Fin 2097152) :
    ∃ t : ℝ, p (ValueIdx.ix1 i) = (t : EReal) :=
  (finite_of_pre x p c h).2.1 _

/-- Every entry of the `512 x 32` centroid array is a real number, by its two coordinates. -/
theorem finite_c (x : FVec Ideal S2048x1024 .f32) (p : FVec Ideal S2097152 .f32) (c : FVec Ideal S512x32 .f32)
    (h : Cert.Pre_finite_inputs.fn (F := Ideal) x p c = fun _ => 1#1) (k : Fin 512) (l : Fin 32) :
    ∃ t : ℝ, c (ValueIdx.ix2 k l) = (t : EReal) :=
  (finite_of_pre x p c h).2.2 _

/-- The same from the certificate's precondition on a memory: on every device, every entry of the three argument
    arrays is a real number. -/
theorem finite_of_Pre_KernelIdeal
    (m : (ℓ : Loc Cert.KernelIdeal.nD Cert.KernelIdeal.τ Cert.KernelIdeal.sig) → Buf (Elt Ideal) ℓ)
    (hm : Cert.Pre_KernelIdeal m) (d : Dev Cert.KernelIdeal.nD) :
    (∀ i, ∃ r : ℝ, (m ((d.tc : Thread Cert.KernelIdeal.nD Cert.KernelIdeal.τ).loc Cert.KernelIdeal.main_arg0)
        : FVec Ideal S2048x1024 .f32) i = (r : EReal))
    ∧ (∀ i, ∃ r : ℝ, (m ((d.tc : Thread Cert.KernelIdeal.nD Cert.KernelIdeal.τ).loc Cert.KernelIdeal.main_arg1)
        : FVec Ideal S2097152 .f32) i = (r : EReal))
    ∧ (∀ i, ∃ r : ℝ, (m ((d.tc : Thread Cert.KernelIdeal.nD Cert.KernelIdeal.τ).loc Cert.KernelIdeal.main_arg2)
        : FVec Ideal S512x32 .f32) i = (r : EReal)) :=
  finite_of_pre _ _ _ (hm d)

end Cert.FiniteInputs

end
-- ==== Proof.HostValues.lean ====
/-
  What the host operations before the first kernel region leave in the region's four operands, read index by index.

  The flat parameter vector is cut into rows of 1024: row `i`, column `j` is entry `1024 i + j`. The centroids are
  transposed and doubled: row `t`, column `k` is `2 c[k, t]`. The squared norms of the centroids are summed
  along each row, laid out as one row of 512 and negated: column `k` is `-|c k|^2`. The centroids are extended
  by 32 columns of ones: row `k` is `c[k, 0 .. 32)` followed by thirty-two `1`s. The two narrowings to a
  sixteen-bit format change nothing over the extended reals.
-/
import proofs.«124686_g53111565582714_cont_9to1c4b_343_15_alg».proof.Proof.Gen.KernelIdeal.Regions
import proofs.«124686_g53111565582714_cont_9to1c4b_343_15_alg».proof.Proof.Spec
import Idealize.ShloMosaic.Lib.Pipeline.Value
import Idealize.ShloMosaic.Lib.ValueIdx
import Idealize.ShloMosaic.PureOps.Ideal.Laws

noncomputable section

namespace Cert.KernelIdeal.HostValues

open Cert.KernelIdeal Cert.KernelIdeal.Gen Cert.Quantizer
open Idealize.ShloMosaic Idealize.ShloMosaic.TcCoe Idealize.SL.Sem Idealize.ShloMosaic.StableHlo Idealize.ShloMosaic.ValueIdx

/-! ### The float literals the host operations spell -/

/-- The pattern of `2.0` denotes `2`. -/
theorem ofBits_two : Ideal.ofBits .f32 0x40000000#32 = 2 := by
  simp [Ideal.ofBits, Ideal.ieee, -EReal.coe_mul]; norm_num; rfl

/-- The pattern of `1.0` denotes `1`. -/
theorem ofBits_one : Ideal.ofBits .f32 0x3F800000#32 = 1 := by
  simp [Ideal.ofBits, Ideal.ieee, -EReal.coe_mul]; norm_num

variable (m : (ℓ : Loc nD τ sig) → Buf (Elt Ideal) ℓ) (c : Dev nD)

/-! ### The composed terms of the four operands -/

/-- The parameter vector cut into rows of 1024. -/
theorem v0_term : (Gen.V1 m c main_v0 : S2048x1024.Idx → EReal)
    = shapeCast S2048x1024 (m ((c.tc : Thread nD τ).loc main_arg1)) shapeCasts_S2097152_S2048x1024 := by
  dsimp only [Gen.V1, Gen.V0, Gen.hostOps0]; after_results <;> rfl

/-- The doubled transposed centroids, narrowed. -/
theorem v4_term : (Gen.V1 m c main_v4 : S32x512.Idx → EReal)
    = truncf .bf16 (mulf (broadcastInDim S32x512 ![] bcast_S_S32x512 (constant (F := Ideal) S_ .f32 0x40000000#32))
        (transpose S32x512 [1, 0] (m ((c.tc : Thread nD τ).loc main_arg2)) transposes_S512x32_S32x512_1_0)) bitsLt_bf16_f32 := by
  dsimp only [Gen.V1, Gen.V0, Gen.hostOps0]; after_results <;> rfl

/-- Minus the row sums of the squared centroids, as one row. -/
theorem v8_term : (Gen.V1 m c main_v8 : S1x512.Idx → EReal)
    = Host.negf (F := Ideal) (broadcastInDim S1x512 ![1] bcast_S512_S1x512_1
        (Host.reduceAdd (F := Ideal) (mulf (m ((c.tc : Thread nD τ).loc main_arg2)) (m ((c.tc : Thread nD τ).loc main_arg2)))
          (constant (F := Ideal) S_ .f32 0x00000000#32) reducesTo_S512x32_S512_d1 h_S_)) := by
  dsimp only [Gen.V1, Gen.V0, Gen.hostOps0]; after_results <;> rfl

/-- The centroids followed by 32 columns of ones, narrowed. -/
theorem v11_term : (Gen.V1 m c main_v11 : S512x64.Idx → EReal)
    = truncf .bf16 (concatenate S512x64 1 [⟨S512x32, m ((c.tc : Thread nD τ).loc main_arg2)⟩,
        ⟨S512x32, broadcastInDim S512x32 ![] bcast_S_S512x32 (constant (F := Ideal) S_ .f32 0x3F800000#32)⟩]
        concatenates_S512x32_S512x32_S512x64_d1) bitsLt_bf16_f32 := by
  dsimp only [Gen.V1, Gen.V0, Gen.hostOps0]; after_results <;> rfl

/-! ### Each operation chain at an index, for any operand -/

/-- A negated vector at an index. -/
theorem hostNegf_apply {s : Shape} {φ : FTy} (a : FVec Ideal s φ) (i : s.Idx) : Host.negf (F := Ideal) a i = -(a i) := rfl

/-- A flat vector cut into rows of 1024: row `i`, column `j` is entry `1024 i + j`. -/
theorem rows1024_at (y : FVec Ideal S2097152 .f32) (i : Fin 2048) (j : Fin 1024) :
    shapeCast S2048x1024 y shapeCasts_S2097152_S2048x1024 (ix2 i j)
      = y (ix1 ⟨1024 * i.val + j.val, by have := i.isLt; have := j.isLt; omega⟩) :=
  shapeCast_apply y shapeCasts_S2097152_S2048x1024 (ix2 i j) _
    (by rewrite [Shape.rowMajor_val_one, Shape.rowMajor_val_two]
        show 1024 * i.val + j.val = i.val * 1024 + j.val; omega)

/-- The transpose times the splat of `2.0`, narrowed: row `t`, column `k` is twice entry `(k, t)`. -/
theorem doubledT_at (y : FVec Ideal S512x32 .f32) (t : Fin 32) (k : Fin 512) :
    (truncf .bf16 (mulf (broadcastInDim S32x512 ![] bcast_S_S32x512 (constant (F := Ideal) S_ .f32 0x40000000#32))
        (transpose S32x512 [1, 0] y transposes_S512x32_S32x512_1_0)) bitsLt_bf16_f32 : FVec Ideal S32x512 .bf16) (ix2 t k)
      = 2 * y (ix2 k t) := by
  rw [truncf_apply, mulf_apply,
    broadcastInDim_apply _ bcast_S_S32x512 _ (ix2 t k) (fun a => a.elim0) (fun a => a.elim0), constant_apply,
    transpose_apply [1, 0] y transposes_S512x32_S32x512_1_0 (ix2 t k) (ix2 k t) (fun b => match b with
      | ⟨0, _⟩ => rfl
      | ⟨1, _⟩ => rfl),
    ofBits_two]

/-- The sum along each row, from the initial value `0`. -/
theorem rowSums_at (y : FVec Ideal S512x32 .f32) (k : Fin 512) :
    Host.reduceAdd (F := Ideal) y (constant (F := Ideal) S_ .f32 0x00000000#32) reducesTo_S512x32_S512_d1 h_S_ (ix1 k)
      = ∑ l : Fin 32, y (ix2 k l) := by
  simp only [Host.reduceAdd, Ideal.hostReduceAdd_def]
  rw [Ideal.hostReduceAdd_single reducesTo_S512x32_S512_d1 (by decide), constant_apply, Ideal.ofBits_zero_f32, zero_add]
  exact Finset.sum_congr rfl fun l _ =>
    congrArg y (funext fun a => Fin.ext (by match a with | ⟨0, _⟩ => rfl | ⟨1, _⟩ => rfl))

/-- The row sums of the squares, laid out as one row and negated: column `k` is minus the squared norm of row `k`. -/
theorem negSq_at (y : FVec Ideal S512x32 .f32) (k : Fin 512) :
    Host.negf (F := Ideal) (broadcastInDim S1x512 ![1] bcast_S512_S1x512_1
        (Host.reduceAdd (F := Ideal) (mulf y y) (constant (F := Ideal) S_ .f32 0x00000000#32) reducesTo_S512x32_S512_d1 h_S_))
        (ix2 (0 : Fin 1) k)
      = -(csq (fun k l => y (ix2 k l)) k) := by
  rw [hostNegf_apply,
    broadcastInDim_apply _ bcast_S512_S1x512_1 _ (ix2 (0 : Fin 1) k) (ix1 k) (fun a => match a with
      | ⟨0, _⟩ => by show k.val = if (512 : Nat) = 1 then 0 else k.val; rw [if_neg (by decide)]),
    rowSums_at]
  rfl

/-- A 512 x 32 array extended by 32 columns of `1.0`, narrowed: the first 32 columns are the array's. -/
theorem ext_left (y : FVec Ideal S512x32 .f32) (k : Fin 512) (l : Fin 32) :
    (truncf .bf16 (concatenate S512x64 1 [⟨S512x32, y⟩,
        ⟨S512x32, broadcastInDim S512x32 ![] bcast_S_S512x32 (constant (F := Ideal) S_ .f32 0x3F800000#32)⟩]
        concatenates_S512x32_S512x32_S512x64_d1) bitsLt_bf16_f32 : FVec Ideal S512x64 .bf16)
        (ix2 k (⟨l.val, by have := l.isLt; omega⟩ : Fin 64))
      = y (ix2 k l) := by
  rw [truncf_apply]
  exact concatenate_pair_apply_left 1 y _ concatenates_S512x32_S512x32_S512x64_d1 _ rfl (ix2 k l) (fun b => match b with
    | ⟨0, _⟩ => rfl
    | ⟨1, _⟩ => rfl)

/-- … and the last 32 columns are `1`. -/
theorem ext_right (y : FVec Ideal S512x32 .f32) (k : Fin 512) (l : Fin 32) :
    (truncf .bf16 (concatenate S512x64 1 [⟨S512x32, y⟩,
        ⟨S512x32, broadcastInDim S512x32 ![] bcast_S_S512x32 (constant (F := Ideal) S_ .f32 0x3F800000#32)⟩]
        concatenates_S512x32_S512x32_S512x64_d1) bitsLt_bf16_f32 : FVec Ideal S512x64 .bf16)
        (ix2 k (⟨32 + l.val, by have := l.isLt; omega⟩ : Fin 64))
      = 1 := by
  rw [truncf_apply,
    concatenate_pair_apply_right 1 y _ concatenates_S512x32_S512x32_S512x64_d1 _ rfl rfl (ix2 k l) (fun b => match b with
      | ⟨0, _⟩ => fun _ => rfl
      | ⟨1, _⟩ => fun hne => absurd rfl hne)
      (by show l.val + 32 = 32 + l.val; omega),
    broadcastInDim_apply _ bcast_S_S512x32 _ (ix2 k l) (fun a => a.elim0) (fun a => a.elim0), constant_apply, ofBits_one]

/-! ### The four operands of the first region at an index

  `m` is the launch memory and `c` a core; the three argument arrays are the launch contents of the argument
  buffers on that core. Each equation is between extended reals. -/

/-- Row `i`, column `j` of the parameter operand is entry `1024 i + j` of the flat parameter vector. -/
theorem v0_at (i : Fin 2048) (j : Fin 1024) :
    @Eq EReal (Gen.V1 m c main_v0 (ix2 i j))
      (m ((c.tc : Thread nD τ).loc main_arg1) (ix1 ⟨1024 * i.val + j.val, by have := i.isLt; have := j.isLt; omega⟩)) := by
  rw [v0_term]; exact rows1024_at _ i j

/-- Row `t`, column `k` of the doubled transposed centroids is `2 c[k, t]`. -/
theorem v4_at (t : Fin 32) (k : Fin 512) :
    @Eq EReal (Gen.V1 m c main_v4 (ix2 t k))
      (HMul.hMul (α := EReal) (β := EReal) (γ := EReal) 2 (m ((c.tc : Thread nD τ).loc main_arg2) (ix2 k t))) := by
  rw [v4_term]; exact doubledT_at _ t k

/-- Column `k` of the one row of negated squared norms is `-|c k|^2`. -/
theorem v8_at (k : Fin 512) :
    @Eq EReal (Gen.V1 m c main_v8 (ix2 (0 : Fin 1) k))
      (-(csq (fun k l => m ((c.tc : Thread nD τ).loc main_arg2) (ix2 k l)) k)) := by
  rw [v8_term]; exact negSq_at _ k

/-- Row `k`, column `l < 32` of the extended centroids is `c[k, l]`. -/
theorem v11_at_left (k : Fin 512) (l : Fin 32) :
    @Eq EReal (Gen.V1 m c main_v11 (ix2 k (⟨l.val, by have := l.isLt; omega⟩ : Fin 64)))
      (m ((c.tc : Thread nD τ).loc main_arg2) (ix2 k l)) := by
  rw [v11_term]; exact ext_left _ k l

/-- Row `k`, column `32 + l` of the extended centroids is `1`. -/
theorem v11_at_right (k : Fin 512) (l : Fin 32) :
    @Eq EReal (Gen.V1 m c main_v11 (ix2 k (⟨32 + l.val, by have := l.isLt; omega⟩ : Fin 64))) 1 := by
  rw [v11_term]; exact ext_right _ k l

end Cert.KernelIdeal.HostValues

end
-- ==== Proof.KernelValue.lean ====
/-
  What the two kernel bodies compute, read at an index over the extended reals.

  One pass of the first body takes a 512 x 32 group `vj`, the 32 x 512 array `mm`, the bias row `b` and the
  512 x 64 array `ca`, forms `E = exp (vj mm + b)` (the bias added to every row) and `E ca`, and returns the left
  32 columns of `E ca` times the reciprocal of the right 32 columns. Read at row `r`, column `l` this is a
  quotient of two plain sums over the 512 columns of `E` (`groupVal_apply`); with `mm = 2 c^T`, `b = -|c|^2` and
  `ca = [c | 1]` it is the plain arrangement of the softmax-weighted centroid average (`groupVal_eq_qPlain`).
  The second body is `max (x w1) 0` times `w2`, a double sum (`mlpVal_apply`).
-/
import proofs.«124686_g53111565582714_cont_9to1c4b_343_15_alg».proof.Proof.BodyFns
import proofs.«124686_g53111565582714_cont_9to1c4b_343_15_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option synthInstance.maxSize 4096

noncomputable section

namespace Cert.KernelIdeal.BodyValue

open Idealize.ShloMosaic Idealize.ShloMosaic.ValueIdx
open Cert.KernelIdeal Cert.KernelIdeal.Facts₀ Cert.KernelIdeal.Facts

/-! ### The three matrix products at an index -/

theorem matmul_vm_lhs0 (i : S512x512.Idx) (q : dot_S512x32_S32x512_S512x512_1_0_0_1_n_n.contr.Idx) :
    (dot_S512x32_S32x512_S512x512_1_0_0_1_n_n.lhsIdx i q 0).val = (i 0).val := by
  unfold DotDims.lhsIdx
  rw [dif_neg (show ¬(0 : Fin S512x32.rank) ∈ dot_S512x32_S32x512_S512x512_1_0_0_1_n_n.lhsBatch by decide),
    dif_pos (show (0 : Fin S512x32.rank) ∈ dot_S512x32_S32x512_S512x512_1_0_0_1_n_n.lhsNonContracting by decide)]
  rfl
theorem matmul_vm_rhs1 (i : S512x512.Idx) (q : dot_S512x32_S32x512_S512x512_1_0_0_1_n_n.contr.Idx) :
    (dot_S512x32_S32x512_S512x512_1_0_0_1_n_n.rhsIdx i q 1).val = (i 1).val := by
  unfold DotDims.rhsIdx
  rw [dif_neg (show ¬(1 : Fin S32x512.rank) ∈ dot_S512x32_S32x512_S512x512_1_0_0_1_n_n.rhsBatch by decide),
    dif_pos (show (1 : Fin S32x512.rank) ∈ dot_S512x32_S32x512_S512x512_1_0_0_1_n_n.rhsNonContracting by decide)]
  rfl
/-- A product of a `512 x 32` and a `32 x 512` array accumulated from zero, at row `r` and column `k`:
    the sum over the contracted coordinate. -/
theorem matmul_vm_apply (a : FVec Ideal S512x32 .bf16) (m : FVec Ideal S32x512 .bf16) (r : Fin 512) (k : Fin 512) :
    matmul dot_S512x32_S32x512_S512x512_1_0_0_1_n_n none a m (constant (F := Ideal) S512x512 .f32 0x00000000#32) (ix2 r k)
      = ∑ t : Fin 32, a (ix2 r t) * m (ix2 t k) := by
  refine (Ideal.matmul_constant_zero_apply dot_S512x32_S32x512_S512x512_1_0_0_1_n_n none a m (ix2 r k)).trans ?_
  rw [← Equiv.sum_comp (contrEquiv1 dot_S512x32_S32x512_S512x512_1_0_0_1_n_n 32 rfl rfl).symm]
  refine Finset.sum_congr rfl fun t _ => ?_
  have hk := contrEquiv1_symm_val dot_S512x32_S32x512_S512x512_1_0_0_1_n_n 32 rfl rfl t
  have el : dot_S512x32_S32x512_S512x512_1_0_0_1_n_n.lhsIdx (ix2 r k) ((contrEquiv1 dot_S512x32_S32x512_S512x512_1_0_0_1_n_n 32 rfl rfl).symm t) = ix2 r t :=
    funext fun ax => Fin.ext (by
      match ax with
      | ⟨0, _⟩ => exact matmul_vm_lhs0 _ _
      | ⟨1, _⟩ => exact (dot_S512x32_S32x512_S512x512_1_0_0_1_n_n.lhsIdx_val_of_single rfl _ _).trans hk)
  have er : dot_S512x32_S32x512_S512x512_1_0_0_1_n_n.rhsIdx (ix2 r k) ((contrEquiv1 dot_S512x32_S32x512_S512x512_1_0_0_1_n_n 32 rfl rfl).symm t) = ix2 t k :=
    funext fun ax => Fin.ext (by
      match ax with
      | ⟨0, _⟩ => exact (dot_S512x32_S32x512_S512x512_1_0_0_1_n_n.rhsIdx_val_of_single rfl _ _).trans hk
      | ⟨1, _⟩ => exact matmul_vm_rhs1 _ _)
  rw [el, er]

theorem matmul_eca_lhs0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl
theorem matmul_eca_rhs1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl
/-- A product of a `512 x 512` and a `512 x 64` array accumulated from zero, at row `r` and column `k`:
    the sum over the contracted coordinate. -/
theorem matmul_eca_apply (a : FVec Ideal S512x512 .bf16) (m : FVec Ideal S512x64 .bf16) (r : Fin 512) (k : Fin 64) :
    matmul dot_S512x512_S512x64_S512x64_1_0_0_1_n_n none a m (constant (F := Ideal) S512x64 .f32 0x00000000#32) (ix2 r k)
      = ∑ t : Fin 512, a (ix2 r t) * m (ix2 t k) := by
  refine (Ideal.matmul_constant_zero_apply dot_S512x512_S512x64_S512x64_1_0_0_1_n_n none a m (ix2 r k)).trans ?_
  rw [← Equiv.sum_comp (contrEquiv1 dot_S512x512_S512x64_S512x64_1_0_0_1_n_n 512 rfl rfl).symm]
  refine Finset.sum_congr rfl fun t _ => ?_
  have hk := contrEquiv1_symm_val dot_S512x512_S512x64_S512x64_1_0_0_1_n_n 512 rfl rfl t
  have el : dot_S512x512_S512x64_S512x64_1_0_0_1_n_n.lhsIdx (ix2 r k) ((contrEquiv1 dot_S512x512_S512x64_S512x64_1_0_0_1_n_n 512 rfl rfl).symm t) = ix2 r t :=
    funext fun ax => Fin.ext (by
      match ax with
      | ⟨0, _⟩ => exact matmul_eca_lhs0 _ _
      | ⟨1, _⟩ => exact (dot_S512x512_S512x64_S512x64_1_0_0_1_n_n.lhsIdx_val_of_single rfl _ _).trans hk)
  have er : dot_S512x512_S512x64_S512x64_1_0_0_1_n_n.rhsIdx (ix2 r k) ((contrEquiv1 dot_S512x512_S512x64_S512x64_1_0_0_1_n_n 512 rfl rfl).symm t) = ix2 t k :=
    funext fun ax => Fin.ext (by
      match ax with
      | ⟨0, _⟩ => exact (dot_S512x512_S512x64_S512x64_1_0_0_1_n_n.rhsIdx_val_of_single rfl _ _).trans hk
      | ⟨1, _⟩ => exact matmul_eca_rhs1 _ _)
  rw [el, er]

theorem matmul_sq_lhs0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem matmul_sq_rhs1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl
/-- A product of a `1024 x 1024` and a `1024 x 1024` array accumulated from zero, at row `r` and column `k`:
    the sum over the contracted coordinate. -/
theorem matmul_sq_apply (a : FVec Ideal S1024x1024 .bf16) (m : FVec Ideal S1024x1024 .bf16) (r : Fin 1024) (k : Fin 1024) :
    matmul dot_S1024x1024_S1024x1024_S1024x1024_1_0_0_1_n_n none a m (constant (F := Ideal) S1024x1024 .f32 0x00000000#32) (ix2 r k)
      = ∑ t : Fin 1024, a (ix2 r t) * m (ix2 t k) := by
  refine (Ideal.matmul_constant_zero_apply dot_S1024x1024_S1024x1024_S1024x1024_1_0_0_1_n_n none a m (ix2 r k)).trans ?_
  rw [← Equiv.sum_comp (contrEquiv1 dot_S1024x1024_S1024x1024_S1024x1024_1_0_0_1_n_n 1024 rfl rfl).symm]
  refine Finset.sum_congr rfl fun t _ => ?_
  have hk := contrEquiv1_symm_val dot_S1024x1024_S1024x1024_S1024x1024_1_0_0_1_n_n 1024 rfl rfl t
  have el : dot_S1024x1024_S1024x1024_S1024x1024_1_0_0_1_n_n.lhsIdx (ix2 r k) ((contrEquiv1 dot_S1024x1024_S1024x1024_S1024x1024_1_0_0_1_n_n 1024 rfl rfl).symm t) = ix2 r t :=
    funext fun ax => Fin.ext (by
      match ax with
      | ⟨0, _⟩ => exact matmul_sq_lhs0 _ _
      | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 r k) ((contrEquiv1 dot_S1024x1024_S1024x1024_S1024x1024_1_0_0_1_n_n 1024 rfl rfl).symm t) = ix2 t k :=
    funext fun ax => Fin.ext (by
      match ax with
      | ⟨0, _⟩ => exact (dot_S1024x1024_S1024x1024_S1024x1024_1_0_0_1_n_n.rhsIdx_val_of_single rfl _ _).trans hk
      | ⟨1, _⟩ => exact matmul_sq_rhs1 _ _)
  rw [el, er]

/-! ### The pieces of one pass of the first body -/

/-- The left 32 columns of a 512 x 64 array. -/
theorem slice_left_apply (y : S512x64.Idx → EReal) (h : S512x64.Slices ![0, 0] S512x32) (r : Fin 512) (l : Fin 32) :
    extractStridedSlice S512x32 ![0, 0] y h (ix2 r l) = y (ix2 r ⟨l.val, by have := l.isLt; omega⟩) :=
  extractStridedSlice_apply ![0, 0] y h (ix2 r l) (ix2 r ⟨l.val, by have := l.isLt; omega⟩) fun a => by
    match a with
    | ⟨0, _⟩ => show r.val = 0 + r.val; omega
    | ⟨1, _⟩ => show l.val = 0 + l.val; omega

/-- The right 32 columns of a 512 x 64 array. -/
theorem slice_right_apply (y : S512x64.Idx → EReal) (h : S512x64.Slices ![0, 32] S512x32) (r : Fin 512) (l : Fin 32) :
    extractStridedSlice S512x32 ![0, 32] y h (ix2 r l) = y (ix2 r ⟨32 + l.val, by have := l.isLt; omega⟩) :=
  extractStridedSlice_apply ![0, 32] y h (ix2 r l) (ix2 r ⟨32 + l.val, by have := l.isLt; omega⟩) fun a => by
    match a with
    | ⟨0, _⟩ => show r.val = 0 + r.val; omega
    | ⟨1, _⟩ => show 32 + l.val = 32 + l.val; rfl

/-- The exponentials `exp (a m + b)`, the bias row `b` added to every row, at row `r` and column `k`. -/
theorem expArr_apply (a : FVec Ideal S512x32 .bf16) (m : FVec Ideal S32x512 .bf16) (b : FVec Ideal S1x512 .f32)
    (h : S1x512.Broadcasts S512x512) (r : Fin 512) (k : Fin 512) :
    exp (addf (matmul dot_S512x32_S32x512_S512x512_1_0_0_1_n_n none a m (constant (F := Ideal) S512x512 .f32 0x00000000#32))
        (broadcastTo S512x512 b h)) (ix2 r k)
      = Ideal.exp ((∑ t : Fin 32, a (ix2 r t) * m (ix2 t k)) + b (ix2 (0 : Fin 1) k)) := by
  show Ideal.exp (matmul dot_S512x32_S32x512_S512x512_1_0_0_1_n_n none a m (constant (F := Ideal) S512x512 .f32 0x00000000#32) (ix2 r k)
      + broadcastTo S512x512 b h (ix2 r k)) = _
  rw [matmul_vm_apply, broadcastTo_1b_ab_apply]

/-- From the exponentials `e` to the stored value: the left 32 columns of `e ca` times the reciprocal of the
    right 32 columns. -/
theorem ratio_apply (e : FVec Ideal S512x512 .bf16) (ca : FVec Ideal S512x64 .bf16)
    (h0 : S512x64.Slices ![0, 0] S512x32) (h32 : S512x64.Slices ![0, 32] S512x32) (r : Fin 512) (l : Fin 32) :
    mulf (extractStridedSlice S512x32 ![0, 0]
          (matmul dot_S512x512_S512x64_S512x64_1_0_0_1_n_n none e ca (constant (F := Ideal) S512x64 .f32 0x00000000#32)) h0)
        (divf (broadcast S512x32 (Scalar.ofBits (F := Ideal) .f32 0x3F800000#32))
          (extractStridedSlice S512x32 ![0, 32]
            (matmul dot_S512x512_S512x64_S512x64_1_0_0_1_n_n none e ca (constant (F := Ideal) S512x64 .f32 0x00000000#32)) h32)) (ix2 r l)
      = (∑ k : Fin 512, e (ix2 r k) * ca (ix2 k ⟨l.val, by have := l.isLt; omega⟩))
        * Ideal.div 1 (∑ k : Fin 512, e (ix2 r k) * ca (ix2 k ⟨32 + l.val, by have := l.isLt; omega⟩)) := by
  rw [mulf_apply, divf_apply, broadcast_apply, slice_left_apply, slice_right_apply, matmul_eca_apply, matmul_eca_apply]
  show _ * Ideal.div (Ideal.ofBits .f32 0x3F800000#32) _ = _
  rw [Ideal.ofBits_one_f32]

/-! ### One pass of the first body at an index -/

/-- One pass at row `r`, column `l`: with `E k = exp (∑ t, vj[r, t] mm[t, k] + b[0, k])`, the sum of `E k ca[k, l]`
    times the reciprocal of the sum of `E k ca[k, 32 + l]`. -/
theorem groupVal_apply (vj : Vec Ideal S512x32 .f32) (mm : Vec Ideal S32x512 .bf16) (b : Vec Ideal S1x512 .f32)
    (ca : Vec Ideal S512x64 .bf16) (r : Fin 512) (l : Fin 32) :
    BodyFns.groupVal (F := Ideal) vj mm b ca (ix2 r l)
      = (∑ k : Fin 512, Ideal.exp ((∑ t : Fin 32, vj (ix2 r t) * mm (ix2 t k)) + b (ix2 (0 : Fin 1) k))
            * ca (ix2 k ⟨l.val, by have := l.isLt; omega⟩))
        * Ideal.div 1 (∑ k : Fin 512, Ideal.exp ((∑ t : Fin 32, vj (ix2 r t) * mm (ix2 t k)) + b (ix2 (0 : Fin 1) k))
            * ca (ix2 k ⟨32 + l.val, by have := l.isLt; omega⟩)) := by
  unfold BodyFns.groupVal
  simp only [shapeCast_self]
  refine (ratio_apply _ ca _ _ r l).trans ?_
  have hE : ∀ k : Fin 512,
      (truncf .bf16 (exp (addf (matmul dot_S512x32_S32x512_S512x512_1_0_0_1_n_n none
          (truncf .bf16 vj bitsLt_bf16_f32) mm (constant (F := Ideal) S512x512 .f32 0x00000000#32))
          (broadcastTo S512x512 b broadcasts_S1x512_S512x512))) bitsLt_bf16_f32 : FVec Ideal S512x512 .bf16) (ix2 r k)
        = Ideal.exp ((∑ t : Fin 32, vj (ix2 r t) * mm (ix2 t k)) + b (ix2 (0 : Fin 1) k)) := fun k =>
    expArr_apply (truncf .bf16 vj bitsLt_bf16_f32) mm b broadcasts_S1x512_S512x512 r k
  simp only [hE]

/-! ### The second body at an index -/

/-- `max (x w1) 0` times `w2` at row `r`, column `s`. -/
theorem mlpVal_apply (x w1 w2 : Vec Ideal S1024x1024 .f32) (r s : Fin 1024) :
    BodyFns.mlpVal (F := Ideal) x w1 w2 (ix2 r s)
      = ∑ j : Fin 1024, max (∑ i : Fin 1024, x (ix2 r i) * w1 (ix2 i j)) 0 * w2 (ix2 j s) := by
  unfold BodyFns.mlpVal
  simp only [shapeCast_self]
  refine (matmul_sq_apply _ _ r s).trans ?_
  refine Finset.sum_congr rfl fun j _ => ?_
  refine congrArg (· * w2 (ix2 j s)) ?_
  show max (matmul dot_S1024x1024_S1024x1024_S1024x1024_1_0_0_1_n_n none (truncf .bf16 x bitsLt_bf16_f32) (truncf .bf16 w1 bitsLt_bf16_f32)
      (constant (F := Ideal) S1024x1024 .f32 0x00000000#32) (ix2 r j)) (Ideal.ofBits .f32 0x00000000#32) = _
  rw [matmul_sq_apply, Ideal.ofBits_zero_f32]
  rfl

/-! ### The bridge to the specification -/

/-- One pass is the plain arrangement: when row `r` of the group holds code vector `n`, `mm` is twice the
    transposed centroids, `b` minus their squared norms, and `ca` the centroids beside a column of ones, the value
    at row `r`, column `l` is coordinate `l` of the replaced vector `n`. -/
theorem groupVal_eq_qPlain (p : Fin 2097152 → EReal) (c : Fin 512 → Fin 32 → EReal) (n : Fin 65536)
    (vj : Vec Ideal S512x32 .f32) (mm : Vec Ideal S32x512 .bf16) (b : Vec Ideal S1x512 .f32)
    (ca : Vec Ideal S512x64 .bf16) (r : Fin 512) (l : Fin 32)
    (hv : ∀ t : Fin 32, vj (ix2 r t) = Cert.Quantizer.vec p n t)
    (hm : ∀ (t : Fin 32) (k : Fin 512), mm (ix2 t k) = 2 * c k t)
    (hb : ∀ k : Fin 512, b (ix2 (0 : Fin 1) k) = -(Cert.Quantizer.csq c k))
    (hc : ∀ k : Fin 512, ca (ix2 k ⟨l.val, by have := l.isLt; omega⟩) = c k l)
    (h1 : ∀ k : Fin 512, ca (ix2 k ⟨32 + l.val, by have := l.isLt; omega⟩) = 1) :
    BodyFns.groupVal (F := Ideal) vj mm b ca (ix2 r l) = Cert.Quantizer.qPlain p c n l := by
  rw [groupVal_apply]
  unfold Cert.Quantizer.qPlain Cert.Quantizer.logit
  simp only [hv, hm, hb, hc, h1]

/-- The second body is the two layers: when row `r` of the block `xb` is row `R` of `x`, `w1` the upper half of
    `w` and `w2` its lower half, the value at row `r`, column `s` is `relu (x w1) w2` at row `R`, column `s`. -/
theorem mlpVal_eq_mlp (x : Fin 2048 → Fin 1024 → EReal) (w : Fin 2048 → Fin 1024 → EReal) (R : Fin 2048)
    (xb w1 w2 : Vec Ideal S1024x1024 .f32) (r s : Fin 1024)
    (hx : ∀ i : Fin 1024, xb (ix2 r i) = x R i)
    (hw1 : ∀ i j : Fin 1024, w1 (ix2 i j) = w ⟨i.val, by have := i.isLt; omega⟩ j)
    (hw2 : ∀ j : Fin 1024, w2 (ix2 j s) = w ⟨1024 + j.val, by have := j.isLt; omega⟩ s) :
    BodyFns.mlpVal (F := Ideal) xb w1 w2 (ix2 r s) = Cert.Quantizer.mlp x w R s := by
  rw [mlpVal_apply]
  unfold Cert.Quantizer.mlp
  simp only [hx, hw1, hw2]

end Cert.KernelIdeal.BodyValue

end
-- ==== Proof.ArrayMlp.lean ====
/-
  From the blocks of the second region to its output array.

  The region's grid has two points; point `t` is handed rows `1024 t .. 1024 t + 1024` of the input array `x` and,
  at both points, the upper and the lower half of the weight array `w`, and writes back rows
  `1024 t .. 1024 t + 1024` of the output. Each written block is the same rows of the one function
  `relu (x w1) w2` of the whole arrays, and the two blocks cover the output array, so the array ends holding that
  function.
-/
import proofs.«124686_g53111565582714_cont_9to1c4b_343_15_alg».proof.Proof.FrameMlp
import proofs.«124686_g53111565582714_cont_9to1c4b_343_15_alg».proof.Proof.KernelValue
import Idealize.ShloMosaic.Lib.Pipeline.Value

set_option maxRecDepth 16384

noncomputable section

namespace Cert.KernelIdeal.ArrayValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.BodyFns Cert.KernelIdeal.Frame Cert.KernelIdeal.BodyValue

variable (V : (c : Dev nD) → (b : Ref sig .tc) → Buf (Elt Ideal) ((c : Thread nD τ).loc b))

theorem hz1 : (![0, 0] : Fin 2 → Nat) = fun _ => 0 := funext fun a => by fin_cases a <;> rfl

/-- The two layers of the whole arrays, index by index. -/
def G1 (x : Fin 2048 → Fin 1024 → EReal) (w : Fin 2048 → Fin 1024 → EReal) : S2048x1024.Idx → EReal :=
  fun i => Cert.Quantizer.mlp x w ⟨(i 0).val, idx2_lt0 i⟩ ⟨(i 1).val, idx2_lt1 i⟩

/-- The index maps over the grid: the input rows and the output rows move with the point, the two weight windows
    stay on the upper and the lower half. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 1 ∧ win1_2.index t (1 : Fin 2) = 0
    ∧ win1_3.index t (0 : Fin 2) = t.val ∧ win1_3.index t (1 : Fin 2) = 0 ∧ t.val < 2 :=
  (by decide +kernel : ∀ t : Fin grid1.N, _)

/-- One written block at row `r`, column `s`: the two layers at row `1024 t + r`. -/
theorem block1_apply (x : Fin 2048 → Fin 1024 → EReal) (w : Fin 2048 → Fin 1024 → EReal) (c : Dev nD)
    (hx : ∀ (r : Fin 2048) (i : Fin 1024), V c main_arg0 (ix2 r i) = x r i)
    (hw : ∀ (i : Fin 2048) (j : Fin 1024), V c main_v12 (ix2 i j) = w i j)
    (t : Fin cfg1.N) (r s : Fin 1024) (R : Fin 2048) (hR : R.val = 1024 * t.val + r.val) :
    mlpVal (F := Ideal) (iblk1 V c 0 t) (iblk1 V c 1 t) (iblk1 V c 2 t) (ix2 r s) = Cert.Quantizer.mlp x w R s := by
  obtain ⟨e00, e01, e10, e11, e20, e21, e30, e31, ht⟩ := idx_facts1 t
  refine mlpVal_eq_mlp x w R _ _ _ r s (fun i => ?_) (fun i j => ?_) (fun j => ?_)
  · show V c main_arg0 (((cfg1.win 0).blk t).view.emb (ix2 r i)) = _
    rw [← hx]
    refine congrArg _ (funext fun a => Fin.ext ?_)
    match a with
    | ⟨0, _⟩ => show win1_0.index t (0 : Fin 2) * 1024 + 1 * r.val = R.val; omega
    | ⟨1, _⟩ => show win1_0.index t (1 : Fin 2) * 1024 + 1 * i.val = i.val; omega
  · show V c main_v12 (((cfg1.win 1).blk t).view.emb (ix2 i j)) = _
    rw [← hw]
    refine congrArg _ (funext fun a => Fin.ext ?_)
    match a with
    | ⟨0, _⟩ => show win1_1.index t (0 : Fin 2) * 1024 + 1 * i.val = i.val; omega
    | ⟨1, _⟩ => show win1_1.index t (1 : Fin 2) * 1024 + 1 * j.val = j.val; omega
  · show V c main_v12 (((cfg1.win 2).blk t).view.emb (ix2 j s)) = _
    rw [← hw]
    refine congrArg _ (funext fun a => Fin.ext ?_)
    match a with
    | ⟨0, _⟩ => show win1_2.index t (0 : Fin 2) * 1024 + 1 * j.val = 1024 + j.val; omega
    | ⟨1, _⟩ => show win1_2.index t (1 : Fin 2) * 1024 + 1 * s.val = s.val; omega

/-- The same at an index `j` of the block, its row and column named. -/
theorem block1_at (x : Fin 2048 → Fin 1024 → EReal) (w : Fin 2048 → Fin 1024 → EReal) (c : Dev nD)
    (hx : ∀ (r : Fin 2048) (i : Fin 1024), V c main_arg0 (ix2 r i) = x r i)
    (hw : ∀ (i : Fin 2048) (j : Fin 1024), V c main_v12 (ix2 i j) = w i j)
    (t : Fin cfg1.N) (j : S1024x1024.Idx) (R : Fin 2048) (hR : R.val = 1024 * t.val + (j 0).val)
    (s' : Fin 1024) (hs : s'.val = (j 1).val) :
    mlpVal (F := Ideal) (iblk1 V c 0 t) (iblk1 V c 1 t) (iblk1 V c 2 t) j = Cert.Quantizer.mlp x w R s' := by
  obtain ⟨r, s, rfl⟩ : ∃ (r : Fin 1024) (s : Fin 1024), j = ix2 r s := ⟨j 0, j 1, eq_ix2 j⟩
  have hss : s' = s := Fin.ext hs
  subst hss
  exact block1_apply V x w c hx hw t r s' R hR

/-- What point `t` writes back is block `t` of the two layers of the whole arrays. -/
theorem flushed1_eq (x : Fin 2048 → Fin 1024 → EReal) (w : Fin 2048 → Fin 1024 → EReal) (c : Dev nD)
    (hx : ∀ (r : Fin 2048) (i : Fin 1024), V c main_arg0 (ix2 r i) = x r i)
    (hw : ∀ (i : Fin 2048) (j : Fin 1024), V c main_v12 (ix2 i j) = w i j) (t : Fin cfg1.N) :
    (dat1 V c).flushed 3 t = ((cfg1.win 3).blk t).view.read (Elt Ideal) (G1 x w) := by
  show (cfg1.win 3).cut (grid1.coords t) ((dat1 V c).after 3 t) = _
  rw [after1_3]
  unfold out1_3
  rw [View.canon_unit_zero hz1]
  simp only [View.ld_unit_zero (S := S1024x1024) hz1]
  obtain ⟨e00, e01, e10, e11, e20, e21, e30, e31, ht⟩ := idx_facts1 t
  funext j
  show mlpVal (F := Ideal) (iblk1 V c 0 t) (iblk1 V c 1 t) (iblk1 V c 2 t) j
    = G1 x w (((cfg1.win 3).blk t).view.emb j)
  unfold G1
  refine block1_at V x w c hx hw t j _ ?_ _ ?_
  · show win1_3.index t (0 : Fin 2) * 1024 + 1 * (j 0).val = 1024 * t.val + (j 0).val
    omega
  · show win1_3.index t (1 : Fin 2) * 1024 + 1 * (j 1).val = (j 1).val
    omega

/-- An index of the output array is in point `t`'s block iff each coordinate is in the block's range. -/
theorem mem_blk1 (t : Fin cfg1.N) (i : S2048x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v13).slice (win1_3.rect t)).set ↔ _
  rw [View.set_slice_whole, Rect.mem_set_unit]
  exact Iff.rfl

/-- Every index of the output array is in the block of the point that handles its row. -/
theorem cover1 (i : S2048x1024.Idx) :
    ∃ t : Fin cfg1.N, (cfg1.win 3).flush t = true ∧ i ∈ ((cfg1.win 3).blk t).view.set := by
  have hi0 : (i 0).val < 2048 := idx2_lt0 i
  have hi1 : (i 1).val < 1024 := idx2_lt1 i
  have hN : cfg1.N = 2 := N_1
  refine ⟨⟨(i 0).val / 1024, by rw [hN]; omega⟩, flush1_3 _, ?_⟩
  obtain ⟨e00, e01, e10, e11, e20, e21, e30, e31, ht⟩ := idx_facts1 ⟨(i 0).val / 1024, by rw [hN]; omega⟩
  rw [mem_blk1]
  intro a
  match a with
  | ⟨0, _⟩ =>
    show win1_3.index ⟨(i 0).val / 1024, _⟩ (0 : Fin 2) * 1024 ≤ (i 0).val
      ∧ (i 0).val < win1_3.index ⟨(i 0).val / 1024, _⟩ (0 : Fin 2) * 1024 + 1024
    rw [e30]; show (i 0).val / 1024 * 1024 ≤ (i 0).val ∧ (i 0).val < (i 0).val / 1024 * 1024 + 1024; omega
  | ⟨1, _⟩ =>
    show win1_3.index ⟨(i 0).val / 1024, _⟩ (1 : Fin 2) * 1024 ≤ (i 1).val
      ∧ (i 1).val < win1_3.index ⟨(i 0).val / 1024, _⟩ (1 : Fin 2) * 1024 + 1024
    rw [e31]; omega

/-- The output array after the region: the two layers of the whole arrays. -/
theorem final1 (x : Fin 2048 → Fin 1024 → EReal) (w : Fin 2048 → Fin 1024 → EReal) (c : Dev nD)
    (hx : ∀ (r : Fin 2048) (i : Fin 1024), V c main_arg0 (ix2 r i) = x r i)
    (hw : ∀ (i : Fin 2048) (j : Fin 1024), V c main_v12 (ix2 i j) = w i j) :
    (dat1 V c).arrAt 3 cfg1.N = G1 x w :=
  (dat1 V c).arrAt_eq_of_cover 3 (G1 x w) (fun t _ => flushed1_eq V x w c hx hw t) cover1

/-- The same at row `r`, column `s`. -/
theorem final1_apply (x : Fin 2048 → Fin 1024 → EReal) (w : Fin 2048 → Fin 1024 → EReal) (c : Dev nD)
    (hx : ∀ (r : Fin 2048) (i : Fin 1024), V c main_arg0 (ix2 r i) = x r i)
    (hw : ∀ (i : Fin 2048) (j : Fin 1024), V c main_v12 (ix2 i j) = w i j) (r : Fin 2048) (s : Fin 1024) :
    (dat1 V c).arrAt 3 cfg1.N (ix2 r s) = Cert.Quantizer.mlp x w r s := by
  rw [final1 V x w c hx hw]
  rfl

end Cert.KernelIdeal.ArrayValue

end
-- ==== Proof.QuantBlock.lean ====
/-
  The quantizer body's output block, read at an entry.

  The body stores the 512 x 1024 output block in 32 column groups: group `g` is all 512 rows of columns
  `32 g .. 32 g + 32`, and its payload is one pass of the body on the same columns of the first operand and the three
  small operands whole. The groups' columns are pairwise disjoint, so at an entry `(r, 32 g + l)` the first stored
  piece that holds the entry is group `g`'s, whatever the order of the stores, and the block reads that pass at
  `(r, l)`. Membership of an entry in a group is arithmetic on its column alone: `32 h <= 32 g + l < 32 h + 32` with
  `l < 32` forces `h = g`.
-/
import proofs.«124686_g53111565582714_cont_9to1c4b_343_15_alg».proof.Proof.FrameQuant
import Idealize.ShloMosaic.Lib.Pipeline.Value
import Idealize.ShloMosaic.Lib.ValueIdx

set_option maxRecDepth 16384

noncomputable section

namespace Cert.KernelIdeal.Frame

open Idealize.ShloMosaic Idealize.ShloMosaic.ValueIdx
open Cert.KernelIdeal Cert.KernelIdeal.Gen Cert.KernelIdeal.BodyFns

variable {F : FTy → Type} [FloatOps F]

/-! ## The column groups -/

/-- Column group `g` lies inside the 512 x 1024 block. -/
theorem colGroup_inb (g : Fin 32) : ∀ a, (![0, 32 * g.val] : Fin 2 → Nat) a + S512x32.size a ≤ S512x1024.size a :=
  Rect.inb₂ (by show 0 + 512 ≤ 512; omega) (by have := g.isLt; show 32 * g.val + 32 ≤ 1024; omega)

/-- Column group `g` of the 512 x 1024 block: all 512 rows, columns `32 g .. 32 g + 32`. -/
abbrev colGroup (g : Fin 32) : Rect S512x1024 := Rect.unit (s := S512x1024) ![0, 32 * g.val] S512x32.size (colGroup_inb g)

/-- Column `t` of group `g` is column `32 g + t` of the block. -/
abbrev colIn (g t : Fin 32) : Fin 1024 := ⟨32 * g.val + t.val, by have := g.isLt; have := t.isLt; omega⟩

/-- Entry `(r, t)` of group `g` sits at entry `(r, 32 g + t)` of the block. -/
theorem colGroup_emb (g : Fin 32) (r : Fin 512) (t : Fin 32) :
    (colGroup g).emb (ix2 r t : S512x32.Idx) = ix2 r (colIn g t) := by
  funext a
  match a with
  | ⟨0, _⟩ => exact Fin.ext (by show 0 + 1 * r.val = r.val; omega)
  | ⟨1, _⟩ => exact Fin.ext (by show 32 * g.val + 1 * t.val = 32 * g.val + t.val; omega)

/-- An entry in a column of group `g` lies in no other group. -/
theorem not_mem_colGroup {h g : Fin 32} (hne : h ≠ g) (r : Fin 512) (t : Fin 32) :
    (ix2 r (colIn g t) : S512x1024.Idx) ∉ (colGroup h).set := by
  rw [Rect.mem_set_unit]
  intro hc
  have h1 := hc ⟨1, by decide⟩
  have h2 : 32 * h.val ≤ 32 * g.val + t.val ∧ 32 * g.val + t.val < 32 * h.val + 32 := h1
  have := t.isLt
  exact hne (Fin.ext (by omega))

/-- The groups in the order the body stores them last first: 31 down to 0. -/
abbrev groupsDesc : List (Fin 32) := [31, 30, 29, 28, 27, 26, 25, 24, 23, 22, 21, 20, 19, 18, 17, 16, 15, 14, 13, 12, 11, 10, 9, 8, 7, 6, 5, 4, 3, 2, 1, 0]

/-- Every group is in the list. -/
theorem mem_groupsDesc (g : Fin 32) : g ∈ groupsDesc := by revert g; decide

/-- One piece per column group of a list, with payload `f g`. -/
abbrev colPieces (f : Fin 32 → Vec F S512x32 .f32) (l : List (Fin 32)) : List (View.Piece (Elt F) S512x1024 .f32) :=
  l.map fun g => ⟨colGroup g, f g⟩

/-- What stores of whole column groups leave at an entry of group `g`, when `g` is among them: `g`'s payload there.
    The first listed piece whose rectangle holds the entry is `g`'s, the groups' columns being disjoint. -/
theorem canon_colPieces (f : Fin 32 → Vec F S512x32 .f32) (g : Fin 32) (r : Fin 512) (t : Fin 32) :
    ∀ l : List (Fin 32), g ∈ l → View.canon (colPieces f l) (ix2 r (colIn g t)) = f g (ix2 r t)
  | [], hm => absurd hm List.not_mem_nil
  | h :: l, hm => by
    by_cases hg : h = g
    · subst hg
      exact (congrArg (View.canon ((⟨colGroup h, f h⟩ : View.Piece (Elt F) S512x1024 .f32) :: colPieces f l))
          (colGroup_emb h r t).symm).trans
        (View.canon_cons_emb (colGroup h) (f h) (colPieces f l) (ix2 r t : S512x32.Idx))
    · exact (View.canon_cons_of_not_mem (⟨colGroup h, f h⟩ : View.Piece (Elt F) S512x1024 .f32) (colPieces f l)
          (y := (ix2 r (colIn g t) : S512x1024.Idx)) (not_mem_colGroup hg r t)).trans
        (canon_colPieces f g r t l ((List.mem_cons.mp hm).resolve_left (Ne.symm hg)))

/-! ## The loads -/

/-- Columns `32 g .. 32 g + 32` of a 512 x 1024 array, as a 512 x 32 array. -/
def colsOf (x0 : Vec F S512x1024 .f32) (g : Fin 32) : Vec F S512x32 .f32 :=
  fun j => x0 (ix2 (j 0) (colIn g (j 1)))

/-- Its entry `(r, t)` is the array's entry `(r, 32 g + t)`. -/
theorem colsOf_apply (x0 : Vec F S512x1024 .f32) (g : Fin 32) (r : Fin 512) (t : Fin 32) :
    colsOf x0 g (ix2 r t) = x0 (ix2 r (colIn g t)) := rfl

/-- A load through column group `g` reads those columns. -/
theorem ld_colGroup (x0 : Vec F S512x1024 .f32) (g : Fin 32) : View.ld x0 (colGroup g) = colsOf x0 g := by
  funext j
  rw [eq_ix2 j]
  exact congrArg x0 (colGroup_emb g (j 0) (j 1))

/-- The zero offsets of a whole rank-2 operand, as a function. -/
theorem zero2 : (![0, 0] : Fin 2 → Nat) = fun _ => 0 := funext fun a => by fin_cases a <;> rfl

/-! ## The output block at an entry -/

/-- The output block is the stores of the 32 column groups, last first. -/
theorem out0_4_eq (x0 : Vec F S512x1024 .f32) (x1 : Vec F S32x512 .bf16) (x2 : Vec F S1x512 .f32) (x3 : Vec F S512x64 .bf16) :
    out0_4 x0 x1 x2 x3
      = View.canon (colPieces (fun g => groupVal (View.ld x0 (colGroup g)) (View.ld x1 rM) (View.ld x2 rB) (View.ld x3 rCA)) groupsDesc) := rfl

/-- The output block at row `r`, column `32 g + l`: one pass of the body on columns `32 g .. 32 g + 32` of the first
    operand and the three small operands whole, read at `(r, l)`. -/
theorem out0_4_apply (x0 : Vec F S512x1024 .f32) (x1 : Vec F S32x512 .bf16) (x2 : Vec F S1x512 .f32) (x3 : Vec F S512x64 .bf16)
    (g : Fin 32) (r : Fin 512) (l : Fin 32) :
    out0_4 x0 x1 x2 x3 (ix2 r (colIn g l)) = groupVal (colsOf x0 g) x1 x2 x3 (ix2 r l) := by
  rw [out0_4_eq, canon_colPieces _ g r l groupsDesc (mem_groupsDesc g)]
  simp only [ld_colGroup, View.ld_unit_zero (S := S32x512) zero2, View.ld_unit_zero (S := S1x512) zero2,
    View.ld_unit_zero (S := S512x64) zero2]

/-- The same at a column `j` of the block: its group is `j / 32`, its place in the group `j % 32`. -/
theorem out0_4_apply_col (x0 : Vec F S512x1024 .f32) (x1 : Vec F S32x512 .bf16) (x2 : Vec F S1x512 .f32) (x3 : Vec F S512x64 .bf16)
    (r : Fin 512) (j : Fin 1024) :
    out0_4 x0 x1 x2 x3 (ix2 r j)
      = groupVal (colsOf x0 ⟨j.val / 32, by have := j.isLt; omega⟩) x1 x2 x3 (ix2 r ⟨j.val % 32, Nat.mod_lt _ (by decide)⟩) := by
  have hj : j = colIn ⟨j.val / 32, by have := j.isLt; omega⟩ ⟨j.val % 32, Nat.mod_lt _ (by decide)⟩ :=
    Fin.ext (by show j.val = 32 * (j.val / 32) + j.val % 32; omega)
  exact (congrArg (fun j' => out0_4 x0 x1 x2 x3 (ix2 r j')) hj).trans (out0_4_apply x0 x1 x2 x3 _ r _)

end Cert.KernelIdeal.Frame

end
-- ==== Proof.ArrayQuant.lean ====
/-
  From the blocks of the first region to its output array.

  The region's grid has four points; point `t` is handed rows `512 t .. 512 t + 512` of the 2048 x 1024 array of
  code vectors and, at every point, the same three small arrays, and writes back the same rows of the output. In
  a block, row `r` and columns `32 g .. 32 g + 32` hold one code vector, number `32 (512 t + r) + g`; the body
  replaces it by one pass of the quantizer, which is the plain arrangement of the softmax-weighted centroid
  average. So each written block is the same rows of one function of the whole arrays — the weight array built
  from the replaced vectors — and the four blocks cover the output array.
-/
import proofs.«124686_g53111565582714_cont_9to1c4b_343_15_alg».proof.Proof.FrameQuant
import proofs.«124686_g53111565582714_cont_9to1c4b_343_15_alg».proof.Proof.QuantBlock
import proofs.«124686_g53111565582714_cont_9to1c4b_343_15_alg».proof.Proof.KernelValue
import Idealize.ShloMosaic.Lib.Pipeline.Value

set_option maxRecDepth 16384

noncomputable section

namespace Cert.KernelIdeal.ArrayValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.BodyFns Cert.KernelIdeal.Frame Cert.KernelIdeal.BodyValue

variable (V : (c : Dev nD) → (b : Ref sig .tc) → Buf (Elt Ideal) ((c : Thread nD τ).loc b))

/-- The weight array built from the replaced vectors, index by index. -/
def G0 (p : Fin 2097152 → EReal) (cc : Fin 512 → Fin 32 → EReal) : S2048x1024.Idx → EReal :=
  fun i => Cert.Quantizer.weights (Cert.Quantizer.qPlain p cc) ⟨(i 0).val, idx2_lt0 i⟩ ⟨(i 1).val, idx2_lt1 i⟩

/-- The index maps over the grid: the input rows and the output rows move with the point, the three small arrays are
    whole at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 4 :=
  (by decide +kernel : ∀ t : Fin grid0.N, _)

/-- One pass on column group `g` of the block at point `t`, at row `r` and coordinate `l`: coordinate `l` of the
    replaced vector `32 (512 t + r) + g`. The group is any array `vj` that reads as those columns of the block. -/
theorem pass0_apply (p : Fin 2097152 → EReal) (cc : Fin 512 → Fin 32 → EReal) (c : Dev nD)
    (h0 : ∀ (i : Fin 2048) (j : Fin 1024), @Eq EReal (V c main_v0 (ix2 i j)) (p ⟨1024 * i.val + j.val, by have := i.isLt; have := j.isLt; omega⟩))
    (h4 : ∀ (t : Fin 32) (k : Fin 512), @Eq EReal (V c main_v4 (ix2 t k)) (2 * cc k t))
    (h8 : ∀ k : Fin 512, @Eq EReal (V c main_v8 (ix2 (0 : Fin 1) k)) (-(Cert.Quantizer.csq cc k)))
    (h11a : ∀ (k : Fin 512) (l : Fin 32), @Eq EReal (V c main_v11 (ix2 k ⟨l.val, by have := l.isLt; omega⟩)) (cc k l))
    (h11b : ∀ (k : Fin 512) (l : Fin 32), @Eq EReal (V c main_v11 (ix2 k ⟨32 + l.val, by have := l.isLt; omega⟩)) 1)
    (t : Fin cfg0.N) (r : Fin 512) (g l : Fin 32) (vj : Vec Ideal S512x32 .f32)
    (hvj : ∀ t' : Fin 32, vj (ix2 r t')
      = iblk0 V c 0 t (ix2 r ⟨32 * g.val + t'.val, by have := g.isLt; have := t'.isLt; omega⟩))
    (n : Fin 65536) (hn : n.val = 32 * (512 * t.val + r.val) + g.val) :
    groupVal (F := Ideal) vj (iblk0 V c 1 t) (iblk0 V c 2 t) (iblk0 V c 3 t) (ix2 r l)
      = Cert.Quantizer.qPlain p cc n l := by
  obtain ⟨e00, e01, e10, e11, e20, e21, e30, e31, e40, e41, ht⟩ := idx_facts0 t
  have hr := r.isLt; have hg := g.isLt
  refine groupVal_eq_qPlain p cc n vj _ _ _ r l (fun t' => ?_) (fun t' k => ?_) (fun k => ?_) (fun k => ?_) (fun k => ?_)
  · have ht' := t'.isLt
    rw [hvj t']
    show V c main_v0 (((cfg0.win 0).blk t).view.emb (ix2 r ⟨32 * g.val + t'.val, _⟩)) = _
    have e : ((cfg0.win 0).blk t).view.emb (ix2 r ⟨32 * g.val + t'.val, by omega⟩)
        = ix2 (⟨512 * t.val + r.val, by omega⟩ : Fin 2048) (⟨32 * g.val + t'.val, by omega⟩ : Fin 1024) :=
      funext fun a => Fin.ext (by
        match a with
        | ⟨0, _⟩ => show win0_0.index t (0 : Fin 2) * 512 + 1 * r.val = 512 * t.val + r.val; omega
        | ⟨1, _⟩ => show win0_0.index t (1 : Fin 2) * 1024 + 1 * (32 * g.val + t'.val) = 32 * g.val + t'.val; omega)
    rw [e, h0]
    unfold Cert.Quantizer.vec
    exact congrArg p (Fin.ext (by show 1024 * (512 * t.val + r.val) + (32 * g.val + t'.val) = 32 * n.val + t'.val; omega))
  · show V c main_v4 (((cfg0.win 1).blk t).view.emb (ix2 t' k)) = _
    rw [← h4]
    refine congrArg _ (funext fun a => Fin.ext ?_)
    match a with
    | ⟨0, _⟩ => show win0_1.index t (0 : Fin 2) * 32 + 1 * t'.val = t'.val; omega
    | ⟨1, _⟩ => show win0_1.index t (1 : Fin 2) * 512 + 1 * k.val = k.val; omega
  · show V c main_v8 (((cfg0.win 2).blk t).view.emb (ix2 (0 : Fin 1) k)) = _
    rw [← h8]
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * k.val = k.val; omega
  · show V c main_v11 (((cfg0.win 3).blk t).view.emb (ix2 k ⟨l.val, _⟩)) = _
    rw [← h11a]
    refine congrArg _ (funext fun a => Fin.ext ?_)
    match a with
    | ⟨0, _⟩ => show win0_3.index t (0 : Fin 2) * 512 + 1 * k.val = k.val; omega
    | ⟨1, _⟩ => show win0_3.index t (1 : Fin 2) * 64 + 1 * l.val = l.val; omega
  · show V c main_v11 (((cfg0.win 3).blk t).view.emb (ix2 k ⟨32 + l.val, _⟩)) = _
    rw [← h11b k l]
    refine congrArg _ (funext fun a => Fin.ext ?_)
    match a with
    | ⟨0, _⟩ => show win0_3.index t (0 : Fin 2) * 512 + 1 * k.val = k.val; omega
    | ⟨1, _⟩ => show win0_3.index t (1 : Fin 2) * 64 + 1 * (32 + l.val) = 32 + l.val; omega

/-- What the block read must provide: the output block at row `r`, column `32 g + l` is one pass on an array that
    reads, in row `r`, as column group `g` of the input block. -/
abbrev BlockRead : Prop :=
  (∀ (x0 : Vec Ideal S512x1024 .f32) (x1 : Vec Ideal S32x512 .bf16) (x2 : Vec Ideal S1x512 .f32)
      (x3 : Vec Ideal S512x64 .bf16) (r : Fin 512) (g l : Fin 32),
      ∃ vj : Vec Ideal S512x32 .f32,
        (∀ t' : Fin 32, vj (ix2 r t') = x0 (ix2 r ⟨32 * g.val + t'.val, by have := g.isLt; have := t'.isLt; omega⟩))
        ∧ out0_4 x0 x1 x2 x3 (ix2 r ⟨32 * g.val + l.val, by have := g.isLt; have := l.isLt; omega⟩)
            = groupVal vj x1 x2 x3 (ix2 r l))

/-- The written block at an index `j`, its row and column in the whole array named. -/
theorem block0_at (hQB : BlockRead) (p : Fin 2097152 → EReal) (cc : Fin 512 → Fin 32 → EReal) (c : Dev nD)
    (h0 : ∀ (i : Fin 2048) (j : Fin 1024), @Eq EReal (V c main_v0 (ix2 i j)) (p ⟨1024 * i.val + j.val, by have := i.isLt; have := j.isLt; omega⟩))
    (h4 : ∀ (t : Fin 32) (k : Fin 512), @Eq EReal (V c main_v4 (ix2 t k)) (2 * cc k t))
    (h8 : ∀ k : Fin 512, @Eq EReal (V c main_v8 (ix2 (0 : Fin 1) k)) (-(Cert.Quantizer.csq cc k)))
    (h11a : ∀ (k : Fin 512) (l : Fin 32), @Eq EReal (V c main_v11 (ix2 k ⟨l.val, by have := l.isLt; omega⟩)) (cc k l))
    (h11b : ∀ (k : Fin 512) (l : Fin 32), @Eq EReal (V c main_v11 (ix2 k ⟨32 + l.val, by have := l.isLt; omega⟩)) 1)
    (t : Fin cfg0.N) (j : S512x1024.Idx) (I : Fin 2048) (hI : I.val = 512 * t.val + (j 0).val)
    (J : Fin 1024) (hJ : J.val = (j 1).val) :
    out0_4 (iblk0 V c 0 t) (iblk0 V c 1 t) (iblk0 V c 2 t) (iblk0 V c 3 t) j
      = Cert.Quantizer.weights (Cert.Quantizer.qPlain p cc) I J := by
  obtain ⟨r, col, rfl⟩ : ∃ (r : Fin 512) (col : Fin 1024), j = ix2 r col := ⟨j 0, j 1, eq_ix2 j⟩
  have hcol := col.isLt
  have hJ' : J = col := Fin.ext hJ
  subst hJ'
  have hsplit : J = (⟨32 * (J.val / 32) + J.val % 32, by omega⟩ : Fin 1024) := Fin.ext (by show J.val = 32 * (J.val / 32) + J.val % 32; omega)
  obtain ⟨vj, hvj, hout⟩ := hQB (iblk0 V c 0 t) (iblk0 V c 1 t) (iblk0 V c 2 t) (iblk0 V c 3 t) r
    ⟨J.val / 32, by omega⟩ ⟨J.val % 32, by omega⟩
  rw [hsplit, hout]
  unfold Cert.Quantizer.weights
  have hI' : I.val = 512 * t.val + r.val := hI
  refine (pass0_apply V p cc c h0 h4 h8 h11a h11b t r ⟨J.val / 32, by omega⟩ ⟨J.val % 32, by omega⟩ vj hvj
    ⟨32 * I.val + J.val / 32, by have := I.isLt; omega⟩
    (by show 32 * I.val + J.val / 32 = 32 * (512 * t.val + r.val) + J.val / 32; omega)).trans ?_
  congr 1 <;> exact Fin.ext (by simp only []; omega)

/-- What point `t` writes back is block `t` of the weight array built from the replaced vectors. -/
theorem flushed0_eq (hQB : BlockRead) (p : Fin 2097152 → EReal) (cc : Fin 512 → Fin 32 → EReal) (c : Dev nD)
    (h0 : ∀ (i : Fin 2048) (j : Fin 1024), @Eq EReal (V c main_v0 (ix2 i j)) (p ⟨1024 * i.val + j.val, by have := i.isLt; have := j.isLt; omega⟩))
    (h4 : ∀ (t : Fin 32) (k : Fin 512), @Eq EReal (V c main_v4 (ix2 t k)) (2 * cc k t))
    (h8 : ∀ k : Fin 512, @Eq EReal (V c main_v8 (ix2 (0 : Fin 1) k)) (-(Cert.Quantizer.csq cc k)))
    (h11a : ∀ (k : Fin 512) (l : Fin 32), @Eq EReal (V c main_v11 (ix2 k ⟨l.val, by have := l.isLt; omega⟩)) (cc k l))
    (h11b : ∀ (k : Fin 512) (l : Fin 32), @Eq EReal (V c main_v11 (ix2 k ⟨32 + l.val, by have := l.isLt; omega⟩)) 1)
    (t : Fin cfg0.N) :
    (dat0 V c).flushed 4 t = ((cfg0.win 4).blk t).view.read (Elt Ideal) (G0 p cc) := by
  show (cfg0.win 4).cut (grid0.coords t) ((dat0 V c).after 4 t) = _
  rw [after0_4]
  obtain ⟨e00, e01, e10, e11, e20, e21, e30, e31, e40, e41, ht⟩ := idx_facts0 t
  funext j
  show out0_4 (iblk0 V c 0 t) (iblk0 V c 1 t) (iblk0 V c 2 t) (iblk0 V c 3 t) j
    = G0 p cc (((cfg0.win 4).blk t).view.emb j)
  unfold G0
  refine block0_at V hQB p cc c h0 h4 h8 h11a h11b t j _ ?_ _ ?_
  · show win0_4.index t (0 : Fin 2) * 512 + 1 * (j 0).val = 512 * t.val + (j 0).val
    omega
  · show win0_4.index t (1 : Fin 2) * 1024 + 1 * (j 1).val = (j 1).val
    omega

/-- An index of the output array is in point `t`'s block iff each coordinate is in the block's range. -/
theorem mem_blk0 (t : Fin cfg0.N) (i : S2048x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v12).slice (win0_4.rect t)).set ↔ _
  rw [View.set_slice_whole, Rect.mem_set_unit]
  exact Iff.rfl

/-- Every index of the output array is in the block of the point that handles its row. -/
theorem cover0 (i : S2048x1024.Idx) :
    ∃ t : Fin cfg0.N, (cfg0.win 4).flush t = true ∧ i ∈ ((cfg0.win 4).blk t).view.set := by
  have hi0 : (i 0).val < 2048 := idx2_lt0 i
  have hi1 : (i 1).val < 1024 := idx2_lt1 i
  have hN : cfg0.N = 4 := N_0
  refine ⟨⟨(i 0).val / 512, by rw [hN]; omega⟩, flush0_4 _, ?_⟩
  obtain ⟨e00, e01, e10, e11, e20, e21, e30, e31, e40, e41, ht⟩ := idx_facts0 ⟨(i 0).val / 512, by rw [hN]; omega⟩
  rw [mem_blk0]
  intro a
  match a with
  | ⟨0, _⟩ =>
    show win0_4.index ⟨(i 0).val / 512, _⟩ (0 : Fin 2) * 512 ≤ (i 0).val
      ∧ (i 0).val < win0_4.index ⟨(i 0).val / 512, _⟩ (0 : Fin 2) * 512 + 512
    rw [e40]; show (i 0).val / 512 * 512 ≤ (i 0).val ∧ (i 0).val < (i 0).val / 512 * 512 + 512; omega
  | ⟨1, _⟩ =>
    show win0_4.index ⟨(i 0).val / 512, _⟩ (1 : Fin 2) * 1024 ≤ (i 1).val
      ∧ (i 1).val < win0_4.index ⟨(i 0).val / 512, _⟩ (1 : Fin 2) * 1024 + 1024
    rw [e41]; omega

/-- The output array after the region: the weight array built from the replaced vectors. -/
theorem final0_of (hQB : BlockRead) (p : Fin 2097152 → EReal) (cc : Fin 512 → Fin 32 → EReal) (c : Dev nD)
    (h0 : ∀ (i : Fin 2048) (j : Fin 1024), @Eq EReal (V c main_v0 (ix2 i j)) (p ⟨1024 * i.val + j.val, by have := i.isLt; have := j.isLt; omega⟩))
    (h4 : ∀ (t : Fin 32) (k : Fin 512), @Eq EReal (V c main_v4 (ix2 t k)) (2 * cc k t))
    (h8 : ∀ k : Fin 512, @Eq EReal (V c main_v8 (ix2 (0 : Fin 1) k)) (-(Cert.Quantizer.csq cc k)))
    (h11a : ∀ (k : Fin 512) (l : Fin 32), @Eq EReal (V c main_v11 (ix2 k ⟨l.val, by have := l.isLt; omega⟩)) (cc k l))
    (h11b : ∀ (k : Fin 512) (l : Fin 32), @Eq EReal (V c main_v11 (ix2 k ⟨32 + l.val, by have := l.isLt; omega⟩)) 1) :
    (dat0 V c).arrAt 4 cfg0.N = G0 p cc :=
  (dat0 V c).arrAt_eq_of_cover 4 (G0 p cc) (fun t _ => flushed0_eq V hQB p cc c h0 h4 h8 h11a h11b t) cover0

/-- The same at row `i`, column `j`. -/
theorem final0_apply_of (hQB : BlockRead) (p : Fin 2097152 → EReal) (cc : Fin 512 → Fin 32 → EReal) (c : Dev nD)
    (h0 : ∀ (i : Fin 2048) (j : Fin 1024), @Eq EReal (V c main_v0 (ix2 i j)) (p ⟨1024 * i.val + j.val, by have := i.isLt; have := j.isLt; omega⟩))
    (h4 : ∀ (t : Fin 32) (k : Fin 512), @Eq EReal (V c main_v4 (ix2 t k)) (2 * cc k t))
    (h8 : ∀ k : Fin 512, @Eq EReal (V c main_v8 (ix2 (0 : Fin 1) k)) (-(Cert.Quantizer.csq cc k)))
    (h11a : ∀ (k : Fin 512) (l : Fin 32), @Eq EReal (V c main_v11 (ix2 k ⟨l.val, by have := l.isLt; omega⟩)) (cc k l))
    (h11b : ∀ (k : Fin 512) (l : Fin 32), @Eq EReal (V c main_v11 (ix2 k ⟨32 + l.val, by have := l.isLt; omega⟩)) 1)
    (i : Fin 2048) (j : Fin 1024) :
    @Eq EReal ((dat0 V c).arrAt 4 cfg0.N (ix2 i j)) (Cert.Quantizer.weights (Cert.Quantizer.qPlain p cc) i j) := by
  rw [final0_of V hQB p cc c h0 h4 h8 h11a h11b]
  rfl

/-- The block read: the output block at row `r`, column `32 g + l` is one pass on column group `g` of the input
    block. -/
theorem blockRead : BlockRead := fun x0 x1 x2 x3 r g l =>
  ⟨colsOf x0 g, fun t' => colsOf_apply x0 g r t', out0_4_apply x0 x1 x2 x3 g r l⟩

/-- The output array after the region, at row `i`, column `j`: coordinate `j % 32` of the replaced code vector
    `32 i + j / 32`. -/
theorem final0_apply (p : Fin 2097152 → EReal) (cc : Fin 512 → Fin 32 → EReal) (c : Dev nD)
    (h0 : ∀ (i : Fin 2048) (j : Fin 1024), @Eq EReal (V c main_v0 (ix2 i j)) (p ⟨1024 * i.val + j.val, by have := i.isLt; have := j.isLt; omega⟩))
    (h4 : ∀ (t : Fin 32) (k : Fin 512), @Eq EReal (V c main_v4 (ix2 t k)) (2 * cc k t))
    (h8 : ∀ k : Fin 512, @Eq EReal (V c main_v8 (ix2 (0 : Fin 1) k)) (-(Cert.Quantizer.csq cc k)))
    (h11a : ∀ (k : Fin 512) (l : Fin 32), @Eq EReal (V c main_v11 (ix2 k ⟨l.val, by have := l.isLt; omega⟩)) (cc k l))
    (h11b : ∀ (k : Fin 512) (l : Fin 32), @Eq EReal (V c main_v11 (ix2 k ⟨32 + l.val, by have := l.isLt; omega⟩)) 1)
    (i : Fin 2048) (j : Fin 1024) :
    @Eq EReal ((dat0 V c).arrAt 4 cfg0.N (ix2 i j)) (Cert.Quantizer.weights (Cert.Quantizer.qPlain p cc) i j) :=
  final0_apply_of V blockRead p cc c h0 h4 h8 h11a h11b i j

end Cert.KernelIdeal.ArrayValue

end
-- ==== Proof.Bridge.lean ====
/-
  The two idealized programs end with the same result.

  On each core the kernel program's run leaves in its result array what its second region's write-backs leave:
  `relu (x w1) w2` of the first argument array and of the weight array the first region wrote — which, from the
  four operands the host stretch prepared (the parameter vector as a 2048 x 1024 array, twice the centroids
  transposed, minus their squared norms, the centroids beside a block of ones), holds each code vector replaced by
  `(sum_k e_k c_k) * (1 / sum_k e_k)` with `e_k = exp (v . 2 c_k - |c_k|^2)`. The reference's run leaves the same
  two-layer product of the weights with `softmax_k (-|v - c_k|^2)` computed with the row maximum subtracted. For real
  inputs, which the precondition gives, the two weight arrays are equal entry by entry (`SoftmaxLaw`).
-/
import proofs.«124686_g53111565582714_cont_9to1c4b_343_15_alg».proof.Defs
import proofs.«124686_g53111565582714_cont_9to1c4b_343_15_alg».proof.Proof.RefValue
import proofs.«124686_g53111565582714_cont_9to1c4b_343_15_alg».proof.Proof.SoftmaxLaw
import proofs.«124686_g53111565582714_cont_9to1c4b_343_15_alg».proof.Proof.FiniteInputs
import proofs.«124686_g53111565582714_cont_9to1c4b_343_15_alg».proof.Proof.HostValues
import proofs.«124686_g53111565582714_cont_9to1c4b_343_15_alg».proof.Proof.ArrayMlp
import proofs.«124686_g53111565582714_cont_9to1c4b_343_15_alg».proof.Proof.ArrayQuant
import proofs.«124686_g53111565582714_cont_9to1c4b_343_15_alg».proof.Proof.FrameRun

noncomputable section

namespace Cert.Proof.Bridge

open Idealize.ShloMosaic Idealize.ShloMosaic.TcCoe Idealize.SL.Sem Idealize.ShloMosaic.ValueIdx
open Cert.Quantizer Cert.KernelIdeal Cert.KernelIdeal.Gen Cert.KernelIdeal.Frame

variable (m : (ℓ : Loc nD τ sig) → Buf (Elt Ideal) ℓ) (c : Dev nD)

/-- The three argument arrays on core `c`, as plain functions of their coordinates. -/
def argX : Fin 2048 → Fin 1024 → EReal := fun r i => m ((c.tc : Thread nD τ).loc main_arg0) (ix2 r i)
def argP : Fin 2097152 → EReal := fun i => m ((c.tc : Thread nD τ).loc main_arg1) (ix1 i)
def argC : Fin 512 → Fin 32 → EReal := fun k l => m ((c.tc : Thread nD τ).loc main_arg2) (ix2 k l)

/-- What both programs leave in the result array: `relu (x w1) w2` with the weights in the plain arrangement. -/
def result : Buf (Elt Ideal) ((c.tc : Thread nD τ).loc main_v13) :=
  fun idx => mlp (argX m c) (weights (qPlain (argP m c) (argC m c))) (idx 0) (idx 1)

/-- When the second region is entered the first argument array is as launched: neither the host stretch nor the
    first region writes it. -/
theorem entry_x (r : Fin 2048) (i : Fin 1024) : @Eq EReal (V2 m c main_arg0 (ix2 r i)) (argX m c r i) :=
  congrFun ((W2_of_ne m c main_arg0 (by decide)).trans (V1_of m c main_arg0 (by decide))) (ix2 r i)

/-- When the second region is entered the weight array holds what the first region's write-backs left: the replaced
    code vectors in the plain arrangement, from the four operands the host stretch prepared. -/
theorem entry_w (i : Fin 2048) (j : Fin 1024) :
    @Eq EReal (V2 m c main_v12 (ix2 i j)) (weights (qPlain (argP m c) (argC m c)) i j) := by
  have e : V2 m c main_v12 = (dat0 (V1 m) c).arrAt 4 cfg0.N := W2_arr m c 4
  rw [e]
  exact Cert.KernelIdeal.ArrayValue.final0_apply (V1 m) (argP m c) (argC m c) c
    (fun i j => Cert.KernelIdeal.HostValues.v0_at m c i j)
    (fun t k => Cert.KernelIdeal.HostValues.v4_at m c t k)
    (fun k => Cert.KernelIdeal.HostValues.v8_at m c k)
    (fun k l => Cert.KernelIdeal.HostValues.v11_at_left m c k l)
    (fun k l => Cert.KernelIdeal.HostValues.v11_at_right m c k l) i j

/-- The kernel's result array after the run is `result`. -/
theorem kernel_value : (dat1 (V2 m) c).arrAt 3 cfg1.N = result m c := by
  funext idx
  rw [eq_ix2 idx]
  exact Cert.KernelIdeal.ArrayValue.final1_apply (V2 m) (argX m c) (weights (qPlain (argP m c) (argC m c))) c
    (entry_x m c) (entry_w m c) (idx 0) (idx 1)

end Cert.Proof.Bridge

namespace Cert.Proof.Bridge

open Idealize.ShloMosaic Idealize.SL.Sem Idealize.ShloMosaic.ValueIdx Cert.Quantizer

/-- At the extended reals, from memories agreeing on finite arguments, the idealized kernel and the idealized
    reference both run to the end with the same result array: the kernel's run leaves `relu (x w1) w2` with the weights
    in the plain arrangement, the reference's the same with the weights in the shifted arrangement, and the two
    arrangements are the same numbers for real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => result m c, ?_, ?_⟩
  · exact (θ_run Cert.KernelIdeal.defs _ _).mono (fun _ h c => ⟨(h c).1.trans (kernel_value m c), (h c).2⟩)
      (Cert.KernelIdeal.Frame.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq m' c, (hagree c).1, (hagree c).2.1, (hagree c).2.2]
    obtain ⟨-, hp, hc⟩ := Cert.FiniteInputs.finite_of_Pre_KernelIdeal m hpre c
    funext idx
    unfold result argX argP argC
    rw [mlp_weights_qShifted_eq_qPlain _ _ _ (fun i => hp (ix1 i)) (fun k l => hc (ix2 k l))]

end Cert.Proof.Bridge

end
-- ==== Proof.lean ====
/-
  The certificate: the word-level kernel program and its idealization each run to the end on every core, fault
  nowhere and leave the three argument arrays as launched (two pipelined kernel regions behind a stretch of host
  operations, the second region reading one weight array through two windows); the reference does the same; the
  idealization rewrote nothing; and at the extended reals, for finite inputs, both programs end with the same
  result: the softmax-weighted averages of the centroids, computed with or without the row maximum subtracted and
  with the common factor exp(-|v|^2) kept or dropped, are the same numbers, so the two weight arrays agree and with
  them relu (x w1) w2.
-/
import proofs.«124686_g53111565582714_cont_9to1c4b_343_15_alg».proof.Defs
import proofs.«124686_g53111565582714_cont_9to1c4b_343_15_alg».proof.Proof.Gen.Kernel
import proofs.«124686_g53111565582714_cont_9to1c4b_343_15_alg».proof.Proof.Gen.KernelIdeal
import proofs.«124686_g53111565582714_cont_9to1c4b_343_15_alg».proof.Proof.Gen.ReferenceIdeal
import proofs.«124686_g53111565582714_cont_9to1c4b_343_15_alg».proof.Proof.Gen.Pre_finite_inputs
import proofs.«124686_g53111565582714_cont_9to1c4b_343_15_alg».proof.Proof.RefGen
import proofs.«124686_g53111565582714_cont_9to1c4b_343_15_alg».proof.Proof.FrameRun
import proofs.«124686_g53111565582714_cont_9to1c4b_343_15_alg».proof.Proof.KFrameRun
import proofs.«124686_g53111565582714_cont_9to1c4b_343_15_alg».proof.Proof.Bridge
import Idealize.ShloMosaic.Adequacy
import Idealize.ShloMosaic.Init

noncomputable section

namespace Cert.Proof

open Idealize.ShloMosaic Idealize.SL.Sem

/-- The word-level program's frame: the run over its segments, read at the three argument arrays. -/
theorem frame_k : Cert.frame_Kernel (hKernel := Cert.Kernel.Gen.facts) (hPre_finite_inputs := Cert.Pre_finite_inputs.Gen.facts) :=
  fun m ρ _ => Cert.Kernel.Frame.frame m ρ

/-- The idealized program's frame, the same run read at the extended reals. -/
theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Bridge.algebraic⟩

end Cert.Proof

end
